-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192 : Shape := ⟨2, ![4, 8192]⟩
abbrev S4x512x3 : Shape := ⟨3, ![4, 512, 3]⟩
abbrev S4x512 : Shape := ⟨2, ![4, 512]⟩
abbrev S4x512x512 : Shape := ⟨3, ![4, 512, 512]⟩
abbrev S4x512x1 : Shape := ⟨3, ![4, 512, 1]⟩
abbrev S4x1x512 : Shape := ⟨3, ![4, 1, 512]⟩
abbrev S_ : Shape := ⟨0, ![]⟩

abbrev nBuf : Space → Nat
  | .hbm => 21
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192, .f32⟩
  | .hbm, ⟨4, _⟩ => ⟨S_, .f32⟩
  | .hbm, ⟨5, _⟩ => ⟨S4x8192, .f32⟩
  | .hbm, ⟨6, _⟩ => ⟨S4x8192, .f32⟩
  | .hbm, ⟨7, _⟩ => ⟨S_, .f32⟩
  | .hbm, ⟨8, _⟩ => ⟨S4x8192, .f32⟩
  | .hbm, ⟨9, _⟩ => ⟨S4x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512x3, .f32⟩
  | .local _ .vmem, ⟨8, _⟩ => ⟨S4x512x3, .f32⟩
  | .local _ .vmem, ⟨9, _⟩ => ⟨S4x512x3, .f32⟩
  | .local _ .vmem, ⟨10, _⟩ => ⟨S4x512x3, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_cst_5 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_14 : BitVec 32 := 0#32
  let v26 : BitVec 1 := Scalar.cmpi .ne v25 c0_i32_14
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_14 : BitVec 32 := 0#32
  let v26 : BitVec 1 := Scalar.cmpi .ne v25 c0_i32_14
  v26

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x512x3_S4x512x3_0_0_0 : ∀ a, (![0, 0, 0] : Fin 3 → Nat) a + S4x512x3.size a ≤ S4x512x3.size a
  h_S4x512x3 : 0 < S4x512x3.numel
  reduces_S4x512x3_S4x512 : S4x512x3.Reduces [2] S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  bcast_S_S4x8192 : S_.BroadcastsInDim S4x8192 (![] : Fin 0 → Fin S4x8192.rank)
  reducesTo_S4x8192_S_d0_1 : S4x8192.ReducesTo [0, 1] S_
  h_S_ : 0 < S_.numel
  dot_S4x512x3_S4x512x3_S4x512x512_2_2_1_1_0_0_wf : DotDims.WF S4x512x3 S4x512x3 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

def dot_S4x512x3_S4x512x3_S4x512x512_2_2_1_1_0_0 : DotDims S4x512x3 S4x512x3 S4x512x512 where
  lhsContracting := [2]
  rhsContracting := [2]
  lhsNonContracting := [1]
  rhsNonContracting := [1]
  lhsBatch := [0]
  rhsBatch := [0]
  wf := dot_S4x512x3_S4x512x3_S4x512x512_2_2_1_1_0_0_wf

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_cst_9 : Ref sig .tc := ⟨.hbm, 34, rfl⟩
abbrev main_v22 : Ref sig .tc := ⟨.hbm, 35, rfl⟩
abbrev main_v23 : Ref sig .tc := ⟨.hbm, 36, rfl⟩
abbrev main_cst_10 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  bcast_S_S4x8192 : S_.BroadcastsInDim S4x8192 (![] : Fin 0 → Fin S4x8192.rank)
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KKit0.lean ====
/-
  Region 0 of the program (its first pairwise-minimum call), the facts every later module of the region is stated over.
  The grid is 16 × 16, walked row by row: point `t` is block row `t / 16` of the query cloud against block `t % 16`
  of the searched cloud. The body resets the running minimum (a scratch buffer the kernel keeps between points) at
  the first block of a row (`t % 16 = 0`), folds the block's row minima into it at every point, and copies it to the
  output block at the last block of a row (`t % 16 = 15`), the only points where the output block is written back.
  Here: the two branch conditions in closed form over the grid, where the output window is idle and where it is live,
  the staging and scratch memrefs the body is called with, each input window's block at a point, and how the region's
  invariant opens into "the scratch at some contents, the other scoped buffers, the generator register" and closes back.
-/
import proofs.«164772_j40913858462218_1_alg».proof.Proof.Gen.Kernel.Launch
import proofs.«164772_j40913858462218_1_alg».proof.Proof.Gen.Kernel.Skeleton
import proofs.«164772_j40913858462218_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- "This is the first block of the row": the body's first `scf.if`, as it computes it from the grid coordinates. -/
abbrev condFirst (i : grid0.Coords) : Prop := (Scalar.cmpi .ne (Scalar.extui (Scalar.cmpi .eq (BitVec.ofNat 32 (i 1).val) 0#32)) 0#32) = 1#1
theorem condFirst_iff : ∀ t : Fin cfg0.N, condFirst (grid0.coords t) ↔ t.val % 16 = 0 :=
  (by decide +kernel : ∀ t : Fin grid0.N, condFirst (grid0.coords t) ↔ t.val % 16 = 0)

/-- "This is the last block of the row": the body's second `scf.if`. -/
abbrev condLast (i : grid0.Coords) : Prop := k0_cond2 i = 1#1
theorem condLast_iff : ∀ t : Fin cfg0.N, condLast (grid0.coords t) ↔ t.val % 16 = 15 :=
  (by decide +kernel : ∀ t : Fin grid0.N, condLast (grid0.coords t) ↔ t.val % 16 = 15)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Away from a row's last block the body stores nothing into the output block, and the block is not written back. -/
theorem idle_2 : ∀ t : Fin cfg0.N, ¬condLast (grid0.coords t) → cfg0.idle 2 (grid0.coords t) = true := by decide +kernel
theorem noFlush_2 : ∀ t : Fin cfg0.N, ¬condLast (grid0.coords t) → (cfg0.win 2).flush t = false := by decide +kernel
/-- At a row's last block the output block is stored whole. -/
theorem live_2 : ∀ t : Fin cfg0.N, condLast (grid0.coords t) → cfg0.idle 2 (grid0.coords t) = false := by decide +kernel

/-! ## The memrefs the body is called with -/

abbrev ms_0 (t : Fin cfg0.N) : Memref sig .tc .vmem S4x512x3 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S4x512x3 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S4x512 .f32 := win0_2.stage (cfg0.slots t 2)
abbrev hs_2 (t : Fin cfg0.N) : (ms_2 t).IsWhole := hstage0_2 ((cfg0.slots t 2).cast nbuf0_2)
/-- The running minimum's buffer: a whole scoped buffer of the kernel's own, passed beside the windows. -/
abbrev scM : Memref sig .tc .vmem S4x512 .f32 := Memref.whole cc0_scratch0
/-- Views through which the output block's and the running minimum's contents are stated. -/
abbrev VO : View sig .tc .vmem S4x512 .f32 := (Memref.whole cc0_stg2_0 : Memref sig .tc .vmem S4x512 .f32).view
abbrev VS : View sig .tc .vmem S4x512 .f32 := (scM : Memref sig .tc .vmem S4x512 .f32).view

/-! ## The region's invariant, opened and closed -/

/-- The core's scoped buffers that are neither this region's staging buffers nor its running minimum: the other
    region's, each whole at some contents. The body never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- Before the first point the region holds its scoped rest at anything: the running minimum's buffer at some contents,
    the other scoped buffers, and the generator register at some state. -/
theorem PhiA_open (c : Dev nD) :
    (Pipeline.ΦA spec0 c : sProp 𝕄) ⊢ iprop((∃ d, owns (c : Thread nD τ) scM fullShare d) ∗ others (F := F) c ∗ (∃ r, prngReg c r)) := by
  unfold Pipeline.ΦA others; rw [scopedRest0_eq]; simp only [scM, owns_whole]
  iintro ⟨⟨HS, Hoth⟩, Hg⟩
  isplitl [HS]; · iexact HS
  isplitl [Hoth]; · iexact Hoth
  iexact Hg

/-- And any contents of the running minimum's buffer give that back. -/
theorem PhiA_close (c : Dev nD) :
    iprop((∃ d, owns (c : Thread nD τ) scM fullShare d) ∗ others (F := F) c ∗ (∃ r, prngReg c r)) ⊢ (Pipeline.ΦA spec0 c : sProp 𝕄) := by
  unfold Pipeline.ΦA others; rw [scopedRest0_eq]; simp only [scM, owns_whole]
  iintro ⟨HS, Hoth, Hg⟩
  isplitl [HS Hoth]
  · isplitl [HS]; · iexact HS
    iexact Hoth
  iexact Hg

/-! ## The windows' blocks, at the contents `V` the region is entered with -/

section Blocks
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    over `V` whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Blocks

end Cert.Kernel.Reg0

end
-- ==== Proof.KRun0First.lean ====
/-
  Region 0's body at the first block of a row (the running minimum is reset; it may hold anything on entry): on whole staging memrefs — the two input blocks at their contents,
  the output block at contents handed back untouched — the body runs without fault to a state holding the inputs as they were and the
  running minimum's buffer with the stores' pieces written. The pieces are found by running the body symbolically.
-/
import proofs.«164772_j40913858462218_1_alg».proof.Proof.KKit0

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : condFirst i) (hc1 : ¬condLast i)
    (x0 x1 : Vec F S4x512x3 .f32) :
    { LS : List (View.Piece (Elt F) S4x512 .f32) //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__pairwise_min_kernel i arg2 harg2 arg3 harg3 arg4 harg4 arg5 harg5) K } := by
  refine ⟨?_, fun xi E K => ?run⟩
  case run =>
    simp only [cc0__pairwise_min_kernel_eq_skeleton]; unfold cc0__pairwise_min_kernel_skel
    unfold owns
    iintro ⟨⟨%f2, %hf2, H2⟩, ⟨%f3, %hf3, H3⟩, ⟨%f4, %hf4, H4⟩, ⟨%d5, %f5, -, H5⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.Kernel.Reg0

end
-- ==== Proof.KRun0Mid.lean ====
/-
  Region 0's body at a block that is neither first nor last in its row (the running minimum holds what the point before left): on whole staging memrefs — the two input blocks at their contents,
  the output block at contents handed back untouched — the body runs without fault to a state holding the inputs as they were and the
  running minimum's buffer with the stores' pieces written. The pieces are found by running the body symbolically.
-/
import proofs.«164772_j40913858462218_1_alg».proof.Proof.KKit0

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : ¬condLast i)
    (x0 x1 : Vec F S4x512x3 .f32) (xs : Vec F S4x512 .f32) :
    { LS : List (View.Piece (Elt F) S4x512 .f32) //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__pairwise_min_kernel i arg2 harg2 arg3 harg3 arg4 harg4 arg5 harg5) K } := by
  refine ⟨?_, fun xi E K => ?run⟩
  case run =>
    simp only [cc0__pairwise_min_kernel_eq_skeleton]; unfold cc0__pairwise_min_kernel_skel
    unfold owns
    iintro ⟨⟨%f2, %hf2, H2⟩, ⟨%f3, %hf3, H3⟩, ⟨%f4, %hf4, H4⟩, ⟨%f5, %hf5, H5⟩, Hk⟩
    obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.Kernel.Reg0

end
-- ==== Proof.KRun0Last.lean ====
/-
  Region 0's body at the last block of a row (the running minimum holds what the point before left; the output block is stored): on whole staging memrefs — the two input blocks at their contents,
  the output block at anything — the body runs without fault to a state holding the inputs as they were and the
  running minimum's buffer and the output block with the stores' pieces written. The pieces are found by running the body symbolically.
-/
import proofs.«164772_j40913858462218_1_alg».proof.Proof.KKit0

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i)
    (x0 x1 : Vec F S4x512x3 .f32) (xs : Vec F S4x512 .f32) :
    Σ' (LO : List (View.Piece (Elt F) S4x512 .f32)), { LS : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__pairwise_min_kernel i arg2 harg2 arg3 harg3 arg4 harg4 arg5 harg5) K } := by
  refine ⟨?_, ?_, fun E K => ?run⟩
  case run =>
    simp only [cc0__pairwise_min_kernel_eq_skeleton]; unfold cc0__pairwise_min_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2; obtain rfl := harg3.eq_unread hf3; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

end Cert.Kernel.Reg0

end
-- ==== Proof.KReg0.lean ====
/-
  Region 0: what the running minimum's buffer and the output block hold after every grid point, and the proof that the
  body, called by the pipeline at any point, does exactly that.
  After point `t` the running minimum holds what the point's case leaves in it: at the first block of a row, the block's
  row minima folded into +∞; otherwise folded into what point `t - 1` left. The output block is stored only at a row's
  last block, with the running minimum. The region's invariant between points says just this: before the first point the
  scoped buffers hold anything; after point `t` the running minimum's buffer holds the accumulated contents, the other
  scoped buffers anything.
-/
import proofs.«164772_j40913858462218_1_alg».proof.Proof.KRun0First
import proofs.«164772_j40913858462218_1_alg».proof.Proof.KRun0Mid
import proofs.«164772_j40913858462218_1_alg».proof.Proof.KRun0Last

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scoverFirst (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : condFirst i) (hc1 : ¬condLast i) (x0 x1 : Vec F S4x512x3 .f32) (y : S4x512.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S4x512.size (by sl_kernel_rfl) y
/-- The running minimum after a row's first block: the case's pieces read back. -/
def soutFirst (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : condFirst i) (hc1 : ¬condLast i) (x0 x1 : Vec F S4x512x3 .f32) : Vec F S4x512 .f32 :=
  VS.read (Elt F) (VS.writes (Elt F) VS.junk (runFirst c i arg2 harg2 arg3 harg3 arg4 harg4 arg5 harg5 hc0 hc1 x0 x1).1)

theorem scoverMid (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : ¬condLast i) (x0 x1 : Vec F S4x512x3 .f32) (xs : Vec F S4x512 .f32) (y : S4x512.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S4x512.size (by sl_kernel_rfl) y
/-- The running minimum after a middle block, over what the point before left (`xs`). -/
def soutMid (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : ¬condLast i) (x0 x1 : Vec F S4x512x3 .f32) (xs : Vec F S4x512 .f32) : Vec F S4x512 .f32 :=
  VS.read (Elt F) (VS.writes (Elt F) VS.junk (runMid c i arg2 harg2 arg3 harg3 arg4 harg4 arg5 harg5 hc0 hc1 x0 x1 xs).1)

theorem scoverLast (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) (y : S4x512.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S4x512.size (by sl_kernel_rfl) y
/-- The running minimum after a row's last block. -/
def soutLast (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) : Vec F S4x512 .f32 :=
  VS.read (Elt F) (VS.writes (Elt F) VS.junk (runLast c i arg2 harg2 arg3 harg3 arg4 harg4 arg5 harg5 hc0 hc1 x0 x1 xs).2.1)
theorem coverLast (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) (y : S4x512.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S4x512.size (by sl_kernel_rfl) y
/-- The output block after a row's last block. -/
def outLast (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) : Vec F S4x512 .f32 :=
  VO.read (Elt F) (VO.writes (Elt F) VO.junk (runLast c i arg2 harg2 arg3 harg3 arg4 harg4 arg5 harg5 hc0 hc1 x0 x1 xs).1)

/-- Where the body stores nothing into the output block: a placeholder nothing consults (the block is neither written
    back nor read at the next point there). -/
def idleOut : Vec F S4x512 .f32 := VO.read (Elt F) VO.junk

section Acc
variable (V : (c : Dev nD) → (b : Ref sig .tc) → Buf (Elt F) ((c : Thread nD τ).loc b))

/-! ## The accumulation -/

/-- After the body at position `n`: (the output block's staging buffer, the running minimum's buffer). -/
def outsAt (c : Dev nD) : (n : ℕ) → n < cfg0.N → Vec F S4x512 .f32 × Vec F S4x512 .f32
  | 0, hn => (idleOut, soutFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((condFirst_iff ⟨0, hn⟩).mpr (Nat.zero_mod _)) (fun h => (fun h => by (try dsimp only at h); omega) ((condLast_iff ⟨0, hn⟩).mp h)) (iblk V c 0 ⟨0, hn⟩) (iblk V c 1 ⟨0, hn⟩))
  | n + 1, hn =>
    if h0 : (n + 1) % 16 = 0 then
      if h1 : (n + 1) % 16 = 15 then
        False.elim (by omega)
      else
        (idleOut, soutFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((condFirst_iff ⟨n + 1, hn⟩).mpr h0) (fun h => h1 ((condLast_iff ⟨n + 1, hn⟩).mp h)) (iblk V c 0 ⟨n + 1, hn⟩) (iblk V c 1 ⟨n + 1, hn⟩))
    else
      if h1 : (n + 1) % 16 = 15 then
        (outLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (outsAt c n (Nat.lt_of_succ_lt hn)).2,
         soutLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (outsAt c n (Nat.lt_of_succ_lt hn)).2)
      else
        (idleOut, soutMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((condFirst_iff ⟨n + 1, hn⟩).mp h)) (fun h => h1 ((condLast_iff ⟨n + 1, hn⟩).mp h)) (iblk V c 0 ⟨n + 1, hn⟩) (iblk V c 1 ⟨n + 1, hn⟩) (outsAt c n (Nat.lt_of_succ_lt hn)).2)

theorem outsAt_First (c : Dev nD) (t : Fin cfg0.N) (h0 : t.val % 16 = 0) (h1 : ¬t.val % 16 = 15) :
    outsAt V c t.val t.isLt = (idleOut, soutFirst c (grid0.coords t) (ms_0 t) (hs_0 t) (ms_1 t) (hs_1 t) (ms_2 t) (hs_2 t) scM (Memref.isWhole_whole _) ((condFirst_iff t).mpr h0) (fun h => h1 ((condLast_iff t).mp h)) (iblk V c 0 t) (iblk V c 1 t)) := by
  obtain ⟨n, hn⟩ := t
  cases n with
  | zero => exact rfl
  | succ n => exact (dif_pos h0).trans ((dif_neg h1).trans rfl)

theorem outsAt_Mid (c : Dev nD) (t : Fin cfg0.N) (h0 : ¬t.val % 16 = 0) (h1 : ¬t.val % 16 = 15) :
    outsAt V c t.val t.isLt = (idleOut, soutMid c (grid0.coords t) (ms_0 t) (hs_0 t) (ms_1 t) (hs_1 t) (ms_2 t) (hs_2 t) scM (Memref.isWhole_whole _) (fun h => h0 ((condFirst_iff t).mp h)) (fun h => h1 ((condLast_iff t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_Last (c : Dev nD) (t : Fin cfg0.N) (h0 : ¬t.val % 16 = 0) (h1 : t.val % 16 = 15) :
    outsAt V c t.val t.isLt = (outLast c (grid0.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) (outsAt V c (t.val - 1) (Nat.lt_of_le_of_lt (Nat.sub_le _ _) t.isLt)).2,
      soutLast c (grid0.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the region's scoped rest at anything; afterwards the running minimum's
    buffer at what the point before left, the other scoped buffers at anything, the generator register at some state. -/
def PhiS (c : Dev nD) : (n : ℕ) → n ≤ cfg0.N → sProp 𝕄
  | 0, _ => Pipeline.ΦA spec0 c
  | n + 1, hn => iprop(owns (c : Thread nD τ) scM fullShare ((outsAt V c n hn).2) ∗ others (F := F) c ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(owns (c : Thread nD τ) scM fullShare ((outsAt V c n hn).2) ∗ others (F := F) c ∗ (∃ r, prngReg c r)) := rfl
theorem PhiS_pos (c : Dev nD) (n : ℕ) (h : n ≤ cfg0.N) (hz : n ≠ 0) :
    PhiS V c n h = iprop(owns (c : Thread nD τ) scM fullShare ((outsAt V c (n - 1) (by omega)).2) ∗ others (F := F) c ∗ (∃ r, prngReg c r)) := by
  cases n with
  | zero => exact absurd rfl hz
  | succ n => rfl

/-! ## The pipeline's proof data -/

/-- The arrays as the region finds them; after the body each input's buffer at its block, the output's at the
    accumulation's first component; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' memrefs hold their blocks; the closed forms say which case the point is in; the
    invariant hands the body the running minimum's buffer (at anything before the first point, at what the point before
    left afterwards) and takes it back at this point's contents; the other scoped buffers, the generator register and the
    core's dues pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 256 := lt_of_lt_of_eq t.isLt (show cfg0.N = 256 from N_0)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  by_cases h0 : t.val % 16 = 0
  · have h1 : ¬t.val % 16 = 15 := by omega
    rw [Dat.leavesExact_idle (dat V c) 2 t (idle_2 t (fun h => h1 ((condLast_iff t).mp h))) (noFlush_2 t (fun h => h1 ((condLast_iff t).mp h)))]
    rw [outsAt_First V c t h0 h1]
    unfold soutFirst; (try dsimp only)
    by_cases hz : t.val = 0
    · rw [PhiS_castSucc V c t, PhiS_zero V c _ _ hz]
      iintro ⟨HΦ, Ho, ⟨%d0, H0⟩, ⟨%d1, H1⟩, ⟨%d2, H2⟩⟩
      ihave HΦ' := (PhiA_open (F := F) c) $$ HΦ
      icases HΦ' with ⟨HS, Hoth, Hg⟩
      iapply ((runFirst c (grid0.coords t) (ms_0 t) (hs_0 t) (ms_1 t) (hs_1 t) (ms_2 t) (hs_2 t) scM (Memref.isWhole_whole _) ((condFirst_iff t).mpr h0) (fun h => h1 ((condLast_iff t).mp h)) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (scoverFirst c (grid0.coords t) (ms_0 t) (hs_0 t) (ms_1 t) (hs_1 t) (ms_2 t) (hs_2 t) scM (Memref.isWhole_whole _) _ _ _ _)
        isplitl [Hoth]; · iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨HS, Hoth, Hg⟩, Ho, ⟨%d0, H0⟩, ⟨%d1, H1⟩, ⟨%d2, H2⟩⟩
      iapply ((runFirst c (grid0.coords t) (ms_0 t) (hs_0 t) (ms_1 t) (hs_1 t) (ms_2 t) (hs_2 t) scM (Memref.isWhole_whole _) ((condFirst_iff t).mpr h0) (fun h => h1 ((condLast_iff t).mp h)) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (scoverFirst c (grid0.coords t) (ms_0 t) (hs_0 t) (ms_1 t) (hs_1 t) (ms_2 t) (hs_2 t) scM (Memref.isWhole_whole _) _ _ _ _)
        isplitl [Hoth]; · iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat V c).leavesExact 2 t = owns (c : Thread nD τ) (ms_2 t) fullShare ((dat V c).after 2 t) from by
        unfold Dat.leavesExact; rw [live_2 t ((condLast_iff t).mpr h1)], after_2]
      rw [outsAt_Last V c t h0 h1]
      unfold outLast soutLast; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runLast c (grid0.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS]
        · unfold owns; iexists _; isplitr
          swap; · iexact HS
          ipureintro; exact View.read_writes_of_cover _ _ _ _ _ (scoverLast c (grid0.coords t) (ms_0 t) (hs_0 t) (ms_1 t) (hs_1 t) (ms_2 t) (hs_2 t) scM (Memref.isWhole_whole _) _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c (grid0.coords t) (ms_0 t) (hs_0 t) (ms_1 t) (hs_1 t) (ms_2 t) (hs_2 t) scM (Memref.isWhole_whole _) _ _ _ _ _)
    · rw [Dat.leavesExact_idle (dat V c) 2 t (idle_2 t (fun h => h1 ((condLast_iff t).mp h))) (noFlush_2 t (fun h => h1 ((condLast_iff t).mp h)))]
      rw [outsAt_Mid V c t h0 h1]
      unfold soutMid; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runMid c (grid0.coords t) (ms_0 t) (hs_0 t) (ms_1 t) (hs_1 t) (ms_2 t) (hs_2 t) scM (Memref.isWhole_whole _) (fun h => h0 ((condFirst_iff t).mp h)) (fun h => h1 ((condLast_iff t).mp h)) (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (scoverMid c (grid0.coords t) (ms_0 t) (hs_0 t) (ms_1 t) (hs_1 t) (ms_2 t) (hs_2 t) scM (Memref.isWhole_whole _) _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest back: the running minimum's named contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 256 := N_0; omega)]
  have h : iprop(owns (c : Thread nD τ) scM fullShare ((outsAt V c ((Fin.last cfg0.N).val - 1) (by rw [Fin.val_last]; have : cfg0.N = 256 := N_0; omega)).2) ∗ others (F := F) c ∗ (∃ r, prngReg c r))
      ⊢ (iprop((∃ d, owns (c : Thread nD τ) scM fullShare d) ∗ others (F := F) c ∗ (∃ r, prngReg c r)) : sProp 𝕄) := by
    iintro ⟨HS, Hoth, Hg⟩
    isplitl [HS]; · iexists _; iexact HS
    isplitl [Hoth]; · iexact Hoth
    iexact Hg
  exact h.trans (PhiA_close (F := F) c)

end Acc

end Cert.Kernel.Reg0

end
-- ==== Proof.KKit1.lean ====
/-
  Region 1 of the program (its second pairwise-minimum call), the facts every later module of the region is stated over.
  The grid is 16 × 16, walked row by row: point `t` is block row `t / 16` of the query cloud against block `t % 16`
  of the searched cloud. The body resets the running minimum (a scratch buffer the kernel keeps between points) at
  the first block of a row (`t % 16 = 0`), folds the block's row minima into it at every point, and copies it to the
  output block at the last block of a row (`t % 16 = 15`), the only points where the output block is written back.
  Here: the two branch conditions in closed form over the grid, where the output window is idle and where it is live,
  the staging and scratch memrefs the body is called with, each input window's block at a point, and how the region's
  invariant opens into "the scratch at some contents, the other scoped buffers, the generator register" and closes back.
-/
import proofs.«164772_j40913858462218_1_alg».proof.Proof.Gen.Kernel.Launch
import proofs.«164772_j40913858462218_1_alg».proof.Proof.Gen.Kernel.Skeleton
import proofs.«164772_j40913858462218_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- "This is the first block of the row": the body's first `scf.if`, as it computes it from the grid coordinates. -/
abbrev condFirst (i : grid1.Coords) : Prop := (Scalar.cmpi .ne (Scalar.extui (Scalar.cmpi .eq (BitVec.ofNat 32 (i 1).val) 0#32)) 0#32) = 1#1
theorem condFirst_iff : ∀ t : Fin cfg1.N, condFirst (grid1.coords t) ↔ t.val % 16 = 0 :=
  (by decide +kernel : ∀ t : Fin grid1.N, condFirst (grid1.coords t) ↔ t.val % 16 = 0)

/-- "This is the last block of the row": the body's second `scf.if`. -/
abbrev condLast (i : grid1.Coords) : Prop := k1_cond2 i = 1#1
theorem condLast_iff : ∀ t : Fin cfg1.N, condLast (grid1.coords t) ↔ t.val % 16 = 15 :=
  (by decide +kernel : ∀ t : Fin grid1.N, condLast (grid1.coords t) ↔ t.val % 16 = 15)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
/-- Away from a row's last block the body stores nothing into the output block, and the block is not written back. -/
theorem idle_2 : ∀ t : Fin cfg1.N, ¬condLast (grid1.coords t) → cfg1.idle 2 (grid1.coords t) = true := by decide +kernel
theorem noFlush_2 : ∀ t : Fin cfg1.N, ¬condLast (grid1.coords t) → (cfg1.win 2).flush t = false := by decide +kernel
/-- At a row's last block the output block is stored whole. -/
theorem live_2 : ∀ t : Fin cfg1.N, condLast (grid1.coords t) → cfg1.idle 2 (grid1.coords t) = false := by decide +kernel

/-! ## The memrefs the body is called with -/

abbrev ms_0 (t : Fin cfg1.N) : Memref sig .tc .vmem S4x512x3 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S4x512x3 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S4x512 .f32 := win1_2.stage (cfg1.slots t 2)
abbrev hs_2 (t : Fin cfg1.N) : (ms_2 t).IsWhole := hstage1_2 ((cfg1.slots t 2).cast nbuf1_2)
/-- The running minimum's buffer: a whole scoped buffer of the kernel's own, passed beside the windows. -/
abbrev scM : Memref sig .tc .vmem S4x512 .f32 := Memref.whole cc1_scratch0
/-- Views through which the output block's and the running minimum's contents are stated. -/
abbrev VO : View sig .tc .vmem S4x512 .f32 := (Memref.whole cc1_stg2_0 : Memref sig .tc .vmem S4x512 .f32).view
abbrev VS : View sig .tc .vmem S4x512 .f32 := (scM : Memref sig .tc .vmem S4x512 .f32).view

/-! ## The region's invariant, opened and closed -/

/-- The core's scoped buffers that are neither this region's staging buffers nor its running minimum: the other
    region's, each whole at some contents. The body never touches them. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- Before the first point the region holds its scoped rest at anything: the running minimum's buffer at some contents,
    the other scoped buffers, and the generator register at some state. -/
theorem PhiA_open (c : Dev nD) :
    (Pipeline.ΦA spec1 c : sProp 𝕄) ⊢ iprop((∃ d, owns (c : Thread nD τ) scM fullShare d) ∗ others (F := F) c ∗ (∃ r, prngReg c r)) := by
  unfold Pipeline.ΦA others; rw [scopedRest1_eq]; simp only [scM, owns_whole]
  iintro ⟨⟨H1, H2, H3, H4, H5, H6, H7, HS⟩, Hg⟩
  isplitl [HS]; · iexact HS
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

/-- And any contents of the running minimum's buffer give that back. -/
theorem PhiA_close (c : Dev nD) :
    iprop((∃ d, owns (c : Thread nD τ) scM fullShare d) ∗ others (F := F) c ∗ (∃ r, prngReg c r)) ⊢ (Pipeline.ΦA spec1 c : sProp 𝕄) := by
  unfold Pipeline.ΦA others; rw [scopedRest1_eq]; simp only [scM, owns_whole]
  iintro ⟨HS, Hoth, Hg⟩
  icases Hoth with ⟨H1, H2, H3, H4, H5, H6, H7⟩
  isplitl [HS H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-! ## The windows' blocks, at the contents `V` the region is entered with -/

section Blocks
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    over `V` whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Blocks

end Cert.Kernel.Reg1

end
-- ==== Proof.KRun1First.lean ====
/-
  Region 1's body at the first block of a row (the running minimum is reset; it may hold anything on entry): on whole staging memrefs — the two input blocks at their contents,
  the output block at contents handed back untouched — the body runs without fault to a state holding the inputs as they were and the
  running minimum's buffer with the stores' pieces written. The pieces are found by running the body symbolically.
-/
import proofs.«164772_j40913858462218_1_alg».proof.Proof.KKit1

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runFirst (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : condFirst i) (hc1 : ¬condLast i)
    (x0 x1 : Vec F S4x512x3 .f32) :
    { LS : List (View.Piece (Elt F) S4x512 .f32) //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__pairwise_min_kernel i arg2 harg2 arg3 harg3 arg4 harg4 arg5 harg5) K } := by
  refine ⟨?_, fun xi E K => ?run⟩
  case run =>
    simp only [cc1__pairwise_min_kernel_eq_skeleton]; unfold cc1__pairwise_min_kernel_skel
    unfold owns
    iintro ⟨⟨%f2, %hf2, H2⟩, ⟨%f3, %hf3, H3⟩, ⟨%f4, %hf4, H4⟩, ⟨%d5, %f5, -, H5⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.Kernel.Reg1

end
-- ==== Proof.KRun1Mid.lean ====
/-
  Region 1's body at a block that is neither first nor last in its row (the running minimum holds what the point before left): on whole staging memrefs — the two input blocks at their contents,
  the output block at contents handed back untouched — the body runs without fault to a state holding the inputs as they were and the
  running minimum's buffer with the stores' pieces written. The pieces are found by running the body symbolically.
-/
import proofs.«164772_j40913858462218_1_alg».proof.Proof.KKit1

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runMid (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : ¬condLast i)
    (x0 x1 : Vec F S4x512x3 .f32) (xs : Vec F S4x512 .f32) :
    { LS : List (View.Piece (Elt F) S4x512 .f32) //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__pairwise_min_kernel i arg2 harg2 arg3 harg3 arg4 harg4 arg5 harg5) K } := by
  refine ⟨?_, fun xi E K => ?run⟩
  case run =>
    simp only [cc1__pairwise_min_kernel_eq_skeleton]; unfold cc1__pairwise_min_kernel_skel
    unfold owns
    iintro ⟨⟨%f2, %hf2, H2⟩, ⟨%f3, %hf3, H3⟩, ⟨%f4, %hf4, H4⟩, ⟨%f5, %hf5, H5⟩, Hk⟩
    obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.Kernel.Reg1

end
-- ==== Proof.KRun1Last.lean ====
/-
  Region 1's body at the last block of a row (the running minimum holds what the point before left; the output block is stored): on whole staging memrefs — the two input blocks at their contents,
  the output block at anything — the body runs without fault to a state holding the inputs as they were and the
  running minimum's buffer and the output block with the stores' pieces written. The pieces are found by running the body symbolically.
-/
import proofs.«164772_j40913858462218_1_alg».proof.Proof.KKit1

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runLast (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i)
    (x0 x1 : Vec F S4x512x3 .f32) (xs : Vec F S4x512 .f32) :
    Σ' (LO : List (View.Piece (Elt F) S4x512 .f32)), { LS : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__pairwise_min_kernel i arg2 harg2 arg3 harg3 arg4 harg4 arg5 harg5) K } := by
  refine ⟨?_, ?_, fun E K => ?run⟩
  case run =>
    simp only [cc1__pairwise_min_kernel_eq_skeleton]; unfold cc1__pairwise_min_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2; obtain rfl := harg3.eq_unread hf3; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

end Cert.Kernel.Reg1

end
-- ==== Proof.KReg1.lean ====
/-
  Region 1: what the running minimum's buffer and the output block hold after every grid point, and the proof that the
  body, called by the pipeline at any point, does exactly that.
  After point `t` the running minimum holds what the point's case leaves in it: at the first block of a row, the block's
  row minima folded into +∞; otherwise folded into what point `t - 1` left. The output block is stored only at a row's
  last block, with the running minimum. The region's invariant between points says just this: before the first point the
  scoped buffers hold anything; after point `t` the running minimum's buffer holds the accumulated contents, the other
  scoped buffers anything.
-/
import proofs.«164772_j40913858462218_1_alg».proof.Proof.KRun1First
import proofs.«164772_j40913858462218_1_alg».proof.Proof.KRun1Mid
import proofs.«164772_j40913858462218_1_alg».proof.Proof.KRun1Last

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scoverFirst (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : condFirst i) (hc1 : ¬condLast i) (x0 x1 : Vec F S4x512x3 .f32) (y : S4x512.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S4x512.size (by sl_kernel_rfl) y
/-- The running minimum after a row's first block: the case's pieces read back. -/
def soutFirst (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : condFirst i) (hc1 : ¬condLast i) (x0 x1 : Vec F S4x512x3 .f32) : Vec F S4x512 .f32 :=
  VS.read (Elt F) (VS.writes (Elt F) VS.junk (runFirst c i arg2 harg2 arg3 harg3 arg4 harg4 arg5 harg5 hc0 hc1 x0 x1).1)

theorem scoverMid (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : ¬condLast i) (x0 x1 : Vec F S4x512x3 .f32) (xs : Vec F S4x512 .f32) (y : S4x512.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S4x512.size (by sl_kernel_rfl) y
/-- The running minimum after a middle block, over what the point before left (`xs`). -/
def soutMid (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : ¬condLast i) (x0 x1 : Vec F S4x512x3 .f32) (xs : Vec F S4x512 .f32) : Vec F S4x512 .f32 :=
  VS.read (Elt F) (VS.writes (Elt F) VS.junk (runMid c i arg2 harg2 arg3 harg3 arg4 harg4 arg5 harg5 hc0 hc1 x0 x1 xs).1)

theorem scoverLast (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) (y : S4x512.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S4x512.size (by sl_kernel_rfl) y
/-- The running minimum after a row's last block. -/
def soutLast (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) : Vec F S4x512 .f32 :=
  VS.read (Elt F) (VS.writes (Elt F) VS.junk (runLast c i arg2 harg2 arg3 harg3 arg4 harg4 arg5 harg5 hc0 hc1 x0 x1 xs).2.1)
theorem coverLast (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) (y : S4x512.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S4x512.size (by sl_kernel_rfl) y
/-- The output block after a row's last block. -/
def outLast (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) : Vec F S4x512 .f32 :=
  VO.read (Elt F) (VO.writes (Elt F) VO.junk (runLast c i arg2 harg2 arg3 harg3 arg4 harg4 arg5 harg5 hc0 hc1 x0 x1 xs).1)

/-- Where the body stores nothing into the output block: a placeholder nothing consults (the block is neither written
    back nor read at the next point there). -/
def idleOut : Vec F S4x512 .f32 := VO.read (Elt F) VO.junk

section Acc
variable (V : (c : Dev nD) → (b : Ref sig .tc) → Buf (Elt F) ((c : Thread nD τ).loc b))

/-! ## The accumulation -/

/-- After the body at position `n`: (the output block's staging buffer, the running minimum's buffer). -/
def outsAt (c : Dev nD) : (n : ℕ) → n < cfg1.N → Vec F S4x512 .f32 × Vec F S4x512 .f32
  | 0, hn => (idleOut, soutFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((condFirst_iff ⟨0, hn⟩).mpr (Nat.zero_mod _)) (fun h => (fun h => by (try dsimp only at h); omega) ((condLast_iff ⟨0, hn⟩).mp h)) (iblk V c 0 ⟨0, hn⟩) (iblk V c 1 ⟨0, hn⟩))
  | n + 1, hn =>
    if h0 : (n + 1) % 16 = 0 then
      if h1 : (n + 1) % 16 = 15 then
        False.elim (by omega)
      else
        (idleOut, soutFirst c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((condFirst_iff ⟨n + 1, hn⟩).mpr h0) (fun h => h1 ((condLast_iff ⟨n + 1, hn⟩).mp h)) (iblk V c 0 ⟨n + 1, hn⟩) (iblk V c 1 ⟨n + 1, hn⟩))
    else
      if h1 : (n + 1) % 16 = 15 then
        (outLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (outsAt c n (Nat.lt_of_succ_lt hn)).2,
         soutLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (outsAt c n (Nat.lt_of_succ_lt hn)).2)
      else
        (idleOut, soutMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((condFirst_iff ⟨n + 1, hn⟩).mp h)) (fun h => h1 ((condLast_iff ⟨n + 1, hn⟩).mp h)) (iblk V c 0 ⟨n + 1, hn⟩) (iblk V c 1 ⟨n + 1, hn⟩) (outsAt c n (Nat.lt_of_succ_lt hn)).2)

theorem outsAt_First (c : Dev nD) (t : Fin cfg1.N) (h0 : t.val % 16 = 0) (h1 : ¬t.val % 16 = 15) :
    outsAt V c t.val t.isLt = (idleOut, soutFirst c (grid1.coords t) (ms_0 t) (hs_0 t) (ms_1 t) (hs_1 t) (ms_2 t) (hs_2 t) scM (Memref.isWhole_whole _) ((condFirst_iff t).mpr h0) (fun h => h1 ((condLast_iff t).mp h)) (iblk V c 0 t) (iblk V c 1 t)) := by
  obtain ⟨n, hn⟩ := t
  cases n with
  | zero => exact rfl
  | succ n => exact (dif_pos h0).trans ((dif_neg h1).trans rfl)

theorem outsAt_Mid (c : Dev nD) (t : Fin cfg1.N) (h0 : ¬t.val % 16 = 0) (h1 : ¬t.val % 16 = 15) :
    outsAt V c t.val t.isLt = (idleOut, soutMid c (grid1.coords t) (ms_0 t) (hs_0 t) (ms_1 t) (hs_1 t) (ms_2 t) (hs_2 t) scM (Memref.isWhole_whole _) (fun h => h0 ((condFirst_iff t).mp h)) (fun h => h1 ((condLast_iff t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_Last (c : Dev nD) (t : Fin cfg1.N) (h0 : ¬t.val % 16 = 0) (h1 : t.val % 16 = 15) :
    outsAt V c t.val t.isLt = (outLast c (grid1.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) (outsAt V c (t.val - 1) (Nat.lt_of_le_of_lt (Nat.sub_le _ _) t.isLt)).2,
      soutLast c (grid1.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the region's scoped rest at anything; afterwards the running minimum's
    buffer at what the point before left, the other scoped buffers at anything, the generator register at some state. -/
def PhiS (c : Dev nD) : (n : ℕ) → n ≤ cfg1.N → sProp 𝕄
  | 0, _ => Pipeline.ΦA spec1 c
  | n + 1, hn => iprop(owns (c : Thread nD τ) scM fullShare ((outsAt V c n hn).2) ∗ others (F := F) c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM fullShare ((outsAt V c n hn).2) ∗ others (F := F) c ∗ (∃ r, prngReg c r)) := rfl
theorem PhiS_pos (c : Dev nD) (n : ℕ) (h : n ≤ cfg1.N) (hz : n ≠ 0) :
    PhiS V c n h = iprop(owns (c : Thread nD τ) scM fullShare ((outsAt V c (n - 1) (by omega)).2) ∗ others (F := F) c ∗ (∃ r, prngReg c r)) := by
  cases n with
  | zero => exact absurd rfl hz
  | succ n => rfl

/-! ## The pipeline's proof data -/

/-- The arrays as the region finds them; after the body each input's buffer at its block, the output's at the
    accumulation's first component; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' memrefs hold their blocks; the closed forms say which case the point is in; the
    invariant hands the body the running minimum's buffer (at anything before the first point, at what the point before
    left afterwards) and takes it back at this point's contents; the other scoped buffers, the generator register and the
    core's dues pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 256 := lt_of_lt_of_eq t.isLt (show cfg1.N = 256 from N_1)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  by_cases h0 : t.val % 16 = 0
  · have h1 : ¬t.val % 16 = 15 := by omega
    rw [Dat.leavesExact_idle (dat V c) 2 t (idle_2 t (fun h => h1 ((condLast_iff t).mp h))) (noFlush_2 t (fun h => h1 ((condLast_iff t).mp h)))]
    rw [outsAt_First V c t h0 h1]
    unfold soutFirst; (try dsimp only)
    by_cases hz : t.val = 0
    · rw [PhiS_castSucc V c t, PhiS_zero V c _ _ hz]
      iintro ⟨HΦ, Ho, ⟨%d0, H0⟩, ⟨%d1, H1⟩, ⟨%d2, H2⟩⟩
      ihave HΦ' := (PhiA_open (F := F) c) $$ HΦ
      icases HΦ' with ⟨HS, Hoth, Hg⟩
      iapply ((runFirst c (grid1.coords t) (ms_0 t) (hs_0 t) (ms_1 t) (hs_1 t) (ms_2 t) (hs_2 t) scM (Memref.isWhole_whole _) ((condFirst_iff t).mpr h0) (fun h => h1 ((condLast_iff t).mp h)) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (scoverFirst c (grid1.coords t) (ms_0 t) (hs_0 t) (ms_1 t) (hs_1 t) (ms_2 t) (hs_2 t) scM (Memref.isWhole_whole _) _ _ _ _)
        isplitl [Hoth]; · iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨HS, Hoth, Hg⟩, Ho, ⟨%d0, H0⟩, ⟨%d1, H1⟩, ⟨%d2, H2⟩⟩
      iapply ((runFirst c (grid1.coords t) (ms_0 t) (hs_0 t) (ms_1 t) (hs_1 t) (ms_2 t) (hs_2 t) scM (Memref.isWhole_whole _) ((condFirst_iff t).mpr h0) (fun h => h1 ((condLast_iff t).mp h)) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (scoverFirst c (grid1.coords t) (ms_0 t) (hs_0 t) (ms_1 t) (hs_1 t) (ms_2 t) (hs_2 t) scM (Memref.isWhole_whole _) _ _ _ _)
        isplitl [Hoth]; · iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat V c).leavesExact 2 t = owns (c : Thread nD τ) (ms_2 t) fullShare ((dat V c).after 2 t) from by
        unfold Dat.leavesExact; rw [live_2 t ((condLast_iff t).mpr h1)], after_2]
      rw [outsAt_Last V c t h0 h1]
      unfold outLast soutLast; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runLast c (grid1.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS]
        · unfold owns; iexists _; isplitr
          swap; · iexact HS
          ipureintro; exact View.read_writes_of_cover _ _ _ _ _ (scoverLast c (grid1.coords t) (ms_0 t) (hs_0 t) (ms_1 t) (hs_1 t) (ms_2 t) (hs_2 t) scM (Memref.isWhole_whole _) _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c (grid1.coords t) (ms_0 t) (hs_0 t) (ms_1 t) (hs_1 t) (ms_2 t) (hs_2 t) scM (Memref.isWhole_whole _) _ _ _ _ _)
    · rw [Dat.leavesExact_idle (dat V c) 2 t (idle_2 t (fun h => h1 ((condLast_iff t).mp h))) (noFlush_2 t (fun h => h1 ((condLast_iff t).mp h)))]
      rw [outsAt_Mid V c t h0 h1]
      unfold soutMid; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runMid c (grid1.coords t) (ms_0 t) (hs_0 t) (ms_1 t) (hs_1 t) (ms_2 t) (hs_2 t) scM (Memref.isWhole_whole _) (fun h => h0 ((condFirst_iff t).mp h)) (fun h => h1 ((condLast_iff t).mp h)) (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (scoverMid c (grid1.coords t) (ms_0 t) (hs_0 t) (ms_1 t) (hs_1 t) (ms_2 t) (hs_2 t) scM (Memref.isWhole_whole _) _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest back: the running minimum's named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 256 := N_1; omega)]
  have h : iprop(owns (c : Thread nD τ) scM fullShare ((outsAt V c ((Fin.last cfg1.N).val - 1) (by rw [Fin.val_last]; have : cfg1.N = 256 := N_1; omega)).2) ∗ others (F := F) c ∗ (∃ r, prngReg c r))
      ⊢ (iprop((∃ d, owns (c : Thread nD τ) scM fullShare d) ∗ others (F := F) c ∗ (∃ r, prngReg c r)) : sProp 𝕄) := by
    iintro ⟨HS, Hoth, Hg⟩
    isplitl [HS]; · iexists _; iexact HS
    isplitl [Hoth]; · iexact Hoth
    iexact Hg
  exact h.trans (PhiA_close (F := F) c)

end Acc

end Cert.Kernel.Reg1

end
-- ==== Proof.KWhole.lean ====
/-
  The whole program's run. @main is: the first pairwise-minimum call (query cloud = argument 0, searched cloud = argument 1,
  result array `main_v0`), the second call with the clouds swapped (result `main_v1`), then 17 host operations on the two
  result arrays. The contents of every unscoped buffer at each boundary are a fold from the launch memory: a region
  leaves its arrays at what the pipeline's write-backs leave and every other buffer as entered; the host stretch leaves
  what its operations compute. The run: every weakly fair execution terminates, nothing faults, and at the end every
  unscoped buffer holds the last fold's contents — from which both the frame claim (the arguments end as launched) and
  the value of the result are read.
-/
import proofs.«164772_j40913858462218_1_alg».proof.Proof.KReg0
import proofs.«164772_j40913858462218_1_alg».proof.Proof.KReg1

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Wl : Dev nD → Valuation τ sig (Elt F) := fun c b => (s₀ m ρ).mem ((c : Dev nD), b)
abbrev Vl : (c : Dev nD) → (b : Ref sig .tc) → Buf (Elt F) ((c : Thread nD τ).loc b) := fun c b => Wl m ρ c b
/-- After the first call: its arrays at what the pipeline leaves, every other buffer as launched. -/
def Wa (c : Dev nD) : Valuation τ sig (Elt F) :=
  Pipeline.withArrays spec0 c (Wl m ρ c) fun w => (Reg0.dat (Vl m ρ) c).arrAt w cfg0.N
theorem Wa_arr (c : Dev nD) (w : Fin cfg0.W) :
    Wa m ρ c (Proc.devRef .tc (Pipeline.arrRef spec0 w)) = (Reg0.dat (Vl m ρ) c).arrAt w cfg0.N := by
  unfold Wa; exact Pipeline.withArrays_arr spec0 launch0.win.arr_inj c _ _ w
theorem Wa_of_ne (c : Dev nD) (b : Ref sig .tc) (hb : ∀ w, Pipeline.arrRef spec0 w ≠ b) :
    Wa m ρ c (Proc.devRef .tc b) = Wl m ρ c (Proc.devRef .tc b) := by
  unfold Wa; exact Pipeline.withArrays_of_ne spec0 c _ _ b hb
abbrev Va : (c : Dev nD) → (b : Ref sig .tc) → Buf (Elt F) ((c : Thread nD τ).loc b) := fun c b => Wa m ρ c b
theorem hF0 (c : Dev nD) (w : Fin cfg0.W) : (Reg0.dat (Vl m ρ) c).arrAt w cfg0.N = Va m ρ c (Pipeline.arrRef spec0 w) :=
  (Wa_arr m ρ c w).symm
theorem hrest0 (c : Dev nD) : ∀ b, b ∉ Finset.univ.image (Pipeline.arrRef spec0) → Va m ρ c b = Vl m ρ c b :=
  fun b hb => Wa_of_ne m ρ c b fun w e => hb (Finset.mem_image.mpr ⟨w, Finset.mem_univ _, e⟩)
/-- After the second call. -/
def Wb (c : Dev nD) : Valuation τ sig (Elt F) :=
  Pipeline.withArrays spec1 c (Wa m ρ c) fun w => (Reg1.dat (Va m ρ) c).arrAt w cfg1.N
theorem Wb_arr (c : Dev nD) (w : Fin cfg1.W) :
    Wb m ρ c (Proc.devRef .tc (Pipeline.arrRef spec1 w)) = (Reg1.dat (Va m ρ) c).arrAt w cfg1.N := by
  unfold Wb; exact Pipeline.withArrays_arr spec1 launch1.win.arr_inj c _ _ w
theorem Wb_of_ne (c : Dev nD) (b : Ref sig .tc) (hb : ∀ w, Pipeline.arrRef spec1 w ≠ b) :
    Wb m ρ c (Proc.devRef .tc b) = Wa m ρ c (Proc.devRef .tc b) := by
  unfold Wb; exact Pipeline.withArrays_of_ne spec1 c _ _ b hb
abbrev Vb : (c : Dev nD) → (b : Ref sig .tc) → Buf (Elt F) ((c : Thread nD τ).loc b) := fun c b => Wb m ρ c b
theorem hF1 (c : Dev nD) (w : Fin cfg1.W) : (Reg1.dat (Va m ρ) c).arrAt w cfg1.N = Vb m ρ c (Pipeline.arrRef spec1 w) :=
  (Wb_arr m ρ c w).symm
theorem hrest1 (c : Dev nD) : ∀ b, b ∉ Finset.univ.image (Pipeline.arrRef spec1) → Vb m ρ c b = Va m ρ c b :=
  fun b hb => Wb_of_ne m ρ c b fun w e => hb (Finset.mem_image.mpr ⟨w, Finset.mem_univ _, e⟩)
/-- At the end: after the 17 host operations. -/
abbrev We : Dev nD → Valuation τ sig (Elt F) := fun c => StableHlo.after hostOps2 (Wb m ρ c)

/-! ## The proof data family and the thread state -/

abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => Reg0.dat (Vl m ρ) c
  | ⟨1, _⟩ => fun c => Reg1.dat (Va m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem tail_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (We m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `Wl`, left at `Wa`. Its arrays are
    split out of the unscoped buffers and put back at what the pipeline leaves; the generator register and the scoped
    rest go into the region's invariant (which from the first point on names the running minimum's contents) and come
    back with those contents forgotten; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (Vl m ρ) c).loose
  hwaits := Pipeline.hwaits_of_owed_zero _ _ _ _ L lv 0 fun _ _ => rfl
  pre c := iprop(StableHlo.held (c : Thread nD τ) (Pipeline.ucRefs τ sig) (Wl m ρ c) ∗ R c)
  post c := iprop(StableHlo.held (c : Thread nD τ) (Pipeline.ucRefs τ sig) (Wa m ρ c) ∗ R c)
  X c := iprop(∃ r, prngReg c r)
  Y c := iprop(∃ r, prngReg c r)
  Z c := Pipeline.unscopedRest (Ix := Unit) (Name := ℕ) (U := UR sig nD τ) (Lvl := ℕ) spec0 c (Vl m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vl m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg0.hin (Vl m ρ) c)
    unfold Pipeline.ΦA
    iintro ⟨Hp, -, Hr⟩
    isplitl [Hr]; · iexact Hr
    iexact Hp
  hout c := by
    refine BIBase.Entails.trans (Reg0.hout (Vl m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vl m ρ c) (Va m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `Wa`, left at `Wb`. Its arrays are
    split out of the unscoped buffers and put back at what the pipeline leaves; the generator register and the scoped
    rest go into the region's invariant (which from the first point on names the running minimum's contents) and come
    back with those contents forgotten; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (Va m ρ) c).loose
  hwaits := Pipeline.hwaits_of_owed_zero _ _ _ _ L lv 1 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec1 c (Va m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg1.hin (Va m ρ) c)
    unfold Pipeline.ΦA
    iintro ⟨Hp, -, Hr⟩
    isplitl [Hr]; · iexact Hr
    iexact Hp
  hout c := by
    refine BIBase.Entails.trans (Reg1.hout (Va m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Va m ρ c) (Vb m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .region (reg1 m ρ),
    .host (hseg hostOps2 hostOps2_sub tail_fresh (Wb m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    in every final state every unscoped buffer holds the last fold's contents `We`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = We m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m ρ c) ∗ R c)) (Tₙ := Tₙ m ρ)
    (hch := ⟨fun _ => .rfl, fun _ => .rfl, fun _ => .rfl, fun c => by
      show iprop(StableHlo.held (c : Thread nD τ) (Pipeline.ucRefs τ sig) (We m ρ c) ∗ R c)
        ⊢ (iprop(Tₙ m ρ c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wl m ρ c)
        from Pipeline.unscopedBufs_held c (Wl m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m ρ c b)
    (hfin := fun c s' => by
      iintro ⟨⟨Hh, -⟩, HSI⟩
      unfold StableHlo.held
      imodintro
      iapply (pointsTo_read_all (Pipeline.ucRefs τ sig) (fun b => (((c : Thread nD τ)).1, b)) (We m ρ c) s')
      isplitl [Hh] <;> iassumption)
    (hQ := fun s h => h)

/-! ## The arguments end as launched -/

theorem tail_keeps (W : Valuation τ sig (Elt F)) (b : Ref sig .tc) (hb : b ∈ ([main_arg0, main_arg1, main_v0, main_v1] : List (Ref sig .tc))) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, Finset.mem_singleton]
    simp only [List.mem_cons, List.mem_nil_iff, or_false] at hb
    rcases hb with rfl | rfl | rfl | rfl
    all_goals (repeat' apply And.intro) <;> exact StableHlo.devRef_ne_of_ne (by decide)))

theorem We_main_arg0 (c : Dev nD) : We m ρ c (Proc.devRef .tc main_arg0) = m ((c : Thread nD τ).loc main_arg0) :=
  calc We m ρ c (Proc.devRef .tc main_arg0)
    _ = Wb m ρ c (Proc.devRef .tc main_arg0) := tail_keeps _ main_arg0 (by decide)
    _ = Wa m ρ c (Proc.devRef .tc main_arg0) := (Wb_arr m ρ c 1).trans (((Reg1.dat (Va m ρ) c).arrAt_in 1 rfl _).trans (Reg1.A_eq (Va m ρ) c 1))
    _ = Wl m ρ c (Proc.devRef .tc main_arg0) := (Wa_arr m ρ c 0).trans (((Reg0.dat (Vl m ρ) c).arrAt_in 0 rfl _).trans (Reg0.A_eq (Vl m ρ) c 0))
    _ = m ((c : Thread nD τ).loc main_arg0) := rfl
theorem We_main_arg1 (c : Dev nD) : We m ρ c (Proc.devRef .tc main_arg1) = m ((c : Thread nD τ).loc main_arg1) :=
  calc We m ρ c (Proc.devRef .tc main_arg1)
    _ = Wb m ρ c (Proc.devRef .tc main_arg1) := tail_keeps _ main_arg1 (by decide)
    _ = Wa m ρ c (Proc.devRef .tc main_arg1) := (Wb_arr m ρ c 0).trans (((Reg1.dat (Va m ρ) c).arrAt_in 0 rfl _).trans (Reg1.A_eq (Va m ρ) c 0))
    _ = Wl m ρ c (Proc.devRef .tc main_arg1) := (Wa_arr m ρ c 1).trans (((Reg0.dat (Vl m ρ) c).arrAt_in 1 rfl _).trans (Reg0.A_eq (Vl m ρ) c 1))
    _ = m ((c : Thread nD τ).loc main_arg1) := rfl

/-- THE FRAME: every weakly fair execution terminates, nothing faults, the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (We_main_arg0 m ρ c),
     (h c _ (mem_uc main_arg1 (by decide))).trans (We_main_arg1 m ρ c)⟩) (run_all m ρ)

end Cert.Kernel.Whole

end
-- ==== Proof.KIKit0.lean ====
/-
  Region 0 of the program (its first pairwise-minimum call), the facts every later module of the region is stated over.
  The grid is 16 × 16, walked row by row: point `t` is block row `t / 16` of the query cloud against block `t % 16`
  of the searched cloud. The body resets the running minimum (a scratch buffer the kernel keeps between points) at
  the first block of a row (`t % 16 = 0`), folds the block's row minima into it at every point, and copies it to the
  output block at the last block of a row (`t % 16 = 15`), the only points where the output block is written back.
  Here: the two branch conditions in closed form over the grid, where the output window is idle and where it is live,
  the staging and scratch memrefs the body is called with, each input window's block at a point, and how the region's
  invariant opens into "the scratch at some contents, the other scoped buffers, the generator register" and closes back.
-/
import proofs.«164772_j40913858462218_1_alg».proof.Proof.Gen.KernelIdeal.Launch
import proofs.«164772_j40913858462218_1_alg».proof.Proof.Gen.KernelIdeal.Skeleton
import proofs.«164772_j40913858462218_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- "This is the first block of the row": the body's first `scf.if`, as it computes it from the grid coordinates. -/
abbrev condFirst (i : grid0.Coords) : Prop := (Scalar.cmpi .ne (Scalar.extui (Scalar.cmpi .eq (BitVec.ofNat 32 (i 1).val) 0#32)) 0#32) = 1#1
theorem condFirst_iff : ∀ t : Fin cfg0.N, condFirst (grid0.coords t) ↔ t.val % 16 = 0 :=
  (by decide +kernel : ∀ t : Fin grid0.N, condFirst (grid0.coords t) ↔ t.val % 16 = 0)

/-- "This is the last block of the row": the body's second `scf.if`. -/
abbrev condLast (i : grid0.Coords) : Prop := k0_cond2 i = 1#1
theorem condLast_iff : ∀ t : Fin cfg0.N, condLast (grid0.coords t) ↔ t.val % 16 = 15 :=
  (by decide +kernel : ∀ t : Fin grid0.N, condLast (grid0.coords t) ↔ t.val % 16 = 15)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Away from a row's last block the body stores nothing into the output block, and the block is not written back. -/
theorem idle_2 : ∀ t : Fin cfg0.N, ¬condLast (grid0.coords t) → cfg0.idle 2 (grid0.coords t) = true := by decide +kernel
theorem noFlush_2 : ∀ t : Fin cfg0.N, ¬condLast (grid0.coords t) → (cfg0.win 2).flush t = false := by decide +kernel
/-- At a row's last block the output block is stored whole. -/
theorem live_2 : ∀ t : Fin cfg0.N, condLast (grid0.coords t) → cfg0.idle 2 (grid0.coords t) = false := by decide +kernel

/-! ## The memrefs the body is called with -/

abbrev ms_0 (t : Fin cfg0.N) : Memref sig .tc .vmem S4x512x3 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S4x512x3 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S4x512 .f32 := win0_2.stage (cfg0.slots t 2)
abbrev hs_2 (t : Fin cfg0.N) : (ms_2 t).IsWhole := hstage0_2 ((cfg0.slots t 2).cast nbuf0_2)
/-- The running minimum's buffer: a whole scoped buffer of the kernel's own, passed beside the windows. -/
abbrev scM : Memref sig .tc .vmem S4x512 .f32 := Memref.whole cc0_scratch0
/-- Views through which the output block's and the running minimum's contents are stated. -/
abbrev VO : View sig .tc .vmem S4x512 .f32 := (Memref.whole cc0_stg2_0 : Memref sig .tc .vmem S4x512 .f32).view
abbrev VS : View sig .tc .vmem S4x512 .f32 := (scM : Memref sig .tc .vmem S4x512 .f32).view

/-! ## The region's invariant, opened and closed -/

/-- The core's scoped buffers that are neither this region's staging buffers nor its running minimum: the other
    region's, each whole at some contents. The body never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- Before the first point the region holds its scoped rest at anything: the running minimum's buffer at some contents,
    the other scoped buffers, and the generator register at some state. -/
theorem PhiA_open (c : Dev nD) :
    (Pipeline.ΦA spec0 c : sProp 𝕄) ⊢ iprop((∃ d, owns (c : Thread nD τ) scM fullShare d) ∗ others (F := F) c ∗ (∃ r, prngReg c r)) := by
  unfold Pipeline.ΦA others; rw [scopedRest0_eq]; simp only [scM, owns_whole]
  iintro ⟨⟨HS, Hoth⟩, Hg⟩
  isplitl [HS]; · iexact HS
  isplitl [Hoth]; · iexact Hoth
  iexact Hg

/-- And any contents of the running minimum's buffer give that back. -/
theorem PhiA_close (c : Dev nD) :
    iprop((∃ d, owns (c : Thread nD τ) scM fullShare d) ∗ others (F := F) c ∗ (∃ r, prngReg c r)) ⊢ (Pipeline.ΦA spec0 c : sProp 𝕄) := by
  unfold Pipeline.ΦA others; rw [scopedRest0_eq]; simp only [scM, owns_whole]
  iintro ⟨HS, Hoth, Hg⟩
  isplitl [HS Hoth]
  · isplitl [HS]; · iexact HS
    iexact Hoth
  iexact Hg

/-! ## The windows' blocks, at the contents `V` the region is entered with -/

section Blocks
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    over `V` whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Blocks

end Cert.KernelIdeal.Reg0

end
-- ==== Proof.KIRun0First.lean ====
/-
  Region 0's body at the first block of a row (the running minimum is reset; it may hold anything on entry): on whole staging memrefs — the two input blocks at their contents,
  the output block at contents handed back untouched — the body runs without fault to a state holding the inputs as they were and the
  running minimum's buffer with the stores' pieces written. The pieces are found by running the body symbolically.
-/
import proofs.«164772_j40913858462218_1_alg».proof.Proof.KIKit0

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : condFirst i) (hc1 : ¬condLast i)
    (x0 x1 : Vec F S4x512x3 .f32) :
    { LS : List (View.Piece (Elt F) S4x512 .f32) //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__pairwise_min_kernel i arg2 harg2 arg3 harg3 arg4 harg4 arg5 harg5) K } := by
  refine ⟨?_, fun xi E K => ?run⟩
  case run =>
    simp only [cc0__pairwise_min_kernel_eq_skeleton]; unfold cc0__pairwise_min_kernel_skel
    unfold owns
    iintro ⟨⟨%f2, %hf2, H2⟩, ⟨%f3, %hf3, H3⟩, ⟨%f4, %hf4, H4⟩, ⟨%d5, %f5, -, H5⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.KernelIdeal.Reg0

end
-- ==== Proof.KIRun0Mid.lean ====
/-
  Region 0's body at a block that is neither first nor last in its row (the running minimum holds what the point before left): on whole staging memrefs — the two input blocks at their contents,
  the output block at contents handed back untouched — the body runs without fault to a state holding the inputs as they were and the
  running minimum's buffer with the stores' pieces written. The pieces are found by running the body symbolically.
-/
import proofs.«164772_j40913858462218_1_alg».proof.Proof.KIKit0

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : ¬condLast i)
    (x0 x1 : Vec F S4x512x3 .f32) (xs : Vec F S4x512 .f32) :
    { LS : List (View.Piece (Elt F) S4x512 .f32) //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__pairwise_min_kernel i arg2 harg2 arg3 harg3 arg4 harg4 arg5 harg5) K } := by
  refine ⟨?_, fun xi E K => ?run⟩
  case run =>
    simp only [cc0__pairwise_min_kernel_eq_skeleton]; unfold cc0__pairwise_min_kernel_skel
    unfold owns
    iintro ⟨⟨%f2, %hf2, H2⟩, ⟨%f3, %hf3, H3⟩, ⟨%f4, %hf4, H4⟩, ⟨%f5, %hf5, H5⟩, Hk⟩
    obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.KernelIdeal.Reg0

end
-- ==== Proof.KIRun0Last.lean ====
/-
  Region 0's body at the last block of a row (the running minimum holds what the point before left; the output block is stored): on whole staging memrefs — the two input blocks at their contents,
  the output block at anything — the body runs without fault to a state holding the inputs as they were and the
  running minimum's buffer and the output block with the stores' pieces written. The pieces are found by running the body symbolically.
-/
import proofs.«164772_j40913858462218_1_alg».proof.Proof.KIKit0

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i)
    (x0 x1 : Vec F S4x512x3 .f32) (xs : Vec F S4x512 .f32) :
    Σ' (LO : List (View.Piece (Elt F) S4x512 .f32)), { LS : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__pairwise_min_kernel i arg2 harg2 arg3 harg3 arg4 harg4 arg5 harg5) K } := by
  refine ⟨?_, ?_, fun E K => ?run⟩
  case run =>
    simp only [cc0__pairwise_min_kernel_eq_skeleton]; unfold cc0__pairwise_min_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2; obtain rfl := harg3.eq_unread hf3; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

end Cert.KernelIdeal.Reg0

end
-- ==== Proof.KIReg0.lean ====
/-
  Region 0: what the running minimum's buffer and the output block hold after every grid point, and the proof that the
  body, called by the pipeline at any point, does exactly that.
  After point `t` the running minimum holds what the point's case leaves in it: at the first block of a row, the block's
  row minima folded into +∞; otherwise folded into what point `t - 1` left. The output block is stored only at a row's
  last block, with the running minimum. The region's invariant between points says just this: before the first point the
  scoped buffers hold anything; after point `t` the running minimum's buffer holds the accumulated contents, the other
  scoped buffers anything.
-/
import proofs.«164772_j40913858462218_1_alg».proof.Proof.KIRun0First
import proofs.«164772_j40913858462218_1_alg».proof.Proof.KIRun0Mid
import proofs.«164772_j40913858462218_1_alg».proof.Proof.KIRun0Last

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scoverFirst (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : condFirst i) (hc1 : ¬condLast i) (x0 x1 : Vec F S4x512x3 .f32) (y : S4x512.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S4x512.size (by sl_kernel_rfl) y
/-- The running minimum after a row's first block: the case's pieces read back. -/
def soutFirst (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : condFirst i) (hc1 : ¬condLast i) (x0 x1 : Vec F S4x512x3 .f32) : Vec F S4x512 .f32 :=
  VS.read (Elt F) (VS.writes (Elt F) VS.junk (runFirst c i arg2 harg2 arg3 harg3 arg4 harg4 arg5 harg5 hc0 hc1 x0 x1).1)

theorem scoverMid (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : ¬condLast i) (x0 x1 : Vec F S4x512x3 .f32) (xs : Vec F S4x512 .f32) (y : S4x512.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S4x512.size (by sl_kernel_rfl) y
/-- The running minimum after a middle block, over what the point before left (`xs`). -/
def soutMid (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : ¬condLast i) (x0 x1 : Vec F S4x512x3 .f32) (xs : Vec F S4x512 .f32) : Vec F S4x512 .f32 :=
  VS.read (Elt F) (VS.writes (Elt F) VS.junk (runMid c i arg2 harg2 arg3 harg3 arg4 harg4 arg5 harg5 hc0 hc1 x0 x1 xs).1)

theorem scoverLast (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) (y : S4x512.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S4x512.size (by sl_kernel_rfl) y
/-- The running minimum after a row's last block. -/
def soutLast (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) : Vec F S4x512 .f32 :=
  VS.read (Elt F) (VS.writes (Elt F) VS.junk (runLast c i arg2 harg2 arg3 harg3 arg4 harg4 arg5 harg5 hc0 hc1 x0 x1 xs).2.1)
theorem coverLast (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) (y : S4x512.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S4x512.size (by sl_kernel_rfl) y
/-- The output block after a row's last block. -/
def outLast (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) : Vec F S4x512 .f32 :=
  VO.read (Elt F) (VO.writes (Elt F) VO.junk (runLast c i arg2 harg2 arg3 harg3 arg4 harg4 arg5 harg5 hc0 hc1 x0 x1 xs).1)

/-- Where the body stores nothing into the output block: a placeholder nothing consults (the block is neither written
    back nor read at the next point there). -/
def idleOut : Vec F S4x512 .f32 := VO.read (Elt F) VO.junk

section Acc
variable (V : (c : Dev nD) → (b : Ref sig .tc) → Buf (Elt F) ((c : Thread nD τ).loc b))

/-! ## The accumulation -/

/-- After the body at position `n`: (the output block's staging buffer, the running minimum's buffer). -/
def outsAt (c : Dev nD) : (n : ℕ) → n < cfg0.N → Vec F S4x512 .f32 × Vec F S4x512 .f32
  | 0, hn => (idleOut, soutFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((condFirst_iff ⟨0, hn⟩).mpr (Nat.zero_mod _)) (fun h => (fun h => by (try dsimp only at h); omega) ((condLast_iff ⟨0, hn⟩).mp h)) (iblk V c 0 ⟨0, hn⟩) (iblk V c 1 ⟨0, hn⟩))
  | n + 1, hn =>
    if h0 : (n + 1) % 16 = 0 then
      if h1 : (n + 1) % 16 = 15 then
        False.elim (by omega)
      else
        (idleOut, soutFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((condFirst_iff ⟨n + 1, hn⟩).mpr h0) (fun h => h1 ((condLast_iff ⟨n + 1, hn⟩).mp h)) (iblk V c 0 ⟨n + 1, hn⟩) (iblk V c 1 ⟨n + 1, hn⟩))
    else
      if h1 : (n + 1) % 16 = 15 then
        (outLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (outsAt c n (Nat.lt_of_succ_lt hn)).2,
         soutLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (outsAt c n (Nat.lt_of_succ_lt hn)).2)
      else
        (idleOut, soutMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((condFirst_iff ⟨n + 1, hn⟩).mp h)) (fun h => h1 ((condLast_iff ⟨n + 1, hn⟩).mp h)) (iblk V c 0 ⟨n + 1, hn⟩) (iblk V c 1 ⟨n + 1, hn⟩) (outsAt c n (Nat.lt_of_succ_lt hn)).2)

theorem outsAt_First (c : Dev nD) (t : Fin cfg0.N) (h0 : t.val % 16 = 0) (h1 : ¬t.val % 16 = 15) :
    outsAt V c t.val t.isLt = (idleOut, soutFirst c (grid0.coords t) (ms_0 t) (hs_0 t) (ms_1 t) (hs_1 t) (ms_2 t) (hs_2 t) scM (Memref.isWhole_whole _) ((condFirst_iff t).mpr h0) (fun h => h1 ((condLast_iff t).mp h)) (iblk V c 0 t) (iblk V c 1 t)) := by
  obtain ⟨n, hn⟩ := t
  cases n with
  | zero => exact rfl
  | succ n => exact (dif_pos h0).trans ((dif_neg h1).trans rfl)

theorem outsAt_Mid (c : Dev nD) (t : Fin cfg0.N) (h0 : ¬t.val % 16 = 0) (h1 : ¬t.val % 16 = 15) :
    outsAt V c t.val t.isLt = (idleOut, soutMid c (grid0.coords t) (ms_0 t) (hs_0 t) (ms_1 t) (hs_1 t) (ms_2 t) (hs_2 t) scM (Memref.isWhole_whole _) (fun h => h0 ((condFirst_iff t).mp h)) (fun h => h1 ((condLast_iff t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_Last (c : Dev nD) (t : Fin cfg0.N) (h0 : ¬t.val % 16 = 0) (h1 : t.val % 16 = 15) :
    outsAt V c t.val t.isLt = (outLast c (grid0.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) (outsAt V c (t.val - 1) (Nat.lt_of_le_of_lt (Nat.sub_le _ _) t.isLt)).2,
      soutLast c (grid0.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the region's scoped rest at anything; afterwards the running minimum's
    buffer at what the point before left, the other scoped buffers at anything, the generator register at some state. -/
def PhiS (c : Dev nD) : (n : ℕ) → n ≤ cfg0.N → sProp 𝕄
  | 0, _ => Pipeline.ΦA spec0 c
  | n + 1, hn => iprop(owns (c : Thread nD τ) scM fullShare ((outsAt V c n hn).2) ∗ others (F := F) c ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(owns (c : Thread nD τ) scM fullShare ((outsAt V c n hn).2) ∗ others (F := F) c ∗ (∃ r, prngReg c r)) := rfl
theorem PhiS_pos (c : Dev nD) (n : ℕ) (h : n ≤ cfg0.N) (hz : n ≠ 0) :
    PhiS V c n h = iprop(owns (c : Thread nD τ) scM fullShare ((outsAt V c (n - 1) (by omega)).2) ∗ others (F := F) c ∗ (∃ r, prngReg c r)) := by
  cases n with
  | zero => exact absurd rfl hz
  | succ n => rfl

/-! ## The pipeline's proof data -/

/-- The arrays as the region finds them; after the body each input's buffer at its block, the output's at the
    accumulation's first component; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' memrefs hold their blocks; the closed forms say which case the point is in; the
    invariant hands the body the running minimum's buffer (at anything before the first point, at what the point before
    left afterwards) and takes it back at this point's contents; the other scoped buffers, the generator register and the
    core's dues pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 256 := lt_of_lt_of_eq t.isLt (show cfg0.N = 256 from N_0)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  by_cases h0 : t.val % 16 = 0
  · have h1 : ¬t.val % 16 = 15 := by omega
    rw [Dat.leavesExact_idle (dat V c) 2 t (idle_2 t (fun h => h1 ((condLast_iff t).mp h))) (noFlush_2 t (fun h => h1 ((condLast_iff t).mp h)))]
    rw [outsAt_First V c t h0 h1]
    unfold soutFirst; (try dsimp only)
    by_cases hz : t.val = 0
    · rw [PhiS_castSucc V c t, PhiS_zero V c _ _ hz]
      iintro ⟨HΦ, Ho, ⟨%d0, H0⟩, ⟨%d1, H1⟩, ⟨%d2, H2⟩⟩
      ihave HΦ' := (PhiA_open (F := F) c) $$ HΦ
      icases HΦ' with ⟨HS, Hoth, Hg⟩
      iapply ((runFirst c (grid0.coords t) (ms_0 t) (hs_0 t) (ms_1 t) (hs_1 t) (ms_2 t) (hs_2 t) scM (Memref.isWhole_whole _) ((condFirst_iff t).mpr h0) (fun h => h1 ((condLast_iff t).mp h)) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (scoverFirst c (grid0.coords t) (ms_0 t) (hs_0 t) (ms_1 t) (hs_1 t) (ms_2 t) (hs_2 t) scM (Memref.isWhole_whole _) _ _ _ _)
        isplitl [Hoth]; · iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨HS, Hoth, Hg⟩, Ho, ⟨%d0, H0⟩, ⟨%d1, H1⟩, ⟨%d2, H2⟩⟩
      iapply ((runFirst c (grid0.coords t) (ms_0 t) (hs_0 t) (ms_1 t) (hs_1 t) (ms_2 t) (hs_2 t) scM (Memref.isWhole_whole _) ((condFirst_iff t).mpr h0) (fun h => h1 ((condLast_iff t).mp h)) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (scoverFirst c (grid0.coords t) (ms_0 t) (hs_0 t) (ms_1 t) (hs_1 t) (ms_2 t) (hs_2 t) scM (Memref.isWhole_whole _) _ _ _ _)
        isplitl [Hoth]; · iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat V c).leavesExact 2 t = owns (c : Thread nD τ) (ms_2 t) fullShare ((dat V c).after 2 t) from by
        unfold Dat.leavesExact; rw [live_2 t ((condLast_iff t).mpr h1)], after_2]
      rw [outsAt_Last V c t h0 h1]
      unfold outLast soutLast; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runLast c (grid0.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS]
        · unfold owns; iexists _; isplitr
          swap; · iexact HS
          ipureintro; exact View.read_writes_of_cover _ _ _ _ _ (scoverLast c (grid0.coords t) (ms_0 t) (hs_0 t) (ms_1 t) (hs_1 t) (ms_2 t) (hs_2 t) scM (Memref.isWhole_whole _) _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c (grid0.coords t) (ms_0 t) (hs_0 t) (ms_1 t) (hs_1 t) (ms_2 t) (hs_2 t) scM (Memref.isWhole_whole _) _ _ _ _ _)
    · rw [Dat.leavesExact_idle (dat V c) 2 t (idle_2 t (fun h => h1 ((condLast_iff t).mp h))) (noFlush_2 t (fun h => h1 ((condLast_iff t).mp h)))]
      rw [outsAt_Mid V c t h0 h1]
      unfold soutMid; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runMid c (grid0.coords t) (ms_0 t) (hs_0 t) (ms_1 t) (hs_1 t) (ms_2 t) (hs_2 t) scM (Memref.isWhole_whole _) (fun h => h0 ((condFirst_iff t).mp h)) (fun h => h1 ((condLast_iff t).mp h)) (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (scoverMid c (grid0.coords t) (ms_0 t) (hs_0 t) (ms_1 t) (hs_1 t) (ms_2 t) (hs_2 t) scM (Memref.isWhole_whole _) _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest back: the running minimum's named contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 256 := N_0; omega)]
  have h : iprop(owns (c : Thread nD τ) scM fullShare ((outsAt V c ((Fin.last cfg0.N).val - 1) (by rw [Fin.val_last]; have : cfg0.N = 256 := N_0; omega)).2) ∗ others (F := F) c ∗ (∃ r, prngReg c r))
      ⊢ (iprop((∃ d, owns (c : Thread nD τ) scM fullShare d) ∗ others (F := F) c ∗ (∃ r, prngReg c r)) : sProp 𝕄) := by
    iintro ⟨HS, Hoth, Hg⟩
    isplitl [HS]; · iexists _; iexact HS
    isplitl [Hoth]; · iexact Hoth
    iexact Hg
  exact h.trans (PhiA_close (F := F) c)

end Acc

end Cert.KernelIdeal.Reg0

end
-- ==== Proof.KIKit1.lean ====
/-
  Region 1 of the program (its second pairwise-minimum call), the facts every later module of the region is stated over.
  The grid is 16 × 16, walked row by row: point `t` is block row `t / 16` of the query cloud against block `t % 16`
  of the searched cloud. The body resets the running minimum (a scratch buffer the kernel keeps between points) at
  the first block of a row (`t % 16 = 0`), folds the block's row minima into it at every point, and copies it to the
  output block at the last block of a row (`t % 16 = 15`), the only points where the output block is written back.
  Here: the two branch conditions in closed form over the grid, where the output window is idle and where it is live,
  the staging and scratch memrefs the body is called with, each input window's block at a point, and how the region's
  invariant opens into "the scratch at some contents, the other scoped buffers, the generator register" and closes back.
-/
import proofs.«164772_j40913858462218_1_alg».proof.Proof.Gen.KernelIdeal.Launch
import proofs.«164772_j40913858462218_1_alg».proof.Proof.Gen.KernelIdeal.Skeleton
import proofs.«164772_j40913858462218_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- "This is the first block of the row": the body's first `scf.if`, as it computes it from the grid coordinates. -/
abbrev condFirst (i : grid1.Coords) : Prop := (Scalar.cmpi .ne (Scalar.extui (Scalar.cmpi .eq (BitVec.ofNat 32 (i 1).val) 0#32)) 0#32) = 1#1
theorem condFirst_iff : ∀ t : Fin cfg1.N, condFirst (grid1.coords t) ↔ t.val % 16 = 0 :=
  (by decide +kernel : ∀ t : Fin grid1.N, condFirst (grid1.coords t) ↔ t.val % 16 = 0)

/-- "This is the last block of the row": the body's second `scf.if`. -/
abbrev condLast (i : grid1.Coords) : Prop := k1_cond2 i = 1#1
theorem condLast_iff : ∀ t : Fin cfg1.N, condLast (grid1.coords t) ↔ t.val % 16 = 15 :=
  (by decide +kernel : ∀ t : Fin grid1.N, condLast (grid1.coords t) ↔ t.val % 16 = 15)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
/-- Away from a row's last block the body stores nothing into the output block, and the block is not written back. -/
theorem idle_2 : ∀ t : Fin cfg1.N, ¬condLast (grid1.coords t) → cfg1.idle 2 (grid1.coords t) = true := by decide +kernel
theorem noFlush_2 : ∀ t : Fin cfg1.N, ¬condLast (grid1.coords t) → (cfg1.win 2).flush t = false := by decide +kernel
/-- At a row's last block the output block is stored whole. -/
theorem live_2 : ∀ t : Fin cfg1.N, condLast (grid1.coords t) → cfg1.idle 2 (grid1.coords t) = false := by decide +kernel

/-! ## The memrefs the body is called with -/

abbrev ms_0 (t : Fin cfg1.N) : Memref sig .tc .vmem S4x512x3 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S4x512x3 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S4x512 .f32 := win1_2.stage (cfg1.slots t 2)
abbrev hs_2 (t : Fin cfg1.N) : (ms_2 t).IsWhole := hstage1_2 ((cfg1.slots t 2).cast nbuf1_2)
/-- The running minimum's buffer: a whole scoped buffer of the kernel's own, passed beside the windows. -/
abbrev scM : Memref sig .tc .vmem S4x512 .f32 := Memref.whole cc1_scratch0
/-- Views through which the output block's and the running minimum's contents are stated. -/
abbrev VO : View sig .tc .vmem S4x512 .f32 := (Memref.whole cc1_stg2_0 : Memref sig .tc .vmem S4x512 .f32).view
abbrev VS : View sig .tc .vmem S4x512 .f32 := (scM : Memref sig .tc .vmem S4x512 .f32).view

/-! ## The region's invariant, opened and closed -/

/-- The core's scoped buffers that are neither this region's staging buffers nor its running minimum: the other
    region's, each whole at some contents. The body never touches them. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- Before the first point the region holds its scoped rest at anything: the running minimum's buffer at some contents,
    the other scoped buffers, and the generator register at some state. -/
theorem PhiA_open (c : Dev nD) :
    (Pipeline.ΦA spec1 c : sProp 𝕄) ⊢ iprop((∃ d, owns (c : Thread nD τ) scM fullShare d) ∗ others (F := F) c ∗ (∃ r, prngReg c r)) := by
  unfold Pipeline.ΦA others; rw [scopedRest1_eq]; simp only [scM, owns_whole]
  iintro ⟨⟨H1, H2, H3, H4, H5, H6, H7, HS⟩, Hg⟩
  isplitl [HS]; · iexact HS
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

/-- And any contents of the running minimum's buffer give that back. -/
theorem PhiA_close (c : Dev nD) :
    iprop((∃ d, owns (c : Thread nD τ) scM fullShare d) ∗ others (F := F) c ∗ (∃ r, prngReg c r)) ⊢ (Pipeline.ΦA spec1 c : sProp 𝕄) := by
  unfold Pipeline.ΦA others; rw [scopedRest1_eq]; simp only [scM, owns_whole]
  iintro ⟨HS, Hoth, Hg⟩
  icases Hoth with ⟨H1, H2, H3, H4, H5, H6, H7⟩
  isplitl [HS H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-! ## The windows' blocks, at the contents `V` the region is entered with -/

section Blocks
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    over `V` whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Blocks

end Cert.KernelIdeal.Reg1

end
-- ==== Proof.KIRun1First.lean ====
/-
  Region 1's body at the first block of a row (the running minimum is reset; it may hold anything on entry): on whole staging memrefs — the two input blocks at their contents,
  the output block at contents handed back untouched — the body runs without fault to a state holding the inputs as they were and the
  running minimum's buffer with the stores' pieces written. The pieces are found by running the body symbolically.
-/
import proofs.«164772_j40913858462218_1_alg».proof.Proof.KIKit1

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runFirst (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : condFirst i) (hc1 : ¬condLast i)
    (x0 x1 : Vec F S4x512x3 .f32) :
    { LS : List (View.Piece (Elt F) S4x512 .f32) //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__pairwise_min_kernel i arg2 harg2 arg3 harg3 arg4 harg4 arg5 harg5) K } := by
  refine ⟨?_, fun xi E K => ?run⟩
  case run =>
    simp only [cc1__pairwise_min_kernel_eq_skeleton]; unfold cc1__pairwise_min_kernel_skel
    unfold owns
    iintro ⟨⟨%f2, %hf2, H2⟩, ⟨%f3, %hf3, H3⟩, ⟨%f4, %hf4, H4⟩, ⟨%d5, %f5, -, H5⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.KernelIdeal.Reg1

end
-- ==== Proof.KIRun1Mid.lean ====
/-
  Region 1's body at a block that is neither first nor last in its row (the running minimum holds what the point before left): on whole staging memrefs — the two input blocks at their contents,
  the output block at contents handed back untouched — the body runs without fault to a state holding the inputs as they were and the
  running minimum's buffer with the stores' pieces written. The pieces are found by running the body symbolically.
-/
import proofs.«164772_j40913858462218_1_alg».proof.Proof.KIKit1

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runMid (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : ¬condLast i)
    (x0 x1 : Vec F S4x512x3 .f32) (xs : Vec F S4x512 .f32) :
    { LS : List (View.Piece (Elt F) S4x512 .f32) //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__pairwise_min_kernel i arg2 harg2 arg3 harg3 arg4 harg4 arg5 harg5) K } := by
  refine ⟨?_, fun xi E K => ?run⟩
  case run =>
    simp only [cc1__pairwise_min_kernel_eq_skeleton]; unfold cc1__pairwise_min_kernel_skel
    unfold owns
    iintro ⟨⟨%f2, %hf2, H2⟩, ⟨%f3, %hf3, H3⟩, ⟨%f4, %hf4, H4⟩, ⟨%f5, %hf5, H5⟩, Hk⟩
    obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.KernelIdeal.Reg1

end
-- ==== Proof.KIRun1Last.lean ====
/-
  Region 1's body at the last block of a row (the running minimum holds what the point before left; the output block is stored): on whole staging memrefs — the two input blocks at their contents,
  the output block at anything — the body runs without fault to a state holding the inputs as they were and the
  running minimum's buffer and the output block with the stores' pieces written. The pieces are found by running the body symbolically.
-/
import proofs.«164772_j40913858462218_1_alg».proof.Proof.KIKit1

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runLast (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i)
    (x0 x1 : Vec F S4x512x3 .f32) (xs : Vec F S4x512 .f32) :
    Σ' (LO : List (View.Piece (Elt F) S4x512 .f32)), { LS : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__pairwise_min_kernel i arg2 harg2 arg3 harg3 arg4 harg4 arg5 harg5) K } := by
  refine ⟨?_, ?_, fun E K => ?run⟩
  case run =>
    simp only [cc1__pairwise_min_kernel_eq_skeleton]; unfold cc1__pairwise_min_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2; obtain rfl := harg3.eq_unread hf3; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

end Cert.KernelIdeal.Reg1

end
-- ==== Proof.KIReg1.lean ====
/-
  Region 1: what the running minimum's buffer and the output block hold after every grid point, and the proof that the
  body, called by the pipeline at any point, does exactly that.
  After point `t` the running minimum holds what the point's case leaves in it: at the first block of a row, the block's
  row minima folded into +∞; otherwise folded into what point `t - 1` left. The output block is stored only at a row's
  last block, with the running minimum. The region's invariant between points says just this: before the first point the
  scoped buffers hold anything; after point `t` the running minimum's buffer holds the accumulated contents, the other
  scoped buffers anything.
-/
import proofs.«164772_j40913858462218_1_alg».proof.Proof.KIRun1First
import proofs.«164772_j40913858462218_1_alg».proof.Proof.KIRun1Mid
import proofs.«164772_j40913858462218_1_alg».proof.Proof.KIRun1Last

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scoverFirst (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : condFirst i) (hc1 : ¬condLast i) (x0 x1 : Vec F S4x512x3 .f32) (y : S4x512.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S4x512.size (by sl_kernel_rfl) y
/-- The running minimum after a row's first block: the case's pieces read back. -/
def soutFirst (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : condFirst i) (hc1 : ¬condLast i) (x0 x1 : Vec F S4x512x3 .f32) : Vec F S4x512 .f32 :=
  VS.read (Elt F) (VS.writes (Elt F) VS.junk (runFirst c i arg2 harg2 arg3 harg3 arg4 harg4 arg5 harg5 hc0 hc1 x0 x1).1)

theorem scoverMid (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : ¬condLast i) (x0 x1 : Vec F S4x512x3 .f32) (xs : Vec F S4x512 .f32) (y : S4x512.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S4x512.size (by sl_kernel_rfl) y
/-- The running minimum after a middle block, over what the point before left (`xs`). -/
def soutMid (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : ¬condLast i) (x0 x1 : Vec F S4x512x3 .f32) (xs : Vec F S4x512 .f32) : Vec F S4x512 .f32 :=
  VS.read (Elt F) (VS.writes (Elt F) VS.junk (runMid c i arg2 harg2 arg3 harg3 arg4 harg4 arg5 harg5 hc0 hc1 x0 x1 xs).1)

theorem scoverLast (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) (y : S4x512.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S4x512.size (by sl_kernel_rfl) y
/-- The running minimum after a row's last block. -/
def soutLast (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) : Vec F S4x512 .f32 :=
  VS.read (Elt F) (VS.writes (Elt F) VS.junk (runLast c i arg2 harg2 arg3 harg3 arg4 harg4 arg5 harg5 hc0 hc1 x0 x1 xs).2.1)
theorem coverLast (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) (y : S4x512.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S4x512.size (by sl_kernel_rfl) y
/-- The output block after a row's last block. -/
def outLast (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) : Vec F S4x512 .f32 :=
  VO.read (Elt F) (VO.writes (Elt F) VO.junk (runLast c i arg2 harg2 arg3 harg3 arg4 harg4 arg5 harg5 hc0 hc1 x0 x1 xs).1)

/-- Where the body stores nothing into the output block: a placeholder nothing consults (the block is neither written
    back nor read at the next point there). -/
def idleOut : Vec F S4x512 .f32 := VO.read (Elt F) VO.junk

section Acc
variable (V : (c : Dev nD) → (b : Ref sig .tc) → Buf (Elt F) ((c : Thread nD τ).loc b))

/-! ## The accumulation -/

/-- After the body at position `n`: (the output block's staging buffer, the running minimum's buffer). -/
def outsAt (c : Dev nD) : (n : ℕ) → n < cfg1.N → Vec F S4x512 .f32 × Vec F S4x512 .f32
  | 0, hn => (idleOut, soutFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((condFirst_iff ⟨0, hn⟩).mpr (Nat.zero_mod _)) (fun h => (fun h => by (try dsimp only at h); omega) ((condLast_iff ⟨0, hn⟩).mp h)) (iblk V c 0 ⟨0, hn⟩) (iblk V c 1 ⟨0, hn⟩))
  | n + 1, hn =>
    if h0 : (n + 1) % 16 = 0 then
      if h1 : (n + 1) % 16 = 15 then
        False.elim (by omega)
      else
        (idleOut, soutFirst c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((condFirst_iff ⟨n + 1, hn⟩).mpr h0) (fun h => h1 ((condLast_iff ⟨n + 1, hn⟩).mp h)) (iblk V c 0 ⟨n + 1, hn⟩) (iblk V c 1 ⟨n + 1, hn⟩))
    else
      if h1 : (n + 1) % 16 = 15 then
        (outLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (outsAt c n (Nat.lt_of_succ_lt hn)).2,
         soutLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (outsAt c n (Nat.lt_of_succ_lt hn)).2)
      else
        (idleOut, soutMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((condFirst_iff ⟨n + 1, hn⟩).mp h)) (fun h => h1 ((condLast_iff ⟨n + 1, hn⟩).mp h)) (iblk V c 0 ⟨n + 1, hn⟩) (iblk V c 1 ⟨n + 1, hn⟩) (outsAt c n (Nat.lt_of_succ_lt hn)).2)

theorem outsAt_First (c : Dev nD) (t : Fin cfg1.N) (h0 : t.val % 16 = 0) (h1 : ¬t.val % 16 = 15) :
    outsAt V c t.val t.isLt = (idleOut, soutFirst c (grid1.coords t) (ms_0 t) (hs_0 t) (ms_1 t) (hs_1 t) (ms_2 t) (hs_2 t) scM (Memref.isWhole_whole _) ((condFirst_iff t).mpr h0) (fun h => h1 ((condLast_iff t).mp h)) (iblk V c 0 t) (iblk V c 1 t)) := by
  obtain ⟨n, hn⟩ := t
  cases n with
  | zero => exact rfl
  | succ n => exact (dif_pos h0).trans ((dif_neg h1).trans rfl)

theorem outsAt_Mid (c : Dev nD) (t : Fin cfg1.N) (h0 : ¬t.val % 16 = 0) (h1 : ¬t.val % 16 = 15) :
    outsAt V c t.val t.isLt = (idleOut, soutMid c (grid1.coords t) (ms_0 t) (hs_0 t) (ms_1 t) (hs_1 t) (ms_2 t) (hs_2 t) scM (Memref.isWhole_whole _) (fun h => h0 ((condFirst_iff t).mp h)) (fun h => h1 ((condLast_iff t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_Last (c : Dev nD) (t : Fin cfg1.N) (h0 : ¬t.val % 16 = 0) (h1 : t.val % 16 = 15) :
    outsAt V c t.val t.isLt = (outLast c (grid1.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) (outsAt V c (t.val - 1) (Nat.lt_of_le_of_lt (Nat.sub_le _ _) t.isLt)).2,
      soutLast c (grid1.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the region's scoped rest at anything; afterwards the running minimum's
    buffer at what the point before left, the other scoped buffers at anything, the generator register at some state. -/
def PhiS (c : Dev nD) : (n : ℕ) → n ≤ cfg1.N → sProp 𝕄
  | 0, _ => Pipeline.ΦA spec1 c
  | n + 1, hn => iprop(owns (c : Thread nD τ) scM fullShare ((outsAt V c n hn).2) ∗ others (F := F) c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM fullShare ((outsAt V c n hn).2) ∗ others (F := F) c ∗ (∃ r, prngReg c r)) := rfl
theorem PhiS_pos (c : Dev nD) (n : ℕ) (h : n ≤ cfg1.N) (hz : n ≠ 0) :
    PhiS V c n h = iprop(owns (c : Thread nD τ) scM fullShare ((outsAt V c (n - 1) (by omega)).2) ∗ others (F := F) c ∗ (∃ r, prngReg c r)) := by
  cases n with
  | zero => exact absurd rfl hz
  | succ n => rfl

/-! ## The pipeline's proof data -/

/-- The arrays as the region finds them; after the body each input's buffer at its block, the output's at the
    accumulation's first component; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' memrefs hold their blocks; the closed forms say which case the point is in; the
    invariant hands the body the running minimum's buffer (at anything before the first point, at what the point before
    left afterwards) and takes it back at this point's contents; the other scoped buffers, the generator register and the
    core's dues pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 256 := lt_of_lt_of_eq t.isLt (show cfg1.N = 256 from N_1)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  by_cases h0 : t.val % 16 = 0
  · have h1 : ¬t.val % 16 = 15 := by omega
    rw [Dat.leavesExact_idle (dat V c) 2 t (idle_2 t (fun h => h1 ((condLast_iff t).mp h))) (noFlush_2 t (fun h => h1 ((condLast_iff t).mp h)))]
    rw [outsAt_First V c t h0 h1]
    unfold soutFirst; (try dsimp only)
    by_cases hz : t.val = 0
    · rw [PhiS_castSucc V c t, PhiS_zero V c _ _ hz]
      iintro ⟨HΦ, Ho, ⟨%d0, H0⟩, ⟨%d1, H1⟩, ⟨%d2, H2⟩⟩
      ihave HΦ' := (PhiA_open (F := F) c) $$ HΦ
      icases HΦ' with ⟨HS, Hoth, Hg⟩
      iapply ((runFirst c (grid1.coords t) (ms_0 t) (hs_0 t) (ms_1 t) (hs_1 t) (ms_2 t) (hs_2 t) scM (Memref.isWhole_whole _) ((condFirst_iff t).mpr h0) (fun h => h1 ((condLast_iff t).mp h)) (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (scoverFirst c (grid1.coords t) (ms_0 t) (hs_0 t) (ms_1 t) (hs_1 t) (ms_2 t) (hs_2 t) scM (Memref.isWhole_whole _) _ _ _ _)
        isplitl [Hoth]; · iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨HS, Hoth, Hg⟩, Ho, ⟨%d0, H0⟩, ⟨%d1, H1⟩, ⟨%d2, H2⟩⟩
      iapply ((runFirst c (grid1.coords t) (ms_0 t) (hs_0 t) (ms_1 t) (hs_1 t) (ms_2 t) (hs_2 t) scM (Memref.isWhole_whole _) ((condFirst_iff t).mpr h0) (fun h => h1 ((condLast_iff t).mp h)) (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (scoverFirst c (grid1.coords t) (ms_0 t) (hs_0 t) (ms_1 t) (hs_1 t) (ms_2 t) (hs_2 t) scM (Memref.isWhole_whole _) _ _ _ _)
        isplitl [Hoth]; · iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat V c).leavesExact 2 t = owns (c : Thread nD τ) (ms_2 t) fullShare ((dat V c).after 2 t) from by
        unfold Dat.leavesExact; rw [live_2 t ((condLast_iff t).mpr h1)], after_2]
      rw [outsAt_Last V c t h0 h1]
      unfold outLast soutLast; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runLast c (grid1.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS]
        · unfold owns; iexists _; isplitr
          swap; · iexact HS
          ipureintro; exact View.read_writes_of_cover _ _ _ _ _ (scoverLast c (grid1.coords t) (ms_0 t) (hs_0 t) (ms_1 t) (hs_1 t) (ms_2 t) (hs_2 t) scM (Memref.isWhole_whole _) _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c (grid1.coords t) (ms_0 t) (hs_0 t) (ms_1 t) (hs_1 t) (ms_2 t) (hs_2 t) scM (Memref.isWhole_whole _) _ _ _ _ _)
    · rw [Dat.leavesExact_idle (dat V c) 2 t (idle_2 t (fun h => h1 ((condLast_iff t).mp h))) (noFlush_2 t (fun h => h1 ((condLast_iff t).mp h)))]
      rw [outsAt_Mid V c t h0 h1]
      unfold soutMid; (try dsimp only)
      rw [PhiS_castSucc V c t, PhiS_pos V c _ _ hz]
      iintro ⟨⟨HS, Hoth, Hg⟩, Ho, ⟨%d0, H0⟩, ⟨%d1, H1⟩, ⟨%d2, H2⟩⟩
      iapply ((runMid c (grid1.coords t) (ms_0 t) (hs_0 t) (ms_1 t) (hs_1 t) (ms_2 t) (hs_2 t) scM (Memref.isWhole_whole _) (fun h => h0 ((condFirst_iff t).mp h)) (fun h => h1 ((condLast_iff t).mp h)) (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (scoverMid c (grid1.coords t) (ms_0 t) (hs_0 t) (ms_1 t) (hs_1 t) (ms_2 t) (hs_2 t) scM (Memref.isWhole_whole _) _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest back: the running minimum's named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 256 := N_1; omega)]
  have h : iprop(owns (c : Thread nD τ) scM fullShare ((outsAt V c ((Fin.last cfg1.N).val - 1) (by rw [Fin.val_last]; have : cfg1.N = 256 := N_1; omega)).2) ∗ others (F := F) c ∗ (∃ r, prngReg c r))
      ⊢ (iprop((∃ d, owns (c : Thread nD τ) scM fullShare d) ∗ others (F := F) c ∗ (∃ r, prngReg c r)) : sProp 𝕄) := by
    iintro ⟨HS, Hoth, Hg⟩
    isplitl [HS]; · iexists _; iexact HS
    isplitl [Hoth]; · iexact Hoth
    iexact Hg
  exact h.trans (PhiA_close (F := F) c)

end Acc

end Cert.KernelIdeal.Reg1

end
-- ==== Proof.KIWhole.lean ====
/-
  The whole program's run. @main is: the first pairwise-minimum call (query cloud = argument 0, searched cloud = argument 1,
  result array `main_v0`), the second call with the clouds swapped (result `main_v1`), then 17 host operations on the two
  result arrays. The contents of every unscoped buffer at each boundary are a fold from the launch memory: a region
  leaves its arrays at what the pipeline's write-backs leave and every other buffer as entered; the host stretch leaves
  what its operations compute. The run: every weakly fair execution terminates, nothing faults, and at the end every
  unscoped buffer holds the last fold's contents — from which both the frame claim (the arguments end as launched) and
  the value of the result are read.
-/
import proofs.«164772_j40913858462218_1_alg».proof.Proof.KIReg0
import proofs.«164772_j40913858462218_1_alg».proof.Proof.KIReg1

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Wl : Dev nD → Valuation τ sig (Elt F) := fun c b => (s₀ m ρ).mem ((c : Dev nD), b)
abbrev Vl : (c : Dev nD) → (b : Ref sig .tc) → Buf (Elt F) ((c : Thread nD τ).loc b) := fun c b => Wl m ρ c b
/-- After the first call: its arrays at what the pipeline leaves, every other buffer as launched. -/
def Wa (c : Dev nD) : Valuation τ sig (Elt F) :=
  Pipeline.withArrays spec0 c (Wl m ρ c) fun w => (Reg0.dat (Vl m ρ) c).arrAt w cfg0.N
theorem Wa_arr (c : Dev nD) (w : Fin cfg0.W) :
    Wa m ρ c (Proc.devRef .tc (Pipeline.arrRef spec0 w)) = (Reg0.dat (Vl m ρ) c).arrAt w cfg0.N := by
  unfold Wa; exact Pipeline.withArrays_arr spec0 launch0.win.arr_inj c _ _ w
theorem Wa_of_ne (c : Dev nD) (b : Ref sig .tc) (hb : ∀ w, Pipeline.arrRef spec0 w ≠ b) :
    Wa m ρ c (Proc.devRef .tc b) = Wl m ρ c (Proc.devRef .tc b) := by
  unfold Wa; exact Pipeline.withArrays_of_ne spec0 c _ _ b hb
abbrev Va : (c : Dev nD) → (b : Ref sig .tc) → Buf (Elt F) ((c : Thread nD τ).loc b) := fun c b => Wa m ρ c b
theorem hF0 (c : Dev nD) (w : Fin cfg0.W) : (Reg0.dat (Vl m ρ) c).arrAt w cfg0.N = Va m ρ c (Pipeline.arrRef spec0 w) :=
  (Wa_arr m ρ c w).symm
theorem hrest0 (c : Dev nD) : ∀ b, b ∉ Finset.univ.image (Pipeline.arrRef spec0) → Va m ρ c b = Vl m ρ c b :=
  fun b hb => Wa_of_ne m ρ c b fun w e => hb (Finset.mem_image.mpr ⟨w, Finset.mem_univ _, e⟩)
/-- After the second call. -/
def Wb (c : Dev nD) : Valuation τ sig (Elt F) :=
  Pipeline.withArrays spec1 c (Wa m ρ c) fun w => (Reg1.dat (Va m ρ) c).arrAt w cfg1.N
theorem Wb_arr (c : Dev nD) (w : Fin cfg1.W) :
    Wb m ρ c (Proc.devRef .tc (Pipeline.arrRef spec1 w)) = (Reg1.dat (Va m ρ) c).arrAt w cfg1.N := by
  unfold Wb; exact Pipeline.withArrays_arr spec1 launch1.win.arr_inj c _ _ w
theorem Wb_of_ne (c : Dev nD) (b : Ref sig .tc) (hb : ∀ w, Pipeline.arrRef spec1 w ≠ b) :
    Wb m ρ c (Proc.devRef .tc b) = Wa m ρ c (Proc.devRef .tc b) := by
  unfold Wb; exact Pipeline.withArrays_of_ne spec1 c _ _ b hb
abbrev Vb : (c : Dev nD) → (b : Ref sig .tc) → Buf (Elt F) ((c : Thread nD τ).loc b) := fun c b => Wb m ρ c b
theorem hF1 (c : Dev nD) (w : Fin cfg1.W) : (Reg1.dat (Va m ρ) c).arrAt w cfg1.N = Vb m ρ c (Pipeline.arrRef spec1 w) :=
  (Wb_arr m ρ c w).symm
theorem hrest1 (c : Dev nD) : ∀ b, b ∉ Finset.univ.image (Pipeline.arrRef spec1) → Vb m ρ c b = Va m ρ c b :=
  fun b hb => Wb_of_ne m ρ c b fun w e => hb (Finset.mem_image.mpr ⟨w, Finset.mem_univ _, e⟩)
/-- At the end: after the 17 host operations. -/
abbrev We : Dev nD → Valuation τ sig (Elt F) := fun c => StableHlo.after hostOps2 (Wb m ρ c)

/-! ## The proof data family and the thread state -/

abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => Reg0.dat (Vl m ρ) c
  | ⟨1, _⟩ => fun c => Reg1.dat (Va m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem tail_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (We m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `Wl`, left at `Wa`. Its arrays are
    split out of the unscoped buffers and put back at what the pipeline leaves; the generator register and the scoped
    rest go into the region's invariant (which from the first point on names the running minimum's contents) and come
    back with those contents forgotten; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (Vl m ρ) c).loose
  hwaits := Pipeline.hwaits_of_owed_zero _ _ _ _ L lv 0 fun _ _ => rfl
  pre c := iprop(StableHlo.held (c : Thread nD τ) (Pipeline.ucRefs τ sig) (Wl m ρ c) ∗ R c)
  post c := iprop(StableHlo.held (c : Thread nD τ) (Pipeline.ucRefs τ sig) (Wa m ρ c) ∗ R c)
  X c := iprop(∃ r, prngReg c r)
  Y c := iprop(∃ r, prngReg c r)
  Z c := Pipeline.unscopedRest (Ix := Unit) (Name := ℕ) (U := UR sig nD τ) (Lvl := ℕ) spec0 c (Vl m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vl m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg0.hin (Vl m ρ) c)
    unfold Pipeline.ΦA
    iintro ⟨Hp, -, Hr⟩
    isplitl [Hr]; · iexact Hr
    iexact Hp
  hout c := by
    refine BIBase.Entails.trans (Reg0.hout (Vl m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vl m ρ c) (Va m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `Wa`, left at `Wb`. Its arrays are
    split out of the unscoped buffers and put back at what the pipeline leaves; the generator register and the scoped
    rest go into the region's invariant (which from the first point on names the running minimum's contents) and come
    back with those contents forgotten; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (Va m ρ) c).loose
  hwaits := Pipeline.hwaits_of_owed_zero _ _ _ _ L lv 1 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec1 c (Va m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg1.hin (Va m ρ) c)
    unfold Pipeline.ΦA
    iintro ⟨Hp, -, Hr⟩
    isplitl [Hr]; · iexact Hr
    iexact Hp
  hout c := by
    refine BIBase.Entails.trans (Reg1.hout (Va m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Va m ρ c) (Vb m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .region (reg1 m ρ),
    .host (hseg hostOps2 hostOps2_sub tail_fresh (Wb m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    in every final state every unscoped buffer holds the last fold's contents `We`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = We m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m ρ c) ∗ R c)) (Tₙ := Tₙ m ρ)
    (hch := ⟨fun _ => .rfl, fun _ => .rfl, fun _ => .rfl, fun c => by
      show iprop(StableHlo.held (c : Thread nD τ) (Pipeline.ucRefs τ sig) (We m ρ c) ∗ R c)
        ⊢ (iprop(Tₙ m ρ c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wl m ρ c)
        from Pipeline.unscopedBufs_held c (Wl m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m ρ c b)
    (hfin := fun c s' => by
      iintro ⟨⟨Hh, -⟩, HSI⟩
      unfold StableHlo.held
      imodintro
      iapply (pointsTo_read_all (Pipeline.ucRefs τ sig) (fun b => (((c : Thread nD τ)).1, b)) (We m ρ c) s')
      isplitl [Hh] <;> iassumption)
    (hQ := fun s h => h)

/-! ## The arguments end as launched -/

theorem tail_keeps (W : Valuation τ sig (Elt F)) (b : Ref sig .tc) (hb : b ∈ ([main_arg0, main_arg1, main_v0, main_v1] : List (Ref sig .tc))) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, Finset.mem_singleton]
    simp only [List.mem_cons, List.mem_nil_iff, or_false] at hb
    rcases hb with rfl | rfl | rfl | rfl
    all_goals (repeat' apply And.intro) <;> exact StableHlo.devRef_ne_of_ne (by decide)))

theorem We_main_arg0 (c : Dev nD) : We m ρ c (Proc.devRef .tc main_arg0) = m ((c : Thread nD τ).loc main_arg0) :=
  calc We m ρ c (Proc.devRef .tc main_arg0)
    _ = Wb m ρ c (Proc.devRef .tc main_arg0) := tail_keeps _ main_arg0 (by decide)
    _ = Wa m ρ c (Proc.devRef .tc main_arg0) := (Wb_arr m ρ c 1).trans (((Reg1.dat (Va m ρ) c).arrAt_in 1 rfl _).trans (Reg1.A_eq (Va m ρ) c 1))
    _ = Wl m ρ c (Proc.devRef .tc main_arg0) := (Wa_arr m ρ c 0).trans (((Reg0.dat (Vl m ρ) c).arrAt_in 0 rfl _).trans (Reg0.A_eq (Vl m ρ) c 0))
    _ = m ((c : Thread nD τ).loc main_arg0) := rfl
theorem We_main_arg1 (c : Dev nD) : We m ρ c (Proc.devRef .tc main_arg1) = m ((c : Thread nD τ).loc main_arg1) :=
  calc We m ρ c (Proc.devRef .tc main_arg1)
    _ = Wb m ρ c (Proc.devRef .tc main_arg1) := tail_keeps _ main_arg1 (by decide)
    _ = Wa m ρ c (Proc.devRef .tc main_arg1) := (Wb_arr m ρ c 0).trans (((Reg1.dat (Va m ρ) c).arrAt_in 0 rfl _).trans (Reg1.A_eq (Va m ρ) c 0))
    _ = Wl m ρ c (Proc.devRef .tc main_arg1) := (Wa_arr m ρ c 1).trans (((Reg0.dat (Vl m ρ) c).arrAt_in 1 rfl _).trans (Reg0.A_eq (Vl m ρ) c 1))
    _ = m ((c : Thread nD τ).loc main_arg1) := rfl

/-- THE FRAME: every weakly fair execution terminates, nothing faults, the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (We_main_arg0 m ρ c),
     (h c _ (mem_uc main_arg1 (by decide))).trans (We_main_arg1 m ρ c)⟩) (run_all m ρ)

end Cert.KernelIdeal.Whole

end
-- ==== Proof.KIPieces0.lean ====
/-
  Region 0: what the body's stores leave, as values. At every point the running minimum ends at the body's one
  arithmetic term — the block minima of the two input blocks folded into the accumulator it loaded —, where the
  accumulator loaded is the +∞ splat just stored at a row's first block and what the point before left otherwise; and
  at a row's last block the output block receives that same value. Then the accumulation point by point is a plain
  recursion over the grid.
-/
import proofs.«164772_j40913858462218_1_alg».proof.Proof.KIReg0
import Idealize.ShloMosaic.Lib.Pipeline.Value

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem soutMid_eq (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : ¬condLast i) (x0 x1 : Vec F S4x512x3 .f32) (xs : Vec F S4x512 .f32) :
    soutMid c i arg2 harg2 arg3 harg3 arg4 harg4 arg5 harg5 hc0 hc1 x0 x1 xs = k0_pay2 x0 x1 xs := by
  unfold soutMid
  rw [View.read_writes_eq_canon _ _ _ (scoverMid c i arg2 harg2 arg3 harg3 arg4 harg4 arg5 harg5 hc0 hc1 x0 x1 xs)]
  unfold runMid
  dsimp only
  rw [View.canon_unit_zero hz2]
  simp only [View.readAt_eq_ld, harg2.read_unread, harg3.read_unread, harg5.read_unread, View.ld_unit_zero (S := S4x512x3) hz3, View.ld_unit_zero (S := S4x512) hz2]

theorem soutFirst_eq (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : condFirst i) (hc1 : ¬condLast i) (x0 x1 : Vec F S4x512x3 .f32) :
    soutFirst c i arg2 harg2 arg3 harg3 arg4 harg4 arg5 harg5 hc0 hc1 x0 x1 = k0_pay2 x0 x1 (k0_pay1 (F := F)) := by
  unfold soutFirst
  rw [View.read_writes_eq_canon _ _ _ (scoverFirst c i arg2 harg2 arg3 harg3 arg4 harg4 arg5 harg5 hc0 hc1 x0 x1)]
  unfold runFirst
  dsimp only
  sl_unfold_words
  rw [View.canon_cons_unit_zero (S := S4x512) hz2, View.readCov_unit_zero (S := S4x512) _ hz2]
  simp only [View.readAt_eq_ld, harg2.read_unread, harg3.read_unread, View.ld_unit_zero (S := S4x512x3) hz3]

theorem soutLast_eq (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) :
    soutLast c i arg2 harg2 arg3 harg3 arg4 harg4 arg5 harg5 hc0 hc1 x0 x1 xs = k0_pay2 x0 x1 xs := by
  unfold soutLast
  rw [View.read_writes_eq_canon _ _ _ (scoverLast c i arg2 harg2 arg3 harg3 arg4 harg4 arg5 harg5 hc0 hc1 x0 x1 xs)]
  unfold runLast
  dsimp only
  sl_unfold_words
  rw [View.canon_unit_zero hz2]
  simp only [View.readAt_eq_ld, harg2.read_unread, harg3.read_unread, harg5.read_unread, View.ld_unit_zero (S := S4x512x3) hz3, View.ld_unit_zero (S := S4x512) hz2]

theorem outLast_eq (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) :
    outLast c i arg2 harg2 arg3 harg3 arg4 harg4 arg5 harg5 hc0 hc1 x0 x1 xs = k0_pay2 x0 x1 xs := by
  unfold outLast
  rw [View.read_writes_eq_canon _ _ _ (coverLast c i arg2 harg2 arg3 harg3 arg4 harg4 arg5 harg5 hc0 hc1 x0 x1 xs)]
  unfold runLast
  dsimp only
  sl_unfold_words
  rw [View.canon_unit_zero hz2, View.readCov_unit_zero (S := S4x512) _ hz2]
  simp only [View.readAt_eq_ld, harg2.read_unread, harg3.read_unread, harg5.read_unread, View.ld_unit_zero (S := S4x512x3) hz3, View.ld_unit_zero (S := S4x512) hz2]

section Acc
variable (V : (c : Dev nD) → (b : Ref sig .tc) → Buf (Elt F) ((c : Thread nD τ).loc b))

/-- The running minimum after point `t`. -/
def accAt (c : Dev nD) (t : Fin cfg0.N) : Vec F S4x512 .f32 := (outsAt V c t.val t.isLt).2

/-- At a row's first block it is the block's minima folded into the +∞ splat. -/
theorem accAt_first (c : Dev nD) (t : Fin cfg0.N) (h0 : t.val % 16 = 0) :
    accAt V c t = k0_pay2 (iblk V c 0 t) (iblk V c 1 t) (k0_pay1 (F := F)) := by
  have h1 : ¬t.val % 16 = 15 := by omega
  show (outsAt V c t.val t.isLt).2 = _
  rw [outsAt_First V c t h0 h1]; dsimp only
  exact soutFirst_eq (F := F) c (grid0.coords t) (ms_0 t) (hs_0 t) (ms_1 t) (hs_1 t) (ms_2 t) (hs_2 t) scM (Memref.isWhole_whole _) ((condFirst_iff t).mpr h0) (fun h => h1 ((condLast_iff t).mp h)) (iblk V c 0 t) (iblk V c 1 t)

/-- Otherwise folded into what the point before left. -/
theorem accAt_next (c : Dev nD) (t : Fin cfg0.N) (h0 : ¬t.val % 16 = 0) :
    accAt V c t = k0_pay2 (iblk V c 0 t) (iblk V c 1 t) (accAt V c ⟨t.val - 1, Nat.lt_of_le_of_lt (Nat.sub_le _ _) t.isLt⟩) := by
  show (outsAt V c t.val t.isLt).2 = k0_pay2 (iblk V c 0 t) (iblk V c 1 t) (outsAt V c (t.val - 1) (Nat.lt_of_le_of_lt (Nat.sub_le _ _) t.isLt)).2
  by_cases h1 : t.val % 16 = 15
  · rw [outsAt_Last V c t h0 h1]; dsimp only
    exact soutLast_eq (F := F) c (grid0.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) (outsAt V c (t.val - 1) (Nat.lt_of_le_of_lt (Nat.sub_le _ _) t.isLt)).2
  · rw [outsAt_Mid V c t h0 h1]; dsimp only
    exact soutMid_eq (F := F) c (grid0.coords t) (ms_0 t) (hs_0 t) (ms_1 t) (hs_1 t) (ms_2 t) (hs_2 t) scM (Memref.isWhole_whole _) (fun h => h0 ((condFirst_iff t).mp h)) (fun h => h1 ((condLast_iff t).mp h)) (iblk V c 0 t) (iblk V c 1 t) (outsAt V c (t.val - 1) (Nat.lt_of_le_of_lt (Nat.sub_le _ _) t.isLt)).2

/-- At a row's last block the output block receives the running minimum. -/
theorem after_2_last (c : Dev nD) (t : Fin cfg0.N) (h1 : t.val % 16 = 15) :
    (dat V c).after 2 t = accAt V c t := by
  have h0 : ¬t.val % 16 = 0 := by omega
  rw [after_2]
  show (outsAt V c t.val t.isLt).1 = (outsAt V c t.val t.isLt).2
  rw [outsAt_Last V c t h0 h1]; dsimp only
  exact (outLast_eq (F := F) c (grid0.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) (outsAt V c (t.val - 1) (Nat.lt_of_le_of_lt (Nat.sub_le _ _) t.isLt)).2).trans
    (soutLast_eq (F := F) c (grid0.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) (outsAt V c (t.val - 1) (Nat.lt_of_le_of_lt (Nat.sub_le _ _) t.isLt)).2).symm

end Acc

end Cert.KernelIdeal.Reg0

end
-- ==== Proof.KIPieces1.lean ====
/-
  Region 1: what the body's stores leave, as values. At every point the running minimum ends at the body's one
  arithmetic term — the block minima of the two input blocks folded into the accumulator it loaded —, where the
  accumulator loaded is the +∞ splat just stored at a row's first block and what the point before left otherwise; and
  at a row's last block the output block receives that same value. Then the accumulation point by point is a plain
  recursion over the grid.
-/
import proofs.«164772_j40913858462218_1_alg».proof.Proof.KIReg1
import Idealize.ShloMosaic.Lib.Pipeline.Value

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem soutMid_eq (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : ¬condLast i) (x0 x1 : Vec F S4x512x3 .f32) (xs : Vec F S4x512 .f32) :
    soutMid c i arg2 harg2 arg3 harg3 arg4 harg4 arg5 harg5 hc0 hc1 x0 x1 xs = k1_pay2 x0 x1 xs := by
  unfold soutMid
  rw [View.read_writes_eq_canon _ _ _ (scoverMid c i arg2 harg2 arg3 harg3 arg4 harg4 arg5 harg5 hc0 hc1 x0 x1 xs)]
  unfold runMid
  dsimp only
  rw [View.canon_unit_zero hz2]
  simp only [View.readAt_eq_ld, harg2.read_unread, harg3.read_unread, harg5.read_unread, View.ld_unit_zero (S := S4x512x3) hz3, View.ld_unit_zero (S := S4x512) hz2]

theorem soutFirst_eq (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : condFirst i) (hc1 : ¬condLast i) (x0 x1 : Vec F S4x512x3 .f32) :
    soutFirst c i arg2 harg2 arg3 harg3 arg4 harg4 arg5 harg5 hc0 hc1 x0 x1 = k1_pay2 x0 x1 (k1_pay1 (F := F)) := by
  unfold soutFirst
  rw [View.read_writes_eq_canon _ _ _ (scoverFirst c i arg2 harg2 arg3 harg3 arg4 harg4 arg5 harg5 hc0 hc1 x0 x1)]
  unfold runFirst
  dsimp only
  sl_unfold_words
  rw [View.canon_cons_unit_zero (S := S4x512) hz2, View.readCov_unit_zero (S := S4x512) _ hz2]
  simp only [View.readAt_eq_ld, harg2.read_unread, harg3.read_unread, View.ld_unit_zero (S := S4x512x3) hz3]

theorem soutLast_eq (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) :
    soutLast c i arg2 harg2 arg3 harg3 arg4 harg4 arg5 harg5 hc0 hc1 x0 x1 xs = k1_pay2 x0 x1 xs := by
  unfold soutLast
  rw [View.read_writes_eq_canon _ _ _ (scoverLast c i arg2 harg2 arg3 harg3 arg4 harg4 arg5 harg5 hc0 hc1 x0 x1 xs)]
  unfold runLast
  dsimp only
  sl_unfold_words
  rw [View.canon_unit_zero hz2]
  simp only [View.readAt_eq_ld, harg2.read_unread, harg3.read_unread, harg5.read_unread, View.ld_unit_zero (S := S4x512x3) hz3, View.ld_unit_zero (S := S4x512) hz2]

theorem outLast_eq (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬condFirst i) (hc1 : condLast i) (x0 x1 : Vec F S4x512x3 .f32) (xs : Vec F S4x512 .f32) :
    outLast c i arg2 harg2 arg3 harg3 arg4 harg4 arg5 harg5 hc0 hc1 x0 x1 xs = k1_pay2 x0 x1 xs := by
  unfold outLast
  rw [View.read_writes_eq_canon _ _ _ (coverLast c i arg2 harg2 arg3 harg3 arg4 harg4 arg5 harg5 hc0 hc1 x0 x1 xs)]
  unfold runLast
  dsimp only
  sl_unfold_words
  rw [View.canon_unit_zero hz2, View.readCov_unit_zero (S := S4x512) _ hz2]
  simp only [View.readAt_eq_ld, harg2.read_unread, harg3.read_unread, harg5.read_unread, View.ld_unit_zero (S := S4x512x3) hz3, View.ld_unit_zero (S := S4x512) hz2]

section Acc
variable (V : (c : Dev nD) → (b : Ref sig .tc) → Buf (Elt F) ((c : Thread nD τ).loc b))

/-- The running minimum after point `t`. -/
def accAt (c : Dev nD) (t : Fin cfg1.N) : Vec F S4x512 .f32 := (outsAt V c t.val t.isLt).2

/-- At a row's first block it is the block's minima folded into the +∞ splat. -/
theorem accAt_first (c : Dev nD) (t : Fin cfg1.N) (h0 : t.val % 16 = 0) :
    accAt V c t = k1_pay2 (iblk V c 0 t) (iblk V c 1 t) (k1_pay1 (F := F)) := by
  have h1 : ¬t.val % 16 = 15 := by omega
  show (outsAt V c t.val t.isLt).2 = _
  rw [outsAt_First V c t h0 h1]; dsimp only
  exact soutFirst_eq (F := F) c (grid1.coords t) (ms_0 t) (hs_0 t) (ms_1 t) (hs_1 t) (ms_2 t) (hs_2 t) scM (Memref.isWhole_whole _) ((condFirst_iff t).mpr h0) (fun h => h1 ((condLast_iff t).mp h)) (iblk V c 0 t) (iblk V c 1 t)

/-- Otherwise folded into what the point before left. -/
theorem accAt_next (c : Dev nD) (t : Fin cfg1.N) (h0 : ¬t.val % 16 = 0) :
    accAt V c t = k1_pay2 (iblk V c 0 t) (iblk V c 1 t) (accAt V c ⟨t.val - 1, Nat.lt_of_le_of_lt (Nat.sub_le _ _) t.isLt⟩) := by
  show (outsAt V c t.val t.isLt).2 = k1_pay2 (iblk V c 0 t) (iblk V c 1 t) (outsAt V c (t.val - 1) (Nat.lt_of_le_of_lt (Nat.sub_le _ _) t.isLt)).2
  by_cases h1 : t.val % 16 = 15
  · rw [outsAt_Last V c t h0 h1]; dsimp only
    exact soutLast_eq (F := F) c (grid1.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) (outsAt V c (t.val - 1) (Nat.lt_of_le_of_lt (Nat.sub_le _ _) t.isLt)).2
  · rw [outsAt_Mid V c t h0 h1]; dsimp only
    exact soutMid_eq (F := F) c (grid1.coords t) (ms_0 t) (hs_0 t) (ms_1 t) (hs_1 t) (ms_2 t) (hs_2 t) scM (Memref.isWhole_whole _) (fun h => h0 ((condFirst_iff t).mp h)) (fun h => h1 ((condLast_iff t).mp h)) (iblk V c 0 t) (iblk V c 1 t) (outsAt V c (t.val - 1) (Nat.lt_of_le_of_lt (Nat.sub_le _ _) t.isLt)).2

/-- At a row's last block the output block receives the running minimum. -/
theorem after_2_last (c : Dev nD) (t : Fin cfg1.N) (h1 : t.val % 16 = 15) :
    (dat V c).after 2 t = accAt V c t := by
  have h0 : ¬t.val % 16 = 0 := by omega
  rw [after_2]
  show (outsAt V c t.val t.isLt).1 = (outsAt V c t.val t.isLt).2
  rw [outsAt_Last V c t h0 h1]; dsimp only
  exact (outLast_eq (F := F) c (grid1.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) (outsAt V c (t.val - 1) (Nat.lt_of_le_of_lt (Nat.sub_le _ _) t.isLt)).2).trans
    (soutLast_eq (F := F) c (grid1.coords t) (ms_0 t) (hs_0 t) (ms_1 t) (hs_1 t) (ms_2 t) (hs_2 t) scM (Memref.isWhole_whole _) (fun h => h0 ((condFirst_iff t).mp h)) ((condLast_iff t).mpr h1) (iblk V c 0 t) (iblk V c 1 t) (outsAt V c (t.val - 1) (Nat.lt_of_le_of_lt (Nat.sub_le _ _) t.isLt)).2).symm

end Acc

end Cert.KernelIdeal.Reg1

end
-- ==== Proof.Spec.lean ====
/-
  The specification both programs meet. A point cloud is 4 batches of 8192 points with 3 coordinates, its entries
  extended reals. For clouds `a` and `b`, batch `p` and points `n` of `a` and `k` of `b`, the pairwise term is

      pairTerm a b p n k = (|a p n|² + |b p k|²) - 2 · ⟨a p n, b p k⟩

  in exactly that grouping (squared norms and inner product are sums over the 3 coordinates), and

      nearest a b (p, n) = min over all k of pairTerm a b p n k,   the minimum taken from +∞.

  The minimum is the fold of `min` from the word of +∞; `2` and `+∞` stay as the float words both programs print,
  so neither is ever evaluated. Nothing here needs a finite input: only that `min`, `+` and `·` commute and
  associate, which they do on all of the extended reals.
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- The float word of `2.0`, read as an extended real. -/
def two : EReal := Ideal.ofBits .f32 0x40000000#32
/-- The float word of `+∞`, read as an extended real: where every minimum starts. -/
def pinf : EReal := Ideal.ofBits .f32 0x7F800000#32

/-- The minimum of `f` over a finite index type, taken from `+∞`. -/
def minOver {ι : Type} [Fintype ι] (f : ι → EReal) : EReal := (Finset.univ : Finset ι).fold min pinf f

/-- Lower bounds characterise it: `c` is below the minimum iff it is below `+∞`'s word and below every value. -/
theorem le_minOver {ι : Type} [Fintype ι] (f : ι → EReal) (c : EReal) : c ≤ minOver f ↔ c ≤ pinf ∧ ∀ k, c ≤ f k := by
  unfold minOver
  rw [Finset.le_fold_min]
  exact ⟨fun h => ⟨h.1, fun k => h.2 k (Finset.mem_univ k)⟩, fun h => ⟨h.1, fun k _ => h.2 k⟩⟩

/-- Two minima with the same lower bounds are equal. -/
theorem minOver_eq_of_le_iff {ι κ : Type} [Fintype ι] [Fintype κ] (f : ι → EReal) (g : κ → EReal)
    (h : ∀ c : EReal, (∀ k, c ≤ f k) ↔ (∀ k, c ≤ g k)) : minOver f = minOver g :=
  le_antisymm ((le_minOver g _).2 ⟨((le_minOver f _).1 le_rfl).1, (h _).1 ((le_minOver f _).1 le_rfl).2⟩)
    ((le_minOver f _).2 ⟨((le_minOver g _).1 le_rfl).1, (h _).2 ((le_minOver g _).1 le_rfl).2⟩)

section Points
variable {N : Nat}

/-- The squared norm of point `n` of batch `p`: the sum of its 3 squared coordinates. -/
def sqNorm (a : (⟨3, ![4, N, 3]⟩ : Shape).Idx → EReal) (p : Fin 4) (n : Fin N) : EReal :=
  ∑ d : Fin 3, a (ix3 p n d) * a (ix3 p n d)

/-- The inner product of point `n` of `a` with point `k` of `b`, in batch `p`. -/
def inner {M : Nat} (a : (⟨3, ![4, N, 3]⟩ : Shape).Idx → EReal) (b : (⟨3, ![4, M, 3]⟩ : Shape).Idx → EReal)
    (p : Fin 4) (n : Fin N) (k : Fin M) : EReal :=
  ∑ d : Fin 3, a (ix3 p n d) * b (ix3 p k d)

/-- The pairwise term, in the grouping both programs compute it in. -/
def pairTerm {M : Nat} (a : (⟨3, ![4, N, 3]⟩ : Shape).Idx → EReal) (b : (⟨3, ![4, M, 3]⟩ : Shape).Idx → EReal)
    (p : Fin 4) (n : Fin N) (k : Fin M) : EReal :=
  (sqNorm a p n + sqNorm b p k) - two * inner a b p n k

/-- The inner product is symmetric. -/
theorem inner_comm {M : Nat} (a : (⟨3, ![4, N, 3]⟩ : Shape).Idx → EReal) (b : (⟨3, ![4, M, 3]⟩ : Shape).Idx → EReal)
    (p : Fin 4) (n : Fin N) (k : Fin M) : inner a b p n k = inner b a p k n :=
  Finset.sum_congr rfl fun d _ => mul_comm _ _

/-- So is the pairwise term: swapping the clouds swaps the two points. -/
theorem pairTerm_comm {M : Nat} (a : (⟨3, ![4, N, 3]⟩ : Shape).Idx → EReal) (b : (⟨3, ![4, M, 3]⟩ : Shape).Idx → EReal)
    (p : Fin 4) (n : Fin N) (k : Fin M) : pairTerm a b p n k = pairTerm b a p k n := by
  unfold pairTerm; rw [add_comm, inner_comm]

end Points

/-- A cloud of 8192 points per batch. -/
abbrev Cloud : Type := (⟨3, ![4, 8192, 3]⟩ : Shape).Idx → EReal

/-- For point `n` of batch `p` of `a`: the least pairwise term against all 8192 points of `b`. -/
def nearestAt (a b : Cloud) (p : Fin 4) (n : Fin 8192) : EReal := minOver fun k : Fin 8192 => pairTerm a b p n k

/-- The same as an array over `[4, 8192]`. -/
def nearest (a b : Cloud) : (⟨2, ![4, 8192]⟩ : Shape).Idx → EReal :=
  fun j => nearestAt a b ⟨(j 0).val, (j 0).isLt⟩ ⟨(j 1).val, (j 1).isLt⟩

theorem nearest_ix2 (a b : Cloud) (p : Fin 4) (n : Fin 8192) : nearest a b (ix2 p n) = nearestAt a b p n := rfl

end Cert.Chamfer

end
-- ==== Proof.BlockMin.lean ====
/-
  The law that joins a minimum found block by block to the minimum over all points.

  The 8192 points of a cloud are 16 blocks of 512: point number 512·i + r is the r-th point of block i. A minimum
  taken from +∞ is determined by its lower bounds, so the minimum over all 8192 points is the minimum over the 16
  blocks of each block's own minimum; and a running minimum, started from +∞ and updated with one block's minimum
  at a time, holds after all 16 blocks the minimum over the blocks. Only that `min` is the greatest lower bound is used.
-/
import proofs.«164772_j40913858462218_1_alg».proof.Proof.Spec

noncomputable section

namespace Cert.Chamfer

open Idealize.ShloMosaic Idealize.ShloMosaic.ValueIdx

/-- point number 512·i + r, the r-th point of block i -/
def blockPt (i : Fin 16) (r : Fin 512) : Fin 8192 :=
  ⟨512 * i.val + r.val, by have := i.isLt; have := r.isLt; omega⟩

/-- every point is the (m mod 512)-th point of block m / 512 -/
theorem blockPt_div_mod (m : Fin 8192) :
    blockPt ⟨m.val / 512, by have := m.isLt; omega⟩ ⟨m.val % 512, Nat.mod_lt _ (by decide)⟩ = m := by
  apply Fin.ext
  show 512 * (m.val / 512) + m.val % 512 = m.val
  omega

/-- the minimum over 8192 = 16 × 512 points is the minimum over blocks of the blocks' minima -/
theorem minOver_blocks (f : Fin 8192 → EReal) :
    minOver f = minOver fun j : Fin 16 => minOver fun q : Fin 512 => f (blockPt j q) := by
  apply le_antisymm
  · -- the whole minimum is below +∞ and below every value, hence below every block's minimum
    have hf := (le_minOver f (minOver f)).1 le_rfl
    refine (le_minOver _ _).2 ⟨hf.1, fun j => ?_⟩
    exact (le_minOver _ _).2 ⟨hf.1, fun q => hf.2 _⟩
  · -- the minimum of the blocks' minima is below the minimum of the block that holds point m
    have hg := (le_minOver (fun j : Fin 16 => minOver fun q : Fin 512 => f (blockPt j q)) _).1 le_rfl
    refine (le_minOver _ _).2 ⟨hg.1, fun m => ?_⟩
    have h1 := hg.2 ⟨m.val / 512, by have := m.isLt; omega⟩
    have h2 := ((le_minOver _ _).1 h1).2 ⟨m.val % 512, Nat.mod_lt _ (by decide)⟩
    rw [blockPt_div_mod] at h2
    exact h2

/-- the running minimum after the first k blocks, started from +inf -/
def runMin (g : Fin 16 → EReal) : (k : ℕ) → k ≤ 16 → EReal
  | 0, _ => pinf
  | k + 1, h => min (runMin g k (Nat.le_of_succ_le h)) (g ⟨k, h⟩)

/-- its lower bounds: below +∞ and below the first k values -/
theorem le_runMin (g : Fin 16 → EReal) (c : EReal) :
    ∀ (k : ℕ) (h : k ≤ 16), c ≤ runMin g k h ↔ c ≤ pinf ∧ ∀ j : Fin 16, j.val < k → c ≤ g j
  | 0, _ => by
    show c ≤ pinf ↔ _
    exact ⟨fun h0 => ⟨h0, fun j hj => absurd hj (Nat.not_lt_zero _)⟩, fun h0 => h0.1⟩
  | k + 1, h => by
    show c ≤ min (runMin g k (Nat.le_of_succ_le h)) (g ⟨k, h⟩) ↔ _
    rw [le_min_iff, le_runMin g c k (Nat.le_of_succ_le h)]
    constructor
    · rintro ⟨⟨h0, h1⟩, h2⟩
      refine ⟨h0, fun j hj => ?_⟩
      rcases Nat.lt_succ_iff_lt_or_eq.1 hj with hlt | heq
      · exact h1 j hlt
      · have e : j = ⟨k, h⟩ := Fin.ext heq
        rw [e]; exact h2
    · rintro ⟨h0, h1⟩
      exact ⟨⟨h0, fun j hj => h1 j (Nat.lt_succ_of_lt hj)⟩, h1 ⟨k, h⟩ (Nat.lt_succ_self k)⟩

/-- after all 16 blocks the running minimum is the minimum over the blocks -/
theorem runMin_all (g : Fin 16 → EReal) : runMin g 16 le_rfl = minOver g := by
  apply le_antisymm
  · have h := (le_runMin g _ 16 le_rfl).1 le_rfl
    exact (le_minOver g _).2 ⟨h.1, fun j => h.2 j j.isLt⟩
  · have h := (le_minOver g _).1 le_rfl
    exact (le_runMin g _ 16 le_rfl).2 ⟨h.1, fun j _ => h.2 j⟩

/-- a block read through its window: if x is block i of A and y is block j of B then the block's pairwise terms are
the clouds' -/
theorem pairTerm_block (A B : Cloud) (x y : (⟨3, ![4, 512, 3]⟩ : Shape).Idx → EReal) (i j : Fin 16)
    (hx : ∀ p r d, x (ix3 p r d) = A (ix3 p (blockPt i r) d))
    (hy : ∀ p q d, y (ix3 p q d) = B (ix3 p (blockPt j q) d))
    (p : Fin 4) (r q : Fin 512) :
    pairTerm x y p r q = pairTerm A B p (blockPt i r) (blockPt j q) := by
  unfold pairTerm sqNorm inner
  simp only [hx, hy]

/-- so the nearest point, found block by block -/
theorem nearestAt_blocks (A B : Cloud) (p : Fin 4) (i : Fin 16) (r : Fin 512) :
    nearestAt A B p (blockPt i r) =
      runMin (fun j => minOver fun q : Fin 512 => pairTerm A B p (blockPt i r) (blockPt j q)) 16 le_rfl := by
  unfold nearestAt
  rw [minOver_blocks, runMin_all]

end Cert.Chamfer

end
-- ==== Proof.KIBlockReads.lean ====
import proofs.«164772_j40913858462218_1_alg».proof.Proof.KIKit0
import proofs.«164772_j40913858462218_1_alg».proof.Proof.KIKit1
import proofs.«164772_j40913858462218_1_alg».proof.Proof.BlockMin

noncomputable section

namespace Cert.Chamfer.Reads

open Idealize.ShloMosaic Idealize.ShloMosaic.TcCoe Idealize.ShloMosaic.ValueIdx Idealize.SL.Sem Cert.KernelIdeal Cert.KernelIdeal.Gen Cert.Chamfer

/-- A point of the first call's 16 × 16 grid is one of 256. -/
theorem lt0 (t : Fin cfg0.N) : t.val < 256 := lt_of_lt_of_eq t.isLt N_0

/-- The first call's index maps over the grid, walked row by row: the first window's block is (0, row, 0), the
    second's (0, column, 0), where point `t` has row `t / 16` and column `t % 16`. -/
theorem idx_facts0 : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0 :=
  (by decide +kernel : ∀ t : Fin grid0.N, _)

section Region0
variable (V : (c : Dev nD) → (b : Ref sig .tc) → Buf (Elt Ideal) ((c : Thread nD τ).loc b))

/-- The first window's block at point `t` is block `t / 16` of the first cloud: its entry (p, r, d) is the cloud's at
    point 512 · (t / 16) + r. -/
theorem iblk0_w0 (c : Dev nD) (t : Fin cfg0.N) (p : Fin 4) (r : Fin 512) (d : Fin 3) :
    Reg0.iblk V c 0 t (ix3 p r d)
      = V c main_arg0 (ix3 p (blockPt ⟨t.val / 16, by have := lt0 t; omega⟩ r) d) := by
  obtain ⟨e0, e1, e2, -, -, -⟩ := idx_facts0 t
  show V c main_arg0 (((cfg0.win 0).blk t).view.emb (ix3 p r d)) = _
  refine congrArg (V c main_arg0) (funext fun a => Fin.ext ?_)
  match a with
  | ⟨0, _⟩ => show win0_0.index t (0 : Fin 3) * 4 + 1 * p.val = p.val; omega
  | ⟨1, _⟩ => show win0_0.index t (1 : Fin 3) * 512 + 1 * r.val = 512 * (t.val / 16) + r.val; omega
  | ⟨2, _⟩ => show win0_0.index t (2 : Fin 3) * 3 + 1 * d.val = d.val; omega

/-- The second window's block at point `t` is block `t % 16` of the second cloud. -/
theorem iblk0_w1 (c : Dev nD) (t : Fin cfg0.N) (p : Fin 4) (q : Fin 512) (d : Fin 3) :
    Reg0.iblk V c 1 t (ix3 p q d)
      = V c main_arg1 (ix3 p (blockPt ⟨t.val % 16, Nat.mod_lt _ (by decide)⟩ q) d) := by
  obtain ⟨-, -, -, e0, e1, e2⟩ := idx_facts0 t
  show V c main_arg1 (((cfg0.win 1).blk t).view.emb (ix3 p q d)) = _
  refine congrArg (V c main_arg1) (funext fun a => Fin.ext ?_)
  match a with
  | ⟨0, _⟩ => show win0_1.index t (0 : Fin 3) * 4 + 1 * p.val = p.val; omega
  | ⟨1, _⟩ => show win0_1.index t (1 : Fin 3) * 512 + 1 * q.val = 512 * (t.val % 16) + q.val; omega
  | ⟨2, _⟩ => show win0_1.index t (2 : Fin 3) * 3 + 1 * d.val = d.val; omega

end Region0

/-- A point of the second call's 16 × 16 grid is one of 256. -/
theorem lt1 (t : Fin cfg1.N) : t.val < 256 := lt_of_lt_of_eq t.isLt N_1

/-- The second call's index maps over the grid: the same two maps, (0, row, 0) and (0, column, 0). -/
theorem idx_facts1 : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0 :=
  (by decide +kernel : ∀ t : Fin grid1.N, _)

section Region1
variable (V : (c : Dev nD) → (b : Ref sig .tc) → Buf (Elt Ideal) ((c : Thread nD τ).loc b))

/-- In the second call the clouds change places: its first window's block at point `t` is block `t / 16` of the
    SECOND cloud, -/
theorem iblk1_w0 (c : Dev nD) (t : Fin cfg1.N) (p : Fin 4) (r : Fin 512) (d : Fin 3) :
    Reg1.iblk V c 0 t (ix3 p r d)
      = V c main_arg1 (ix3 p (blockPt ⟨t.val / 16, by have := lt1 t; omega⟩ r) d) := by
  obtain ⟨e0, e1, e2, -, -, -⟩ := idx_facts1 t
  show V c main_arg1 (((cfg1.win 0).blk t).view.emb (ix3 p r d)) = _
  refine congrArg (V c main_arg1) (funext fun a => Fin.ext ?_)
  match a with
  | ⟨0, _⟩ => show win1_0.index t (0 : Fin 3) * 4 + 1 * p.val = p.val; omega
  | ⟨1, _⟩ => show win1_0.index t (1 : Fin 3) * 512 + 1 * r.val = 512 * (t.val / 16) + r.val; omega
  | ⟨2, _⟩ => show win1_0.index t (2 : Fin 3) * 3 + 1 * d.val = d.val; omega

/-- and its second window's block is block `t % 16` of the FIRST cloud. -/
theorem iblk1_w1 (c : Dev nD) (t : Fin cfg1.N) (p : Fin 4) (q : Fin 512) (d : Fin 3) :
    Reg1.iblk V c 1 t (ix3 p q d)
      = V c main_arg0 (ix3 p (blockPt ⟨t.val % 16, Nat.mod_lt _ (by decide)⟩ q) d) := by
  obtain ⟨-, -, -, e0, e1, e2⟩ := idx_facts1 t
  show V c main_arg0 (((cfg1.win 1).blk t).view.emb (ix3 p q d)) = _
  refine congrArg (V c main_arg0) (funext fun a => Fin.ext ?_)
  match a with
  | ⟨0, _⟩ => show win1_1.index t (0 : Fin 3) * 4 + 1 * p.val = p.val; omega
  | ⟨1, _⟩ => show win1_1.index t (1 : Fin 3) * 512 + 1 * q.val = 512 * (t.val % 16) + q.val; omega
  | ⟨2, _⟩ => show win1_1.index t (2 : Fin 3) * 3 + 1 * d.val = d.val; omega

end Region1

end Cert.Chamfer.Reads

end
-- ==== Proof.KIFinal0.lean ====
/-
  From blocks to the array, for call 0: the output of the first pairwise-minimum call.

  The output array is `[4, 8192]`; its window's blocks are `[4, 512]`, all 4 batches of 512 consecutive points. The
  grid is 16 × 16, point `t` being block row `t / 16` of the query cloud against block `t % 16` of the searched cloud, and
  the output block at point `t` is block `(0, t / 16)` of the array: entry `(p, r)` of the block is entry
  `(p, 512 · (t / 16) + r)` of the array. The block is written back exactly at the last block of each row,
  `t % 16 = 15`, so the 16 write-backs at `t = 16 · i + 15` tile the array, point `t` writing columns
  `512 · i … 512 · i + 511` of all 4 rows. Hence: if at every row's last block the output block holds, at `(p, r)`, the
  nearest distance of point `512 · (t / 16) + r`, the array ends holding the whole nearest-distance array.
-/
import proofs.«164772_j40913858462218_1_alg».proof.Proof.KIReg0
import proofs.«164772_j40913858462218_1_alg».proof.Proof.BlockMin
import Idealize.ShloMosaic.Lib.Pipeline.Value

set_option maxRecDepth 16384

noncomputable section

namespace Cert.Chamfer.Final0

open Idealize.ShloMosaic Idealize.ShloMosaic.TcCoe Idealize.ShloMosaic.ValueIdx Idealize.ShloMosaic.Pipeline Cert.KernelIdeal Cert.KernelIdeal.Gen Cert.Chamfer

variable (V : (c : Dev nD) → (b : Ref sig .tc) → Buf (Elt Ideal) ((c : Thread nD τ).loc b))

/-- The output window's index map, decided once over the grid: block 0 along the batches, block `t / 16` along the
    points. -/
theorem blockIndex : ∀ t : Fin cfg0.N, win0_2.index t (0 : Fin 2) = 0 ∧ win0_2.index t (1 : Fin 2) = t.val / 16 :=
  (by decide +kernel : ∀ t : Fin grid0.N, win0_2.index t (0 : Fin 2) = 0 ∧ win0_2.index t (1 : Fin 2) = t.val / 16)

/-- What a row's last block writes back is its block of the nearest-distance array: entry `(p, r)` of the block at point
    `t` sits at `(p, 512 · (t / 16) + r)` of the array. -/
theorem flushed_eq (c : Dev nD)
    (hlast : ∀ (t : Fin cfg0.N) (h : t.val % 16 = 15) (p : Fin 4) (r : Fin 512),
      (Reg0.dat V c).after 2 t (ix2 p r) = nearestAt (V c main_arg0) (V c main_arg1) p (blockPt ⟨t.val / 16, by have := t.isLt; have : cfg0.N = 256 := N_0; omega⟩ r))
    (t : Fin cfg0.N) (hf : (cfg0.win 2).flush t = true) :
    (Reg0.dat V c).flushed 2 t = ((cfg0.win 2).blk t).view.read (Elt Ideal) (nearest (V c main_arg0) (V c main_arg1)) := by
  have h15 : t.val % 16 = 15 := (flush0_2 t).mp hf
  obtain ⟨e0, e1⟩ := blockIndex t
  show (cfg0.win 2).cut (grid0.coords t) ((Reg0.dat V c).after 2 t) = _
  refine funext fun (y : S4x512.Idx) => ?_
  rw [View.read_apply]
  -- the block's entry, by its two coordinates
  have ey : (cfg0.win 2).xinj (grid0.coords t) y = ix2 (⟨(y 0).val, (y 0).isLt⟩ : Fin 4) (⟨(y 1).val, (y 1).isLt⟩ : Fin 512) :=
    funext fun a => Fin.ext (by match a with | ⟨0, _⟩ => rfl | ⟨1, _⟩ => rfl)
  show (Reg0.dat V c).after 2 t ((cfg0.win 2).xinj (grid0.coords t) y) = _
  rw [ey, hlast t h15]
  -- the array's entry under it
  show _ = nearestAt (V c main_arg0) (V c main_arg1) ⟨((((cfg0.win 2).blk t).view.emb y) 0).val, _⟩ ⟨((((cfg0.win 2).blk t).view.emb y) 1).val, _⟩
  congr 1
  · apply Fin.ext
    show (y 0).val = win0_2.index t (0 : Fin 2) * 4 + 1 * (y 0).val
    rw [e0]; omega
  · apply Fin.ext
    show 512 * (t.val / 16) + (y 1).val = win0_2.index t (1 : Fin 2) * 512 + 1 * (y 1).val
    rw [e1]; omega

/-- Every entry `(p, n)` of the array lies in the block written back at the last block of row `n / 512`. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 256 := N_0
  have hN' : grid0.N = 256 := N_0
  have h0 : (i 0 : Nat) < 4 := (i 0).isLt
  have h1 : (i 1 : Nat) < 8192 := (i 1).isLt
  -- the last block of the row of blocks that holds point `n`
  obtain ⟨t, ht⟩ : ∃ t : Fin cfg0.N, t.val = 16 * ((i 1 : Nat) / 512) + 15 :=
    ⟨⟨16 * ((i 1 : Nat) / 512) + 15, by omega⟩, rfl⟩
  obtain ⟨e0, e1⟩ := blockIndex t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 4 ≤ (i 0 : Nat) ∧ (i 0 : Nat) < win0_2.index t (0 : Fin 2) * 4 + 4
    rw [e0]; omega
  | ⟨1, _⟩ =>
    show win0_2.index t (1 : Fin 2) * 512 ≤ (i 1 : Nat) ∧ (i 1 : Nat) < win0_2.index t (1 : Fin 2) * 512 + 512
    rw [e1]; omega

/-- if at every row's last block the output block holds, at (p, r), the nearest distance of point 512·(t/16) + r, then
after the region the output array is the whole nearest-distance array -/
theorem final (c : Dev nD)
    (hlast : ∀ (t : Fin cfg0.N) (h : t.val % 16 = 15) (p : Fin 4) (r : Fin 512),
      (Reg0.dat V c).after 2 t (ix2 p r) = nearestAt (V c main_arg0) (V c main_arg1) p (blockPt ⟨t.val / 16, by have := t.isLt; have : cfg0.N = 256 := N_0; omega⟩ r)) :
    (Reg0.dat V c).arrAt 2 cfg0.N = nearest (V c main_arg0) (V c main_arg1) :=
  (Reg0.dat V c).arrAt_eq_of_cover 2 (nearest (V c main_arg0) (V c main_arg1)) (flushed_eq V c hlast) (cover c)

end Cert.Chamfer.Final0

end
-- ==== Proof.KIFinal1.lean ====
/-
  From blocks to the array, for call 1: the output of the second pairwise-minimum call.

  The output array is `[4, 8192]`; its window's blocks are `[4, 512]`, all 4 batches of 512 consecutive points. The
  grid is 16 × 16, point `t` being block row `t / 16` of the query cloud against block `t % 16` of the searched cloud, and
  the output block at point `t` is block `(0, t / 16)` of the array: entry `(p, r)` of the block is entry
  `(p, 512 · (t / 16) + r)` of the array. The block is written back exactly at the last block of each row,
  `t % 16 = 15`, so the 16 write-backs at `t = 16 · i + 15` tile the array, point `t` writing columns
  `512 · i … 512 · i + 511` of all 4 rows. Hence: if at every row's last block the output block holds, at `(p, r)`, the
  nearest distance of point `512 · (t / 16) + r`, the array ends holding the whole nearest-distance array.
-/
import proofs.«164772_j40913858462218_1_alg».proof.Proof.KIReg1
import proofs.«164772_j40913858462218_1_alg».proof.Proof.BlockMin
import Idealize.ShloMosaic.Lib.Pipeline.Value

set_option maxRecDepth 16384

noncomputable section

namespace Cert.Chamfer.Final1

open Idealize.ShloMosaic Idealize.ShloMosaic.TcCoe Idealize.ShloMosaic.ValueIdx Idealize.ShloMosaic.Pipeline Cert.KernelIdeal Cert.KernelIdeal.Gen Cert.Chamfer

variable (V : (c : Dev nD) → (b : Ref sig .tc) → Buf (Elt Ideal) ((c : Thread nD τ).loc b))

/-- The output window's index map, decided once over the grid: block 0 along the batches, block `t / 16` along the
    points. -/
theorem blockIndex : ∀ t : Fin cfg1.N, win1_2.index t (0 : Fin 2) = 0 ∧ win1_2.index t (1 : Fin 2) = t.val / 16 :=
  (by decide +kernel : ∀ t : Fin grid1.N, win1_2.index t (0 : Fin 2) = 0 ∧ win1_2.index t (1 : Fin 2) = t.val / 16)

/-- What a row's last block writes back is its block of the nearest-distance array: entry `(p, r)` of the block at point
    `t` sits at `(p, 512 · (t / 16) + r)` of the array. -/
theorem flushed_eq (c : Dev nD)
    (hlast : ∀ (t : Fin cfg1.N) (h : t.val % 16 = 15) (p : Fin 4) (r : Fin 512),
      (Reg1.dat V c).after 2 t (ix2 p r) = nearestAt (V c main_arg1) (V c main_arg0) p (blockPt ⟨t.val / 16, by have := t.isLt; have : cfg1.N = 256 := N_1; omega⟩ r))
    (t : Fin cfg1.N) (hf : (cfg1.win 2).flush t = true) :
    (Reg1.dat V c).flushed 2 t = ((cfg1.win 2).blk t).view.read (Elt Ideal) (nearest (V c main_arg1) (V c main_arg0)) := by
  have h15 : t.val % 16 = 15 := (flush1_2 t).mp hf
  obtain ⟨e0, e1⟩ := blockIndex t
  show (cfg1.win 2).cut (grid1.coords t) ((Reg1.dat V c).after 2 t) = _
  refine funext fun (y : S4x512.Idx) => ?_
  rw [View.read_apply]
  -- the block's entry, by its two coordinates
  have ey : (cfg1.win 2).xinj (grid1.coords t) y = ix2 (⟨(y 0).val, (y 0).isLt⟩ : Fin 4) (⟨(y 1).val, (y 1).isLt⟩ : Fin 512) :=
    funext fun a => Fin.ext (by match a with | ⟨0, _⟩ => rfl | ⟨1, _⟩ => rfl)
  show (Reg1.dat V c).after 2 t ((cfg1.win 2).xinj (grid1.coords t) y) = _
  rw [ey, hlast t h15]
  -- the array's entry under it
  show _ = nearestAt (V c main_arg1) (V c main_arg0) ⟨((((cfg1.win 2).blk t).view.emb y) 0).val, _⟩ ⟨((((cfg1.win 2).blk t).view.emb y) 1).val, _⟩
  congr 1
  · apply Fin.ext
    show (y 0).val = win1_2.index t (0 : Fin 2) * 4 + 1 * (y 0).val
    rw [e0]; omega
  · apply Fin.ext
    show 512 * (t.val / 16) + (y 1).val = win1_2.index t (1 : Fin 2) * 512 + 1 * (y 1).val
    rw [e1]; omega

/-- Every entry `(p, n)` of the array lies in the block written back at the last block of row `n / 512`. -/
theorem cover (c : Dev nD) (i : ((cfg1.win 2).arr.view.loc (c.tc : Thread nD τ)).2.ty.Idx) :
    ∃ t : Fin cfg1.N, (cfg1.win 2).flush t = true ∧ i ∈ ((cfg1.win 2).blk t).view.set := by
  have hN : cfg1.N = 256 := N_1
  have hN' : grid1.N = 256 := N_1
  have h0 : (i 0 : Nat) < 4 := (i 0).isLt
  have h1 : (i 1 : Nat) < 8192 := (i 1).isLt
  -- the last block of the row of blocks that holds point `n`
  obtain ⟨t, ht⟩ : ∃ t : Fin cfg1.N, t.val = 16 * ((i 1 : Nat) / 512) + 15 :=
    ⟨⟨16 * ((i 1 : Nat) / 512) + 15, by omega⟩, rfl⟩
  obtain ⟨e0, e1⟩ := blockIndex t
  refine ⟨t, (flush1_2 t).mpr (by omega), ?_⟩
  show i ∈ ((View.whole main_v1).slice (win1_2.rect t)).set
  rw [View.set_slice_whole, Rect.mem_set_unit]
  intro a
  match a with
  | ⟨0, _⟩ =>
    show win1_2.index t (0 : Fin 2) * 4 ≤ (i 0 : Nat) ∧ (i 0 : Nat) < win1_2.index t (0 : Fin 2) * 4 + 4
    rw [e0]; omega
  | ⟨1, _⟩ =>
    show win1_2.index t (1 : Fin 2) * 512 ≤ (i 1 : Nat) ∧ (i 1 : Nat) < win1_2.index t (1 : Fin 2) * 512 + 512
    rw [e1]; omega

/-- if at every row's last block the output block holds, at (p, r), the nearest distance of point 512·(t/16) + r, then
after the region the output array is the whole nearest-distance array -/
theorem final (c : Dev nD)
    (hlast : ∀ (t : Fin cfg1.N) (h : t.val % 16 = 15) (p : Fin 4) (r : Fin 512),
      (Reg1.dat V c).after 2 t (ix2 p r) = nearestAt (V c main_arg1) (V c main_arg0) p (blockPt ⟨t.val / 16, by have := t.isLt; have : cfg1.N = 256 := N_1; omega⟩ r)) :
    (Reg1.dat V c).arrAt 2 cfg1.N = nearest (V c main_arg1) (V c main_arg0) :=
  (Reg1.dat V c).arrAt_eq_of_cover 2 (nearest (V c main_arg1) (V c main_arg0)) (flushed_eq V c hlast) (cover c)

end Cert.Chamfer.Final1

end
-- ==== Proof.PayloadAt.lean ====
/-
  The kernel's per-block arithmetic, read at one entry.

  A block step holds 512 query points `x` and 512 searched points `y` of each of the 4 batches, and an accumulator
  `acc` with one entry per query point. It forms, for every pair (r, q), the term

      (|x r|² + |y q|²) - 2 · ⟨x r, y q⟩

  (the squared norms are sums over the 3 coordinates, spread along a row and along a column of the 512 × 512 table;
  the inner products are one batched matrix product contracting the coordinate axis), takes each row's minimum from
  +∞, and stores the minimum of that and the accumulator's entry. At the first block of a row of blocks the
  accumulator is first reset to +∞. Here every operation is read at an index, one lemma per operation that is not
  pointwise, and the results assembled: the stored entry is `min (acc) (min over q of the pairwise term)`.
-/
import proofs.«164772_j40913858462218_1_alg».proof.Proof.Spec
import proofs.«164772_j40913858462218_1_alg».proof.Proof.Gen.KernelIdeal.Skeleton
import Idealize.ShloMosaic.Lib.Pipeline.Value
import Idealize.ShloMosaic.Lib.ValueLayout

noncomputable section

open scoped BigOperators

namespace Cert.Chamfer.Pay

open Idealize.ShloMosaic Idealize.ShloMosaic.ValueIdx Cert.KernelIdeal Cert.KernelIdeal.Gen Cert.Chamfer

/-! ## The operations that are not pointwise, each at explicit coordinates -/

/-- The sum over the 3 coordinates of a `[4, 512, 3]` vector, at `(p, r)`. -/
theorem laneSum_apply (v : FVec Ideal S4x512x3 .f32) (h : S4x512x3.Reduces [2] S4x512) (hφ : FKind.Formats .f32)
    (hacc : (0x00000000#32 : BitVec 32) = FKind.add.neutral .f32 hφ) (p : Fin 4) (r : Fin 512) :
    multiReduction (F := Ideal) .add [2] S4x512 v 0x00000000#32 h hφ hacc (ix2 p r) = ∑ d : Fin 3, v (ix3 p r d) := by
  refine (Ideal.multiReduction_add_single v _ h hφ hacc (ix2 p r)).trans ?_
  refine Finset.sum_congr rfl fun d _ => ?_
  exact congrArg v (funext fun a => Fin.ext (by match a with | ⟨0, _⟩ => rfl | ⟨1, _⟩ => rfl | ⟨2, _⟩ => rfl))

/-- The minimum from +∞ over the 512 columns of a `[4, 512, 512]` vector, at `(p, r)`. -/
theorem rowMin_apply (w : FVec Ideal S4x512x512 .f32) (h : S4x512x512.Reduces [2] S4x512) (hφ : FKind.Formats .f32)
    (hacc : (0x7F800000#32 : BitVec 32) = FKind.minimumf.neutral .f32 hφ) (p : Fin 4) (r : Fin 512) :
    multiReduction (F := Ideal) .minimumf [2] S4x512 w 0x7F800000#32 h hφ hacc (ix2 p r)
      = minOver fun q : Fin 512 => w (ix3 p r q) := by
  refine (multiReduction_minimumf_eq_fold w _ h hφ hacc (ix2 p r)).trans ?_
  refine (h.fold_filter_drop_single _ _ w (ix2 p r)).trans ?_
  have e : (w ∘ h.lift (ix2 p r)) = fun q : Fin 512 => w (ix3 p r q) :=
    funext fun q => congrArg w (funext fun a => Fin.ext (by
      match a with | ⟨0, _⟩ => rfl | ⟨1, _⟩ => rfl | ⟨2, _⟩ => rfl))
  rw [e]
  rfl

/-- A `[4, 512]` vector viewed `[4, 512, 1]`: at `(p, r, z)` it reads `(p, r)`. -/
theorem colCast_apply (u : FVec Ideal S4x512 .f32) (h : S4x512.ShapeCasts S4x512x1) (p : Fin 4) (r : Fin 512) (z : Fin 1) :
    shapeCast S4x512x1 u h (ix3 p r z) = u (ix2 p r) :=
  shapeCast_apply u h _ _ (by
    have hz : z.val = 0 := by omega
    rw [Shape.rowMajor_val_three, Shape.rowMajor_val_two]
    show p.val * 512 + r.val = (p.val * 512 + r.val) * 1 + z.val
    omega)

/-- A `[4, 512]` vector viewed `[4, 1, 512]`: at `(p, z, q)` it reads `(p, q)`. -/
theorem rowCast_apply (u : FVec Ideal S4x512 .f32) (h : S4x512.ShapeCasts S4x1x512) (p : Fin 4) (z : Fin 1) (q : Fin 512) :
    shapeCast S4x1x512 u h (ix3 p z q) = u (ix2 p q) :=
  shapeCast_apply u h _ _ (by
    have hz : z.val = 0 := by omega
    rw [Shape.rowMajor_val_three, Shape.rowMajor_val_two]
    show p.val * 512 + q.val = (p.val * 1 + z.val) * 512 + q.val
    omega)

/-- A `[4, 512, 1]` column spread along the rows of `[4, 512, 512]`: at `(p, r, q)` it reads `(p, r, 0)`. -/
theorem colBroadcast_apply (c : FVec Ideal S4x512x1 .f32) (h : S4x512x1.Broadcasts S4x512x512)
    (p : Fin 4) (r q : Fin 512) : broadcastTo S4x512x512 c h (ix3 p r q) = c (ix3 p r (0 : Fin 1)) := by
  refine broadcastTo_apply c h (ix3 p r q) (ix3 p r (0 : Fin 1)) fun ax => ?_
  match ax with
  | ⟨0, _⟩ => show p.val = if (4 : Nat) = 1 then 0 else p.val; rw [if_neg (by decide)]
  | ⟨1, _⟩ => show r.val = if (512 : Nat) = 1 then 0 else r.val; rw [if_neg (by decide)]
  | ⟨2, _⟩ => show (0 : Nat) = if (1 : Nat) = 1 then 0 else q.val; rw [if_pos rfl]

/-- A `[4, 1, 512]` row spread down the columns of `[4, 512, 512]`: at `(p, r, q)` it reads `(p, 0, q)`. -/
theorem rowBroadcast_apply (c : FVec Ideal S4x1x512 .f32) (h : S4x1x512.Broadcasts S4x512x512)
    (p : Fin 4) (r q : Fin 512) : broadcastTo S4x512x512 c h (ix3 p r q) = c (ix3 p (0 : Fin 1) q) := by
  refine broadcastTo_apply c h (ix3 p r q) (ix3 p (0 : Fin 1) q) fun ax => ?_
  match ax with
  | ⟨0, _⟩ => show p.val = if (4 : Nat) = 1 then 0 else p.val; rw [if_neg (by decide)]
  | ⟨1, _⟩ => show (0 : Nat) = if (1 : Nat) = 1 then 0 else r.val; rw [if_pos rfl]
  | ⟨2, _⟩ => show q.val = if (512 : Nat) = 1 then 0 else q.val; rw [if_neg (by decide)]

/-! ## The batched matrix product at an index -/

theorem lhs_0 (i : S4x512x512.Idx) (k : dot_S4x512x3_S4x512x3_S4x512x512_2_2_1_1_0_0.contr.Idx) :
    (dot_S4x512x3_S4x512x3_S4x512x512_2_2_1_1_0_0.lhsIdx i k 0).val = (i 0).val := by
  unfold DotDims.lhsIdx
  rw [dif_pos (show (0 : Fin S4x512x3.rank) ∈ dot_S4x512x3_S4x512x3_S4x512x512_2_2_1_1_0_0.lhsBatch by decide)]
  rfl
theorem lhs_1 (i : S4x512x512.Idx) (k : dot_S4x512x3_S4x512x3_S4x512x512_2_2_1_1_0_0.contr.Idx) :
    (dot_S4x512x3_S4x512x3_S4x512x512_2_2_1_1_0_0.lhsIdx i k 1).val = (i 1).val := by
  unfold DotDims.lhsIdx
  rw [dif_neg (show ¬(1 : Fin S4x512x3.rank) ∈ dot_S4x512x3_S4x512x3_S4x512x512_2_2_1_1_0_0.lhsBatch by decide),
    dif_pos (show (1 : Fin S4x512x3.rank) ∈ dot_S4x512x3_S4x512x3_S4x512x512_2_2_1_1_0_0.lhsNonContracting by decide)]
  rfl
theorem lhs_2 (i : S4x512x512.Idx) (k : dot_S4x512x3_S4x512x3_S4x512x512_2_2_1_1_0_0.contr.Idx) :
    (dot_S4x512x3_S4x512x3_S4x512x512_2_2_1_1_0_0.lhsIdx i k 2).val = (k ⟨0, by decide⟩).val :=
  dot_S4x512x3_S4x512x3_S4x512x512_2_2_1_1_0_0.lhsIdx_val_of_single rfl i k
theorem rhs_0 (i : S4x512x512.Idx) (k : dot_S4x512x3_S4x512x3_S4x512x512_2_2_1_1_0_0.contr.Idx) :
    (dot_S4x512x3_S4x512x3_S4x512x512_2_2_1_1_0_0.rhsIdx i k 0).val = (i 0).val := by
  unfold DotDims.rhsIdx
  rw [dif_pos (show (0 : Fin S4x512x3.rank) ∈ dot_S4x512x3_S4x512x3_S4x512x512_2_2_1_1_0_0.rhsBatch by decide)]
  rfl
theorem rhs_1 (i : S4x512x512.Idx) (k : dot_S4x512x3_S4x512x3_S4x512x512_2_2_1_1_0_0.contr.Idx) :
    (dot_S4x512x3_S4x512x3_S4x512x512_2_2_1_1_0_0.rhsIdx i k 1).val = (i 2).val := by
  unfold DotDims.rhsIdx
  rw [dif_neg (show ¬(1 : Fin S4x512x3.rank) ∈ dot_S4x512x3_S4x512x3_S4x512x512_2_2_1_1_0_0.rhsBatch by decide),
    dif_pos (show (1 : Fin S4x512x3.rank) ∈ dot_S4x512x3_S4x512x3_S4x512x512_2_2_1_1_0_0.rhsNonContracting by decide)]
  rfl
theorem rhs_2 (i : S4x512x512.Idx) (k : dot_S4x512x3_S4x512x3_S4x512x512_2_2_1_1_0_0.contr.Idx) :
    (dot_S4x512x3_S4x512x3_S4x512x512_2_2_1_1_0_0.rhsIdx i k 2).val = (k ⟨0, by decide⟩).val :=
  dot_S4x512x3_S4x512x3_S4x512x512_2_2_1_1_0_0.rhsIdx_val_of_single rfl i k

/-- The matrix product into the zero splat, batch axis 0, contracting the coordinate axis of both operands: at
`(p, r, q)` the inner product of point `r` of `x` with point `q` of `y`. -/
theorem matmul_at (x y : FVec Ideal S4x512x3 .f32) (p : Fin 4) (r q : Fin 512) :
    matmul dot_S4x512x3_S4x512x3_S4x512x512_2_2_1_1_0_0 (some .fp32) x y (constant (F := Ideal) S4x512x512 .f32 0x00000000#32) (ix3 p r q)
      = ∑ d : Fin 3, x (ix3 p r d) * y (ix3 p q d) := by
  simp only [matmul]
  rw [Ideal.matmul_constant_zero_apply,
    ← Equiv.sum_comp (contrEquiv1 dot_S4x512x3_S4x512x3_S4x512x512_2_2_1_1_0_0 3 rfl rfl).symm]
  refine Finset.sum_congr rfl fun d _ => ?_
  have hk := contrEquiv1_symm_val dot_S4x512x3_S4x512x3_S4x512x512_2_2_1_1_0_0 3 rfl rfl d
  have el : dot_S4x512x3_S4x512x3_S4x512x512_2_2_1_1_0_0.lhsIdx (ix3 p r q) ((contrEquiv1 dot_S4x512x3_S4x512x3_S4x512x512_2_2_1_1_0_0 3 rfl rfl).symm d) = ix3 p r d :=
    funext fun a => Fin.ext (by
      match a with
      | ⟨0, _⟩ => exact lhs_0 _ _
      | ⟨1, _⟩ => exact lhs_1 _ _
      | ⟨2, _⟩ => exact (lhs_2 _ _).trans hk)
  have er : dot_S4x512x3_S4x512x3_S4x512x512_2_2_1_1_0_0.rhsIdx (ix3 p r q) ((contrEquiv1 dot_S4x512x3_S4x512x3_S4x512x512_2_2_1_1_0_0 3 rfl rfl).symm d) = ix3 p q d :=
    funext fun a => Fin.ext (by
      match a with
      | ⟨0, _⟩ => exact rhs_0 _ _
      | ⟨1, _⟩ => exact rhs_1 _ _
      | ⟨2, _⟩ => exact (rhs_2 _ _).trans hk)
  rw [el, er]

/-! ## The two stored values -/

/-- The value the accumulator is reset to at the first block of a row of blocks: +∞ everywhere. -/
theorem pay1_apply (j : S4x512.Idx) : k0_pay1 (F := Ideal) j = pinf := by
  unfold k0_pay1
  rw [shapeCast_self]
  rfl

/-- The value stored at each block: the accumulator's entry, lowered to the least pairwise term of the row. -/
theorem pay2_apply (x y : Vec Ideal S4x512x3 .f32) (acc : Vec Ideal S4x512 .f32) (p : Fin 4) (r : Fin 512) :
    k0_pay2 (F := Ideal) x y acc (ix2 p r)
      = min (acc (ix2 p r)) (minOver fun q : Fin 512 => pairTerm x y p r q) := by
  unfold k0_pay2
  rw [shapeCast_self]
  refine congrArg (min (acc (ix2 p r))) ?_
  refine (rowMin_apply _ _ _ _ p r).trans ?_
  refine congrArg minOver (funext fun q => ?_)
  unfold pairTerm sqNorm inner two
  refine congrArg₂ (· - ·) (congrArg₂ (· + ·) ?_ ?_) (congrArg (Ideal.ofBits .f32 0x40000000#32 * ·) ?_)
  · refine (colBroadcast_apply _ _ p r q).trans ?_
    refine (colCast_apply _ _ p r 0).trans ?_
    exact laneSum_apply _ _ _ _ p r
  · refine (rowBroadcast_apply _ _ p r q).trans ?_
    refine (rowCast_apply _ _ p 0 q).trans ?_
    exact laneSum_apply _ _ _ _ p q
  · exact matmul_at x y p r q

/-! ## The second call's copies -/

theorem k1_pay1_eq : (k1_pay1 (F := Ideal)) = k0_pay1 (F := Ideal) := rfl
theorem k1_pay2_eq : (k1_pay2 (F := Ideal)) = k0_pay2 (F := Ideal) := rfl

end Cert.Chamfer.Pay

end
-- ==== Proof.AccSteps.lean ====
/-
  Sixteen block steps along one row of blocks.

  For a fixed block of 512 query points, the body meets the 16 blocks of the searched cloud in turn. At the first it
  resets the accumulator to +∞; at each it stores the minimum of the accumulator's entry and the least pairwise term of
  the entry's row against that block. So after block k the entry of query point r is the running minimum of the first
  k + 1 blocks' minima, and after the last it is the least pairwise term against all 8192 searched points.
-/
import proofs.«164772_j40913858462218_1_alg».proof.Proof.PayloadAt
import proofs.«164772_j40913858462218_1_alg».proof.Proof.BlockMin

noncomputable section

namespace Cert.Chamfer.Pay

open Idealize.ShloMosaic Idealize.ShloMosaic.ValueIdx Cert.KernelIdeal Cert.KernelIdeal.Gen Cert.Chamfer

/-- Sixteen steps along a row of blocks: the running minimum, reset to +∞ at the row's first block and folded with
each block's row minima, ends at the nearest point of the whole searched cloud. `x j` / `y j` are the query block and
the searched block the body sees at the row's `j`-th point; `acc j` is the running minimum after it. -/
theorem acc_row (A B : Cloud) (i : Fin 16) (x y : ℕ → Vec Ideal S4x512x3 .f32) (acc : ℕ → Vec Ideal S4x512 .f32)
    (hx : ∀ j, j < 16 → ∀ (p : Fin 4) (r : Fin 512) (d : Fin 3), x j (ix3 p r d) = A (ix3 p (blockPt i r) d))
    (hy : ∀ j (hj : j < 16) (p : Fin 4) (q : Fin 512) (d : Fin 3), y j (ix3 p q d) = B (ix3 p (blockPt ⟨j, hj⟩ q) d))
    (h0 : acc 0 = k0_pay2 (F := Ideal) (x 0) (y 0) (k0_pay1 (F := Ideal)))
    (hs : ∀ j, j + 1 < 16 → acc (j + 1) = k0_pay2 (F := Ideal) (x (j + 1)) (y (j + 1)) (acc j))
    (p : Fin 4) (r : Fin 512) : acc 15 (ix2 p r) = nearestAt A B p (blockPt i r) := by
  -- after block k the entry is the running minimum of the first k + 1 blocks' minima
  have key : ∀ (k : ℕ) (hk : k < 16), acc k (ix2 p r)
      = runMin (fun j => minOver fun q : Fin 512 => pairTerm A B p (blockPt i r) (blockPt j q)) (k + 1) hk := by
    intro k
    induction k with
    | zero =>
      intro hk
      -- the first block: the accumulator was reset to +∞, so the entry is min (+∞) (block 0's minimum)
      rw [h0, pay2_apply, pay1_apply]
      show min pinf (minOver fun q : Fin 512 => pairTerm (x 0) (y 0) p r q)
        = min pinf (minOver fun q : Fin 512 => pairTerm A B p (blockPt i r) (blockPt ⟨0, hk⟩ q))
      refine congrArg (min pinf) (congrArg minOver (funext fun q => ?_))
      exact pairTerm_block A B (x 0) (y 0) i ⟨0, hk⟩ (hx 0 hk) (hy 0 hk) p r q
    | succ k ih =>
      intro hk
      -- a later block: the entry before it is the running minimum so far, and the block's terms are the clouds'
      have hk' : k < 16 := Nat.lt_of_succ_lt hk
      rw [hs k hk, pay2_apply, ih hk']
      show min (runMin (fun j => minOver fun q : Fin 512 => pairTerm A B p (blockPt i r) (blockPt j q)) (k + 1) hk')
          (minOver fun q : Fin 512 => pairTerm (x (k + 1)) (y (k + 1)) p r q)
        = min (runMin (fun j => minOver fun q : Fin 512 => pairTerm A B p (blockPt i r) (blockPt j q)) (k + 1) hk')
          (minOver fun q : Fin 512 => pairTerm A B p (blockPt i r) (blockPt ⟨k + 1, hk⟩ q))
      refine congrArg (min _) (congrArg minOver (funext fun q => ?_))
      exact pairTerm_block A B (x (k + 1)) (y (k + 1)) i ⟨k + 1, hk⟩ (hx (k + 1) hk) (hy (k + 1) hk) p r q
  -- all 16 blocks: the running minimum is the minimum over the whole searched cloud
  exact (key 15 (by decide)).trans (nearestAt_blocks A B p i r).symm

end Cert.Chamfer.Pay

end
-- ==== Proof.Tail.lean ====
import proofs.«164772_j40913858462218_1_alg».proof.Proof.Gen.KernelIdeal.Launch
import proofs.«164772_j40913858462218_1_alg».proof.Proof.Gen.ReferenceIdeal.Read
import Idealize.ShloMosaic.Lib.StableHlo.Run

noncomputable section

namespace Cert.Chamfer.Tail

open Idealize.ShloMosaic Idealize.SL.Sem

section Common
open Cert.ReferenceIdeal Cert.ReferenceIdeal.Gen

/-- The scaled mean of one distance array: every entry times the word 0x3F19999A, all of them summed from the zero
    word, the sum divided by the word 0x47000000 (the number of entries). -/
def scaledMean (d : (⟨S4x8192, .f32⟩ : BufTy).Contents (Elt Ideal)) : (⟨S_, .f32⟩ : BufTy).Contents (Elt Ideal) :=
  Host.divf (F := Ideal)
    (Host.reduceAdd (F := Ideal)
      (mulf d (broadcastInDim S4x8192 ![] bcast_S_S4x8192 (constant (F := Ideal) S_ .f32 0x3F19999A#32)))
      (constant (F := Ideal) S_ .f32 0x00000000#32) reducesTo_S4x8192_S_d0_1 h_S_)
    (constant (F := Ideal) S_ .f32 0x47000000#32)

/-- The programs' common ending, as a function of the two distance arrays: the two scaled means added, and the sum
    divided by the word 0x40000000. -/
def tail (d1 d2 : (⟨S4x8192, .f32⟩ : BufTy).Contents (Elt Ideal)) : (⟨S_, .f32⟩ : BufTy).Contents (Elt Ideal) :=
  Host.divf (F := Ideal) (addf (scaledMean d1) (scaledMean d2)) (constant (F := Ideal) S_ .f32 0x40000000#32)

/-- The reference ends with it, on its two minimum arrays. -/
theorem ref_tail (x0 x1 : (⟨S4x8192x3, .f32⟩ : BufTy).Contents (Elt Ideal)) :
    Read.val_main_v24 (F := Ideal) x0 x1
      = tail (Read.val_main_v13 (F := Ideal) x0 x1) (Read.val_main_v14 (F := Ideal) x0 x1) := rfl

end Common

section Kernel
open Cert.KernelIdeal Cert.KernelIdeal.Gen

/-- The kernel program's host operations end with it, on the two arrays its two calls wrote. -/
theorem ker_tail (W : Valuation τ sig (Elt Ideal)) :
    StableHlo.after (hostOps2 (F := Ideal)) W (Proc.devRef .tc main_v11)
      = tail (W (Proc.devRef .tc main_v0)) (W (Proc.devRef .tc main_v1)) := by
  dsimp only [hostOps2]
  after_results
  rfl

end Kernel

end Cert.Chamfer.Tail

end
-- ==== Proof.KIValue.lean ====
/-
  The idealized kernel program's result. Each call's running minimum, followed along a row of sixteen points, ends at
  the nearest distance from the row's query points to the whole searched cloud; the sixteen rows' write-backs tile the
  call's output array, which is therefore the specification's nearest-distance array: of cloud 0 against cloud 1 after
  the first call, of cloud 1 against cloud 0 after the second (the same kernel with its two operands exchanged). The
  program's result is the common host ending applied to the two arrays.
-/
import proofs.«164772_j40913858462218_1_alg».proof.Proof.KIWhole
import proofs.«164772_j40913858462218_1_alg».proof.Proof.KIPieces0
import proofs.«164772_j40913858462218_1_alg».proof.Proof.KIPieces1
import proofs.«164772_j40913858462218_1_alg».proof.Proof.KIBlockReads
import proofs.«164772_j40913858462218_1_alg».proof.Proof.KIFinal0
import proofs.«164772_j40913858462218_1_alg».proof.Proof.KIFinal1
import proofs.«164772_j40913858462218_1_alg».proof.Proof.AccSteps
import proofs.«164772_j40913858462218_1_alg».proof.Proof.Tail

noncomputable section

namespace Cert.Chamfer.KIValue

open Idealize.ShloMosaic Idealize.ShloMosaic.TcCoe Idealize.ShloMosaic.ValueIdx Idealize.SL.Sem
open Cert.KernelIdeal Cert.KernelIdeal.Gen Cert.Chamfer

section Regions
variable (V : (c : Dev nD) → (b : Ref sig .tc) → Buf (Elt Ideal) ((c : Thread nD τ).loc b))

/-- Point `j` of block row `i` of call 0. -/
def pt0 (i : Fin 16) (j : ℕ) (hj : j < 16) : Fin cfg0.N := ⟨16 * i.val + j, by rw [show cfg0.N = 256 from N_0]; have := i.isLt; omega⟩

/-- Call 0, one row of blocks: at the row's last block the output block holds, at (p, r), the nearest distance from
    point 512·i + r of the query cloud to the whole searched cloud: sixteen steps of the running minimum over the
    searched cloud's sixteen blocks. -/
theorem row0 (c : Dev nD) (t : Fin cfg0.N) (h : t.val % 16 = 15) (p : Fin 4) (r : Fin 512) :
    (Reg0.dat V c).after 2 t (ix2 p r) = nearestAt (V c main_arg0) (V c main_arg1) p (blockPt ⟨t.val / 16, by have := t.isLt; have : cfg0.N = 256 := N_0; omega⟩ r) := by
  have hN : t.val < 256 := lt_of_lt_of_eq t.isLt (show cfg0.N = 256 from N_0)
  obtain ⟨i, hi⟩ : ∃ i : Fin 16, i.val = t.val / 16 := ⟨⟨t.val / 16, by omega⟩, rfl⟩
  have ht : t = pt0 i 15 (by decide) := Fin.ext (by show t.val = 16 * i.val + 15; omega)
  have hi' : (⟨t.val / 16, by omega⟩ : Fin 16) = i := Fin.ext hi.symm
  rw [Reg0.after_2_last V c t h, hi']
  let x : ℕ → Vec Ideal S4x512x3 .f32 := fun j => if hj : j < 16 then (Reg0.iblk V c 0 (pt0 i j hj) : Vec Ideal S4x512x3 .f32) else fun _ => (0 : EReal)
  let y : ℕ → Vec Ideal S4x512x3 .f32 := fun j => if hj : j < 16 then (Reg0.iblk V c 1 (pt0 i j hj) : Vec Ideal S4x512x3 .f32) else fun _ => (0 : EReal)
  let acc : ℕ → Vec Ideal S4x512 .f32 := fun j => if hj : j < 16 then Reg0.accAt V c (pt0 i j hj) else fun _ => (0 : EReal)
  have hx : ∀ j, j < 16 → ∀ (p : Fin 4) (r : Fin 512) (d : Fin 3), x j (ix3 p r d) = (V c main_arg0 : Cloud) (ix3 p (blockPt i r) d) := by
    intro j hj p r d
    show (if hj : j < 16 then (Reg0.iblk V c 0 (pt0 i j hj) : Vec Ideal S4x512x3 .f32) else fun _ => (0 : EReal)) (ix3 p r d) = _
    rw [dif_pos hj, Reads.iblk0_w0 V c (pt0 i j hj) p r d]
    exact congrArg (fun n => (V c main_arg0 : Cloud) (ix3 p (blockPt n r) d)) (Fin.ext (by show (16 * i.val + j) / 16 = i.val; omega))
  have hy : ∀ j (hj : j < 16) (p : Fin 4) (q : Fin 512) (d : Fin 3), y j (ix3 p q d) = (V c main_arg1 : Cloud) (ix3 p (blockPt ⟨j, hj⟩ q) d) := by
    intro j hj p q d
    show (if hj : j < 16 then (Reg0.iblk V c 1 (pt0 i j hj) : Vec Ideal S4x512x3 .f32) else fun _ => (0 : EReal)) (ix3 p q d) = _
    rw [dif_pos hj, Reads.iblk0_w1 V c (pt0 i j hj) p q d]
    exact congrArg (fun n => (V c main_arg1 : Cloud) (ix3 p (blockPt n q) d)) (Fin.ext (by show (16 * i.val + j) % 16 = j; omega))
  have h0 : acc 0 = k0_pay2 (F := Ideal) (x 0) (y 0) (k0_pay1 (F := Ideal)) := by
    show (if hj : 0 < 16 then Reg0.accAt V c (pt0 i 0 hj) else fun _ => (0 : EReal)) = _
    rw [dif_pos (by decide), Reg0.accAt_first V c (pt0 i 0 (by decide)) (by show (16 * i.val + 0) % 16 = 0; omega)]
    show _ = k0_pay2 (F := Ideal) (if hj : 0 < 16 then (Reg0.iblk V c 0 (pt0 i 0 hj) : Vec Ideal S4x512x3 .f32) else fun _ => (0 : EReal)) (if hj : 0 < 16 then (Reg0.iblk V c 1 (pt0 i 0 hj) : Vec Ideal S4x512x3 .f32) else fun _ => (0 : EReal)) _
    rw [dif_pos (by decide), dif_pos (by decide)]
  have hs : ∀ j, j + 1 < 16 → acc (j + 1) = k0_pay2 (F := Ideal) (x (j + 1)) (y (j + 1)) (acc j) := by
    intro j hj
    have hj' : j < 16 := by omega
    show (if h : j + 1 < 16 then Reg0.accAt V c (pt0 i (j + 1) h) else fun _ => (0 : EReal)) = k0_pay2 (F := Ideal) (if h : j + 1 < 16 then (Reg0.iblk V c 0 (pt0 i (j + 1) h) : Vec Ideal S4x512x3 .f32) else fun _ => (0 : EReal)) (if h : j + 1 < 16 then (Reg0.iblk V c 1 (pt0 i (j + 1) h) : Vec Ideal S4x512x3 .f32) else fun _ => (0 : EReal)) (if h : j < 16 then Reg0.accAt V c (pt0 i j h) else fun _ => (0 : EReal))
    rw [dif_pos hj, dif_pos hj, dif_pos hj, dif_pos hj', Reg0.accAt_next V c (pt0 i (j + 1) hj) (by show ¬(16 * i.val + (j + 1)) % 16 = 0; omega)]
    exact congrArg (fun s => k0_pay2 (F := Ideal) (Reg0.iblk V c 0 (pt0 i (j + 1) hj)) (Reg0.iblk V c 1 (pt0 i (j + 1) hj)) (Reg0.accAt V c s)) (Fin.ext (by show 16 * i.val + (j + 1) - 1 = 16 * i.val + j; omega))
  have hrow := Pay.acc_row (V c main_arg0 : Cloud) (V c main_arg1 : Cloud) i x y acc hx hy h0 hs p r
  rw [ht]
  have e15 : acc 15 = Reg0.accAt V c (pt0 i 15 (by decide)) := by
    show (if hj : 15 < 16 then Reg0.accAt V c (pt0 i 15 hj) else fun _ => (0 : EReal)) = _
    rw [dif_pos (by decide)]
  rw [← e15]; exact hrow

/-- So after call 0 its output array is the nearest-distance array of its query cloud against its searched cloud. -/
theorem final0 (c : Dev nD) : (Reg0.dat V c).arrAt 2 cfg0.N = nearest (V c main_arg0) (V c main_arg1) :=
  Final0.final V c (row0 V c)

/-- Point `j` of block row `i` of call 1. -/
def pt1 (i : Fin 16) (j : ℕ) (hj : j < 16) : Fin cfg1.N := ⟨16 * i.val + j, by rw [show cfg1.N = 256 from N_1]; have := i.isLt; omega⟩

/-- Call 1, one row of blocks: at the row's last block the output block holds, at (p, r), the nearest distance from
    point 512·i + r of the query cloud to the whole searched cloud: sixteen steps of the running minimum over the
    searched cloud's sixteen blocks. -/
theorem row1 (c : Dev nD) (t : Fin cfg1.N) (h : t.val % 16 = 15) (p : Fin 4) (r : Fin 512) :
    (Reg1.dat V c).after 2 t (ix2 p r) = nearestAt (V c main_arg1) (V c main_arg0) p (blockPt ⟨t.val / 16, by have := t.isLt; have : cfg1.N = 256 := N_1; omega⟩ r) := by
  have hN : t.val < 256 := lt_of_lt_of_eq t.isLt (show cfg1.N = 256 from N_1)
  obtain ⟨i, hi⟩ : ∃ i : Fin 16, i.val = t.val / 16 := ⟨⟨t.val / 16, by omega⟩, rfl⟩
  have ht : t = pt1 i 15 (by decide) := Fin.ext (by show t.val = 16 * i.val + 15; omega)
  have hi' : (⟨t.val / 16, by omega⟩ : Fin 16) = i := Fin.ext hi.symm
  rw [Reg1.after_2_last V c t h, hi']
  let x : ℕ → Vec Ideal S4x512x3 .f32 := fun j => if hj : j < 16 then (Reg1.iblk V c 0 (pt1 i j hj) : Vec Ideal S4x512x3 .f32) else fun _ => (0 : EReal)
  let y : ℕ → Vec Ideal S4x512x3 .f32 := fun j => if hj : j < 16 then (Reg1.iblk V c 1 (pt1 i j hj) : Vec Ideal S4x512x3 .f32) else fun _ => (0 : EReal)
  let acc : ℕ → Vec Ideal S4x512 .f32 := fun j => if hj : j < 16 then Reg1.accAt V c (pt1 i j hj) else fun _ => (0 : EReal)
  have hx : ∀ j, j < 16 → ∀ (p : Fin 4) (r : Fin 512) (d : Fin 3), x j (ix3 p r d) = (V c main_arg1 : Cloud) (ix3 p (blockPt i r) d) := by
    intro j hj p r d
    show (if hj : j < 16 then (Reg1.iblk V c 0 (pt1 i j hj) : Vec Ideal S4x512x3 .f32) else fun _ => (0 : EReal)) (ix3 p r d) = _
    rw [dif_pos hj, Reads.iblk1_w0 V c (pt1 i j hj) p r d]
    exact congrArg (fun n => (V c main_arg1 : Cloud) (ix3 p (blockPt n r) d)) (Fin.ext (by show (16 * i.val + j) / 16 = i.val; omega))
  have hy : ∀ j (hj : j < 16) (p : Fin 4) (q : Fin 512) (d : Fin 3), y j (ix3 p q d) = (V c main_arg0 : Cloud) (ix3 p (blockPt ⟨j, hj⟩ q) d) := by
    intro j hj p q d
    show (if hj : j < 16 then (Reg1.iblk V c 1 (pt1 i j hj) : Vec Ideal S4x512x3 .f32) else fun _ => (0 : EReal)) (ix3 p q d) = _
    rw [dif_pos hj, Reads.iblk1_w1 V c (pt1 i j hj) p q d]
    exact congrArg (fun n => (V c main_arg0 : Cloud) (ix3 p (blockPt n q) d)) (Fin.ext (by show (16 * i.val + j) % 16 = j; omega))
  have h0 : acc 0 = k0_pay2 (F := Ideal) (x 0) (y 0) (k0_pay1 (F := Ideal)) := by
    show (if hj : 0 < 16 then Reg1.accAt V c (pt1 i 0 hj) else fun _ => (0 : EReal)) = _
    rw [dif_pos (by decide), Reg1.accAt_first V c (pt1 i 0 (by decide)) (by show (16 * i.val + 0) % 16 = 0; omega)]
    rw [Pay.k1_pay2_eq, Pay.k1_pay1_eq]
    show _ = k0_pay2 (F := Ideal) (if hj : 0 < 16 then (Reg1.iblk V c 0 (pt1 i 0 hj) : Vec Ideal S4x512x3 .f32) else fun _ => (0 : EReal)) (if hj : 0 < 16 then (Reg1.iblk V c 1 (pt1 i 0 hj) : Vec Ideal S4x512x3 .f32) else fun _ => (0 : EReal)) _
    rw [dif_pos (by decide), dif_pos (by decide)]
  have hs : ∀ j, j + 1 < 16 → acc (j + 1) = k0_pay2 (F := Ideal) (x (j + 1)) (y (j + 1)) (acc j) := by
    intro j hj
    have hj' : j < 16 := by omega
    show (if h : j + 1 < 16 then Reg1.accAt V c (pt1 i (j + 1) h) else fun _ => (0 : EReal)) = k0_pay2 (F := Ideal) (if h : j + 1 < 16 then (Reg1.iblk V c 0 (pt1 i (j + 1) h) : Vec Ideal S4x512x3 .f32) else fun _ => (0 : EReal)) (if h : j + 1 < 16 then (Reg1.iblk V c 1 (pt1 i (j + 1) h) : Vec Ideal S4x512x3 .f32) else fun _ => (0 : EReal)) (if h : j < 16 then Reg1.accAt V c (pt1 i j h) else fun _ => (0 : EReal))
    rw [dif_pos hj, dif_pos hj, dif_pos hj, dif_pos hj', Reg1.accAt_next V c (pt1 i (j + 1) hj) (by show ¬(16 * i.val + (j + 1)) % 16 = 0; omega)]
    rw [Pay.k1_pay2_eq]
    exact congrArg (fun s => k0_pay2 (F := Ideal) (Reg1.iblk V c 0 (pt1 i (j + 1) hj)) (Reg1.iblk V c 1 (pt1 i (j + 1) hj)) (Reg1.accAt V c s)) (Fin.ext (by show 16 * i.val + (j + 1) - 1 = 16 * i.val + j; omega))
  have hrow := Pay.acc_row (V c main_arg1 : Cloud) (V c main_arg0 : Cloud) i x y acc hx hy h0 hs p r
  rw [ht]
  have e15 : acc 15 = Reg1.accAt V c (pt1 i 15 (by decide)) := by
    show (if hj : 15 < 16 then Reg1.accAt V c (pt1 i 15 hj) else fun _ => (0 : EReal)) = _
    rw [dif_pos (by decide)]
  rw [← e15]; exact hrow

/-- So after call 1 its output array is the nearest-distance array of its query cloud against its searched cloud. -/
theorem final1 (c : Dev nD) : (Reg1.dat V c).arrAt 2 cfg1.N = nearest (V c main_arg1) (V c main_arg0) :=
  Final1.final V c (row1 V c)

end Regions

open Cert.KernelIdeal.Whole

variable (m : (ℓ : Loc nD τ sig) → Buf (Elt Ideal) ℓ) (ρ : Dev nD → PrngReg)

/-- The second call is entered with the arguments as launched: the first call writes neither. -/
theorem Va_arg0 (c : Dev nD) : Va m ρ c main_arg0 = m ((c : Thread nD τ).loc main_arg0) :=
  (Wa_arr m ρ c 0).trans (((Reg0.dat (Vl m ρ) c).arrAt_in 0 rfl _).trans (Reg0.A_eq (Vl m ρ) c 0))
theorem Va_arg1 (c : Dev nD) : Va m ρ c main_arg1 = m ((c : Thread nD τ).loc main_arg1) :=
  (Wa_arr m ρ c 1).trans (((Reg0.dat (Vl m ρ) c).arrAt_in 1 rfl _).trans (Reg0.A_eq (Vl m ρ) c 1))

/-- What the program's result buffer holds at the end. -/
def result (c : Dev nD) : Buf (Elt Ideal) ((c : Thread nD τ).loc main_v11) :=
  Tail.tail (nearest (m ((c : Thread nD τ).loc main_arg0)) (m ((c : Thread nD τ).loc main_arg1)))
    (nearest (m ((c : Thread nD τ).loc main_arg1)) (m ((c : Thread nD τ).loc main_arg0)))

theorem We_result (c : Dev nD) : We m ρ c (Proc.devRef .tc main_v11) = result m c := by
  have e0 : Wb m ρ c (Proc.devRef .tc main_v0) = nearest (m ((c : Thread nD τ).loc main_arg0)) (m ((c : Thread nD τ).loc main_arg1)) :=
    (Wb_of_ne m ρ c main_v0 (by decide)).trans ((Wa_arr m ρ c 2).trans (final0 (Vl m ρ) c))
  have e1 : Wb m ρ c (Proc.devRef .tc main_v1) = nearest (m ((c : Thread nD τ).loc main_arg1)) (m ((c : Thread nD τ).loc main_arg0)) := by
    refine (Wb_arr m ρ c 2).trans ((final1 (Va m ρ) c).trans ?_)
    rw [Va_arg0, Va_arg1]
  show StableHlo.after (hostOps2 (F := Ideal)) (Wb m ρ c) (Proc.devRef .tc main_v11) = _
  rw [Tail.ker_tail, e0, e1]; rfl

/-- THE VALUE RUN: the idealized kernel program terminates without fault, its result buffer ends at `result`, its
    arguments end as launched. -/
theorem run : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v11 (by decide))).trans (We_result m ρ c),
     (h c _ (mem_uc main_arg0 (by decide))).trans (We_main_arg0 m ρ c),
     (h c _ (mem_uc main_arg1 (by decide))).trans (We_main_arg1 m ρ c)⟩) (run_all m ρ)

end Cert.Chamfer.KIValue

end
-- ==== Proof.RefIsSpec.lean ====
import proofs.«164772_j40913858462218_1_alg».proof.Proof.Spec
import proofs.«164772_j40913858462218_1_alg».proof.Proof.Gen.ReferenceIdeal.Read

noncomputable section

open scoped BigOperators

namespace Cert.Chamfer.Ref

open Idealize.ShloMosaic Idealize.ShloMosaic.ValueIdx Cert.ReferenceIdeal Cert.ReferenceIdeal.Gen Cert.ReferenceIdeal.Read Cert.Chamfer

/-- The squared norm of the first cloud's point is read, through the two broadcasts, at (p, n, d). -/
theorem idx_sq0 (p : Fin 4) (n k : Fin 8192) (d : Fin 3) :
    idx_main_v1 (idx_main_v5 (idx_main_v7 (ix3 p n k))) d = ix3 p n d :=
  funext fun a => Fin.ext (by match a with | ⟨0, _⟩ => rfl | ⟨1, _⟩ => rfl | ⟨2, _⟩ => rfl)

/-- The squared norm of the second cloud's point is read, through the two broadcasts, at (p, k, d). -/
theorem idx_sq1 (p : Fin 4) (n k : Fin 8192) (d : Fin 3) :
    idx_main_v3 (idx_main_v6 (idx_main_v8 (ix3 p n k))) d = ix3 p k d :=
  funext fun a => Fin.ext (by match a with | ⟨0, _⟩ => rfl | ⟨1, _⟩ => rfl | ⟨2, _⟩ => rfl)

/-- The contraction reads the first cloud at (p, n, d), -/
theorem idx_l (p : Fin 4) (n k : Fin 8192) (d : Fin 3) : lidx_main_v4 (ix3 p n k) d = ix3 p n d :=
  funext fun a => Fin.ext (by match a with | ⟨0, _⟩ => rfl | ⟨1, _⟩ => rfl | ⟨2, _⟩ => rfl)

/-- and the second cloud at (p, k, d). -/
theorem idx_r (p : Fin 4) (n k : Fin 8192) (d : Fin 3) : ridx_main_v4 (ix3 p n k) d = ix3 p k d :=
  funext fun a => Fin.ext (by match a with | ⟨0, _⟩ => rfl | ⟨1, _⟩ => rfl | ⟨2, _⟩ => rfl)

/-- The pairwise matrix stage at (p, n, k) is the pairwise term. -/
theorem v12_apply (x0 x1 : (⟨S4x8192x3, .f32⟩ : BufTy).Contents (Elt Ideal)) (p : Fin 4) (n k : Fin 8192) :
    val_main_v12 (F := Ideal) x0 x1 (ix3 p n k) = pairTerm x0 x1 p n k := by
  rw [val_main_v12_apply, val_main_v9_apply, val_main_v11_apply, val_main_v7_apply, val_main_v8_apply,
    val_main_v10_apply, val_main_v4_apply, val_main_v5_apply, val_main_v6_apply, val_main_v1_apply,
    val_main_v3_apply, val_main_cst_apply, val_main_cst_0_apply, val_main_cst_1_apply]
  simp only [val_main_v0_apply, val_main_v2_apply, idx_sq0, idx_sq1, idx_l, idx_r, Ideal.subf_def, Ideal.addf_def,
    Ideal.mulf_def, Ideal.ofBits_def, Ideal.ofBits_zero_f32, zero_add]
  unfold pairTerm sqNorm inner two
  rfl

/-- Dropping the last axis of `[4, 8192, 8192]` leaves `[4, 8192]`. -/
theorem reduces_d2 : S4x8192x8192.Reduces [2] S4x8192 := by decide
/-- Dropping the middle axis of `[4, 8192, 8192]` leaves `[4, 8192]`. -/
theorem reduces_d1 : S4x8192x8192.Reduces [1] S4x8192 := by decide

/-- The index (p, n) with `k` put back on the last axis is (p, n, k). -/
theorem lift_d2 (p : Fin 4) (n k : Fin 8192) : reduces_d2.lift (ix2 p n) k = ix3 p n k := by
  funext c; apply Fin.ext
  match c with | ⟨0, _⟩ => rfl | ⟨1, _⟩ => rfl | ⟨2, _⟩ => rfl

/-- The index (p, k) with `n` put back on the middle axis is (p, n, k). -/
theorem lift_d1 (p : Fin 4) (n k : Fin 8192) : reduces_d1.lift (ix2 p k) n = ix3 p n k := by
  funext c; apply Fin.ext
  match c with | ⟨0, _⟩ => rfl | ⟨1, _⟩ => rfl | ⟨2, _⟩ => rfl

/-- The minimum over axis 2: for each point of the first cloud, the nearest of the second. -/
theorem v13_eq (x0 x1 : (⟨S4x8192x3, .f32⟩ : BufTy).Contents (Elt Ideal)) : val_main_v13 (F := Ideal) x0 x1 = nearest x0 x1 := by
  funext j
  obtain ⟨p, n, rfl⟩ : ∃ (p : Fin 4) (n : Fin 8192), j = ix2 p n := ⟨j 0, j 1, eq_ix2 j⟩
  unfold val_main_v13
  rw [Host.reduce_eq_fold_single FloatOps.minimumf _ _ reducesTo_S4x8192x8192_S4x8192_d2 reduces_d2 h_S_, nearest_ix2]
  unfold nearestAt minOver pinf
  have hf : (val_main_v12 (F := Ideal) x0 x1 ∘ reduces_d2.lift (ix2 p n)) = fun k : Fin 8192 => pairTerm x0 x1 p n k :=
    funext fun k => (congrArg (val_main_v12 (F := Ideal) x0 x1) (lift_d2 p n k)).trans (v12_apply x0 x1 p n k)
  rw [hf]
  rfl

/-- The minimum over axis 1: for each point of the SECOND cloud, the nearest of the first (the pairwise term is symmetric). -/
theorem v14_eq (x0 x1 : (⟨S4x8192x3, .f32⟩ : BufTy).Contents (Elt Ideal)) : val_main_v14 (F := Ideal) x0 x1 = nearest x1 x0 := by
  funext j
  obtain ⟨p, k, rfl⟩ : ∃ (p : Fin 4) (k : Fin 8192), j = ix2 p k := ⟨j 0, j 1, eq_ix2 j⟩
  unfold val_main_v14
  rw [Host.reduce_eq_fold_single FloatOps.minimumf _ _ reducesTo_S4x8192x8192_S4x8192_d1 reduces_d1 h_S_, nearest_ix2]
  unfold nearestAt minOver pinf
  have hf : (val_main_v12 (F := Ideal) x0 x1 ∘ reduces_d1.lift (ix2 p k)) = fun n : Fin 8192 => pairTerm x1 x0 p k n :=
    funext fun n => ((congrArg (val_main_v12 (F := Ideal) x0 x1) (lift_d1 p n k)).trans (v12_apply x0 x1 p n k)).trans
      (pairTerm_comm x0 x1 p n k)
  rw [hf]
  rfl

end Cert.Chamfer.Ref

end
-- ==== Proof.RefImports.lean ====
/-
  The reference program's run and its stages read at an index: this module only brings the two generated
  modules into the build; the equations between the reference's stages and the specification are in
  `RefIsSpec.lean`.
-/
import proofs.«164772_j40913858462218_1_alg».proof.Proof.Gen.ReferenceIdeal.Run
import proofs.«164772_j40913858462218_1_alg».proof.Proof.Gen.ReferenceIdeal.Read
-- ==== Proof.lean ====
/-
  The certificate's claim: a tiled nearest-neighbour squared-distance kernel (two calls, the second with the two point
  clouds exchanged, each keeping a running minimum over the blocks of the searched cloud) against the plain reference
  that builds the whole pairwise matrix and takes its minimum along each axis; both then average the two distance arrays
  with the same host operations.
  * The three frames: the word-level and the idealized kernel program each run to the end without fault and leave
    their arguments as launched (the programs' runs, `Whole.frame`); the reference's frame is its run with the result
    dropped.
  * The idealization rewrote nothing, so there is nothing to preserve.
  * At the ideal instance both programs end at the common host ending applied to (nearest of cloud 0 against cloud 1,
    nearest of cloud 1 against cloud 0): the kernel because a running minimum over blocks, started from +∞, is the
    minimum over all points; the reference's second array because the pairwise term is symmetric under exchanging the
    clouds together with the points. No finiteness of the inputs is used.
-/
import proofs.«164772_j40913858462218_1_alg».proof.Defs
import proofs.«164772_j40913858462218_1_alg».proof.Proof.Gen.Pre_finite_inputs
import proofs.«164772_j40913858462218_1_alg».proof.Proof.KWhole
import proofs.«164772_j40913858462218_1_alg».proof.Proof.KIValue
import proofs.«164772_j40913858462218_1_alg».proof.Proof.RefIsSpec
import proofs.«164772_j40913858462218_1_alg».proof.Proof.RefImports

noncomputable section

namespace Cert.Proof

open Idealize.ShloMosaic Idealize.SL.Sem

theorem frame_kernel : Cert.frame_Kernel := fun m ρ _ => Cert.Kernel.Whole.frame m ρ

theorem frame_kernelIdeal : Cert.frame_KernelIdeal := fun m ρ _ => Cert.KernelIdeal.Whole.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the common host ending of the two nearest-distance arrays of the (agreeing)
    arguments. -/
theorem algebraic : Cert.algebraic_KernelIdeal_ReferenceIdeal := by
  intro m ρ m' ρ' _ hagree
  refine ⟨fun c => Cert.Chamfer.KIValue.result m c, Cert.Chamfer.KIValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.Chamfer.Tail.ref_tail, Cert.Chamfer.Ref.v13_eq, Cert.Chamfer.Ref.v14_eq,
    (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
